-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x128 : Shape := ⟨2, ![50000, 128]⟩
abbrev S64x64 : Shape := ⟨2, ![64, 64]⟩
abbrev S64 : Shape := ⟨1, ![64]⟩
abbrev S128x64 : Shape := ⟨2, ![128, 64]⟩
abbrev S2000000 : Shape := ⟨1, ![2000000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64x64 .f32) (main_arg12 : FVec F S64 .f32) (main_arg13 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_v63 main_v67

def fn_part2 {F : FTy → Type} [FloatOps F] (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_v48 main_v49 main_v50

def fn_part1 {F : FTy → Type} [FloatOps F] (main_arg4 : FVec F S128x64 .f32) (main_arg5 : FVec F S128x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x64 .f32) (main_arg1 : FVec F S50000x128 .f32) (main_arg2 : FVec F S64x64 .f32) (main_arg3 : FVec F S64 .f32) (main_arg4 : FVec F S128x64 .f32) (main_arg5 : FVec F S128x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : IVec S2000000 32) (main_arg15 : IVec S2000000 32) (main_arg16 : IVec S500000 32) (main_arg17 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x64 : Shape := ⟨2, ![100000, 64]⟩
abbrev S50000x128 : Shape := ⟨2, ![50000, 128]⟩
abbrev S64x64 : Shape := ⟨2, ![64, 64]⟩
abbrev S64 : Shape := ⟨1, ![64]⟩
abbrev S128x64 : Shape := ⟨2, ![128, 64]⟩
abbrev S2000000 : Shape := ⟨1, ![2000000]⟩
abbrev S500000 : Shape := ⟨1, ![500000]⟩
abbrev S_ : Shape := ⟨0, ![]⟩
abbrev S50000 : Shape := ⟨1, ![50000]⟩
abbrev S2000000x1 : Shape := ⟨2, ![2000000, 1]⟩
abbrev S100000 : Shape := ⟨1, ![100000]⟩
abbrev S50000x1 : Shape := ⟨2, ![50000, 1]⟩
abbrev S100000x1 : Shape := ⟨2, ![100000, 1]⟩
abbrev S2000000x64 : Shape := ⟨2, ![2000000, 64]⟩
abbrev S50000x64 : Shape := ⟨2, ![50000, 64]⟩
abbrev S1x64 : Shape := ⟨2, ![1, 64]⟩
abbrev S5000x64 : Shape := ⟨2, ![5000, 64]⟩
abbrev S5000x1 : Shape := ⟨2, ![5000, 1]⟩
abbrev S5000x128 : Shape := ⟨2, ![5000, 128]⟩
abbrev S500000x1 : Shape := ⟨2, ![500000, 1]⟩
abbrev S500000x64 : Shape := ⟨2, ![500000, 64]⟩

abbrev nBuf : Space → Nat
  | .hbm => 128
  | .vmem => 43
  | .smem => 0
  | _ => 0

abbrev bufTy : (tb : Table) → Fin (tcTables nBuf tb) → BufTy
  | .hbm, ⟨0, _⟩ => ⟨S100000x64, .f32⟩
  | .hbm, ⟨1, _⟩ => ⟨S50000x128, .f32⟩
  | .hbm, ⟨2, _⟩ => ⟨S64x64, .f32⟩
  | .hbm, ⟨3, _⟩ => ⟨S64, .f32⟩
  | .hbm, ⟨4, _⟩ => ⟨S128x64, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S2000000, .i32⟩
  | .hbm, ⟨15, _⟩ => ⟨S2000000, .i32⟩
  | .hbm, ⟨16, _⟩ => ⟨S500000, .i32⟩
  | .hbm, ⟨17, _⟩ => ⟨S500000, .i32⟩
  | .hbm, ⟨18, _⟩ => ⟨S_, .i32⟩
  | .hbm, ⟨19, _⟩ => ⟨S2000000, .i32⟩
  | .hbm, ⟨20, _⟩ => ⟨S_, .i32⟩
  | .hbm, ⟨21, _⟩ => ⟨S50000, .i32⟩
  | .hbm, ⟨22, _⟩ => ⟨S2000000x1, .i32⟩
  | .hbm, ⟨23, _⟩ => ⟨S50000, .i32⟩
  | .hbm, ⟨24, _⟩ => ⟨S50000, .f32⟩
  | .hbm, ⟨25, _⟩ => ⟨S_, .i32⟩
  | .hbm, ⟨26, _⟩ => ⟨S2000000, .i32⟩
  | .hbm, ⟨27, _⟩ => ⟨S_, .i32⟩
  | .hbm, ⟨28, _⟩ => ⟨S100000, .i32⟩
  | .hbm, ⟨29, _⟩ => ⟨S2000000x1, .i32⟩
  | .hbm, ⟨30, _⟩ => ⟨S100000, .i32⟩
  | .hbm, ⟨31, _⟩ => ⟨S100000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S_, .i32⟩
  | .hbm, ⟨47, _⟩ => ⟨S2000000, .i32⟩
  | .hbm, ⟨48, _⟩ => ⟨S2000000, .i1⟩
  | .hbm, ⟨49, _⟩ => ⟨S_, .i32⟩
  | .hbm, ⟨50, _⟩ => ⟨S2000000, .i32⟩
  | .hbm, ⟨51, _⟩ => ⟨S2000000, .i32⟩
  | .hbm, ⟨52, _⟩ => ⟨S2000000, .i32⟩
  | .hbm, ⟨53, _⟩ => ⟨S2000000x1, .i32⟩
  | .hbm, ⟨54, _⟩ => ⟨S2000000x64, .f32⟩
  | .hbm, ⟨55, _⟩ => ⟨S_, .f32⟩
  | .hbm, ⟨56, _⟩ => ⟨S50000x64, .f32⟩
  | .hbm, ⟨57, _⟩ => ⟨S2000000x1, .i32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S_, .i32⟩
  | .hbm, ⟨63, _⟩ => ⟨S2000000, .i32⟩
  | .hbm, ⟨64, _⟩ => ⟨S2000000, .i1⟩
  | .hbm, ⟨65, _⟩ => ⟨S_, .i32⟩
  | .hbm, ⟨66, _⟩ => ⟨S2000000, .i32⟩
  | .hbm, ⟨67, _⟩ => ⟨S2000000, .i32⟩
  | .hbm, ⟨68, _⟩ => ⟨S2000000, .i32⟩
  | .hbm, ⟨69, _⟩ => ⟨S2000000x1, .i32⟩
  | .hbm, ⟨70, _⟩ => ⟨S2000000x64, .f32⟩
  | .hbm, ⟨71, _⟩ => ⟨S_, .f32⟩
  | .hbm, ⟨72, _⟩ => ⟨S100000x64, .f32⟩
  | .hbm, ⟨73, _⟩ => ⟨S2000000x1, .i32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S_, .i32⟩
  | .hbm, ⟨78, _⟩ => ⟨S2000000, .i32⟩
  | .hbm, ⟨79, _⟩ => ⟨S2000000, .i1⟩
  | .hbm, ⟨80, _⟩ => ⟨S_, .i32⟩
  | .hbm, ⟨81, _⟩ => ⟨S2000000, .i32⟩
  | .hbm, ⟨82, _⟩ => ⟨S2000000, .i32⟩
  | .hbm, ⟨83, _⟩ => ⟨S2000000, .i32⟩
  | .hbm, ⟨84, _⟩ => ⟨S2000000x1, .i32⟩
  | .hbm, ⟨85, _⟩ => ⟨S2000000x64, .f32⟩
  | .hbm, ⟨86, _⟩ => ⟨S_, .f32⟩
  | .hbm, ⟨87, _⟩ => ⟨S50000x64, .f32⟩
  | .hbm, ⟨88, _⟩ => ⟨S2000000x1, .i32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S_, .i32⟩
  | .hbm, ⟨93, _⟩ => ⟨S2000000, .i32⟩
  | .hbm, ⟨94, _⟩ => ⟨S2000000, .i1⟩
  | .hbm, ⟨95, _⟩ => ⟨S_, .i32⟩
  | .hbm, ⟨96, _⟩ => ⟨S2000000, .i32⟩
  | .hbm, ⟨97, _⟩ => ⟨S2000000, .i32⟩
  | .hbm, ⟨98, _⟩ => ⟨S2000000, .i32⟩
  | .hbm, ⟨99, _⟩ => ⟨S2000000x1, .i32⟩
  | .hbm, ⟨100, _⟩ => ⟨S2000000x64, .f32⟩
  | .hbm, ⟨101, _⟩ => ⟨S_, .f32⟩
  | .hbm, ⟨102, _⟩ => ⟨S100000x64, .f32⟩
  | .hbm, ⟨103, _⟩ => ⟨S2000000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S_, .i32⟩
  | .hbm, ⟨108, _⟩ => ⟨S500000, .i32⟩
  | .hbm, ⟨109, _⟩ => ⟨S500000, .i1⟩
  | .hbm, ⟨110, _⟩ => ⟨S_, .i32⟩
  | .hbm, ⟨111, _⟩ => ⟨S500000, .i32⟩
  | .hbm, ⟨112, _⟩ => ⟨S500000, .i32⟩
  | .hbm, ⟨113, _⟩ => ⟨S500000, .i32⟩
  | .hbm, ⟨114, _⟩ => ⟨S500000x1, .i32⟩
  | .hbm, ⟨115, _⟩ => ⟨S500000x64, .f32⟩
  | .hbm, ⟨116, _⟩ => ⟨S_, .i32⟩
  | .hbm, ⟨117, _⟩ => ⟨S500000, .i32⟩
  | .hbm, ⟨118, _⟩ => ⟨S500000, .i1⟩
  | .hbm, ⟨119, _⟩ => ⟨S_, .i32⟩
  | .hbm, ⟨120, _⟩ => ⟨S500000, .i32⟩
  | .hbm, ⟨121, _⟩ => ⟨S500000, .i32⟩
  | .hbm, ⟨122, _⟩ => ⟨S500000, .i32⟩
  | .hbm, ⟨123, _⟩ => ⟨S500000x1, .i32⟩
  | .hbm, ⟨124, _⟩ => ⟨S500000x64, .f32⟩
  | .hbm, ⟨125, _⟩ => ⟨S500000x64, .f32⟩
  | .hbm, ⟨126, _⟩ => ⟨S_, .f32⟩
  | .hbm, ⟨127, _⟩ => ⟨S500000, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S64x64, .f32⟩
  | .local _ .vmem, ⟨7, _⟩ => ⟨S1x64, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S1x64, .f32⟩
  | .local _ .vmem, ⟨29, _⟩ => ⟨S64x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x1, .f32⟩
  | .local _ .vmem, ⟨35, _⟩ => ⟨S5000x1, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S5000x64, .f32⟩
  | .local _ .vmem, ⟨42, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_c_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_c_2 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_4 : Ref sig .tc := ⟨.hbm, 39, rfl⟩
abbrev main_v15 : Ref sig .tc := ⟨.hbm, 40, rfl⟩
abbrev main_v16 : Ref sig .tc := ⟨.hbm, 41, rfl⟩
abbrev main_cst_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_6 : Ref sig .tc := ⟨.hbm, 46, rfl⟩
abbrev main_v20 : Ref sig .tc := ⟨.hbm, 47, rfl⟩
abbrev main_v21 : Ref sig .tc := ⟨.hbm, 48, rfl⟩
abbrev main_c_7 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_8 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_9 : Ref sig .tc := ⟨.hbm, 62, rfl⟩
abbrev main_v33 : Ref sig .tc := ⟨.hbm, 63, rfl⟩
abbrev main_v34 : Ref sig .tc := ⟨.hbm, 64, rfl⟩
abbrev main_c_10 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_11 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_12 : Ref sig .tc := ⟨.hbm, 77, rfl⟩
abbrev main_v45 : Ref sig .tc := ⟨.hbm, 78, rfl⟩
abbrev main_v46 : Ref sig .tc := ⟨.hbm, 79, rfl⟩
abbrev main_c_13 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_14 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_15 : Ref sig .tc := ⟨.hbm, 92, rfl⟩
abbrev main_v57 : Ref sig .tc := ⟨.hbm, 93, rfl⟩
abbrev main_v58 : Ref sig .tc := ⟨.hbm, 94, rfl⟩
abbrev main_c_16 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_18 : Ref sig .tc := ⟨.hbm, 107, rfl⟩
abbrev main_v69 : Ref sig .tc := ⟨.hbm, 108, rfl⟩
abbrev main_v70 : Ref sig .tc := ⟨.hbm, 109, rfl⟩
abbrev main_c_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_20 : Ref sig .tc := ⟨.hbm, 116, rfl⟩
abbrev main_v76 : Ref sig .tc := ⟨.hbm, 117, rfl⟩
abbrev main_v77 : Ref sig .tc := ⟨.hbm, 118, rfl⟩
abbrev main_c_21 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_22 : Ref sig .tc := ⟨.hbm, 126, rfl⟩
abbrev main_v84 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg6_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem6_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S2000000 : S_.BroadcastsInDim S2000000 (![] : Fin 0 → Fin S2000000.rank)
  bcast_S_S50000 : S_.BroadcastsInDim S50000 (![] : Fin 0 → Fin S50000.rank)
  bcast_S2000000_S2000000x1_0 : S2000000.BroadcastsInDim S2000000x1 (![0] : Fin 1 → Fin S2000000x1.rank)
  bcast_S_S100000 : S_.BroadcastsInDim S100000 (![] : Fin 0 → Fin S100000.rank)
  shapeCasts_S50000_S50000x1 : S50000.ShapeCasts S50000x1
  shapeCasts_S100000_S100000x1 : S100000.ShapeCasts S100000x1
  bcast_S_S50000x64 : S_.BroadcastsInDim S50000x64 (![] : Fin 0 → Fin S50000x64.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S100000x64 : S_.BroadcastsInDim S100000x64 (![] : Fin 0 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  scatter_S50000_S2000000x1_S2000000_n_0_0_1_wf : ScatterDims.WF S50000 S2000000x1 S2000000 [] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S50000x128_S128x64_S50000x64_1_0_0_1_n_n_wf : DotDims.WF S50000x128 S128x64 S50000x64 [1] [0] [0] [1] [] []
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

abbrev win0_0 : Pipeline.Window sig grid0 :=
  Pipeline.Window.ofSpec (Memref.whole main_v29) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x128 : Shape := ⟨2, ![50000, 128]⟩
abbrev S64x64 : Shape := ⟨2, ![64, 64]⟩
abbrev S64 : Shape := ⟨1, ![64]⟩
abbrev S128x64 : Shape := ⟨2, ![128, 64]⟩
abbrev S2000000 : Shape := ⟨1, ![2000000]⟩
abbrev S500000 : Shape := ⟨1, ![500000]⟩
abbrev S_ : Shape := ⟨0, ![]⟩
abbrev S2000000x1 : Shape := ⟨2, ![2000000, 1]⟩
abbrev S2000000x64 : Shape := ⟨2, ![2000000, 64]⟩
abbrev S50000x64 : Shape := ⟨2, ![50000, 64]⟩
abbrev S50000 : Shape := ⟨1, ![50000]⟩
abbrev S50000x1 : Shape := ⟨2, ![50000, 1]⟩
abbrev S1x64 : Shape := ⟨2, ![1, 64]⟩
abbrev S2000000x128 : Shape := ⟨2, ![2000000, 128]⟩
abbrev S100000x128 : Shape := ⟨2, ![100000, 128]⟩
abbrev S100000 : Shape := ⟨1, ![100000]⟩
abbrev S100000x1 : Shape := ⟨2, ![100000, 1]⟩
abbrev S500000x1 : Shape := ⟨2, ![500000, 1]⟩
abbrev S500000x64 : Shape := ⟨2, ![500000, 64]⟩

abbrev nBuf : Space → Nat
  | .hbm => 169
  | .vmem => 0
  | .smem => 0
  | _ => 0

abbrev hbmTy0_0 (i : Nat) : BufTy := match i % 128 with
  | 0 => ⟨S100000x64, .f32⟩
  | 1 => ⟨S50000x128, .f32⟩
  | 2 => ⟨S64x64, .f32⟩
  | 3 => ⟨S64, .f32⟩
  | 4 => ⟨S128x64, .f32⟩
  | 5 => ⟨S128x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S2000000, .i32⟩
  | 15 => ⟨S2000000, .i32⟩
  | 16 => ⟨S500000, .i32⟩
  | 17 => ⟨S500000, .i32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x64, .f32⟩
  | 27 => ⟨S_, .f32⟩
  | 28 => ⟨S50000x64, .f32⟩
  | 29 => ⟨S2000000x1, .i32⟩
  | 30 => ⟨S50000x64, .f32⟩
  | 31 => ⟨S_, .f32⟩
  | 32 => ⟨S2000000, .f32⟩
  | 33 => ⟨S_, .f32⟩
  | 34 => ⟨S50000, .f32⟩
  | 35 => ⟨S2000000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x128, .f32⟩
  | 61 => ⟨S_, .f32⟩
  | 62 => ⟨S100000x128, .f32⟩
  | 63 => ⟨S2000000x1, .i32⟩
  | 64 => ⟨S100000x128, .f32⟩
  | 65 => ⟨S_, .f32⟩
  | 66 => ⟨S2000000, .f32⟩
  | 67 => ⟨S_, .f32⟩
  | 68 => ⟨S100000, .f32⟩
  | 69 => ⟨S2000000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x64, .f32⟩
  | 78 => ⟨S1x64, .f32⟩
  | 79 => ⟨S100000x64, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S2000000x64, .f32⟩
  | 95 => ⟨S_, .f32⟩
  | 96 => ⟨S50000x64, .f32⟩
  | 97 => ⟨S2000000x1, .i32⟩
  | 98 => ⟨S50000x64, .f32⟩
  | 99 => ⟨S_, .f32⟩
  | 100 => ⟨S2000000, .f32⟩
  | 101 => ⟨S_, .f32⟩
  | 102 => ⟨S50000, .f32⟩
  | 103 => ⟨S2000000x1, .i32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S50000x64, .f32⟩
  | 116 => ⟨S50000x64, .f32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S2000000x1, .i32⟩
  | 125 => ⟨S2000000x64, .f32⟩
  | 126 => ⟨S_, .f32⟩
  | 127 => ⟨S100000x64, .f32⟩
  | _ => ⟨S100000x64, .f32⟩

abbrev hbmTy0_1 (i : Nat) : BufTy := match i % 128 with
  | 0 => ⟨S2000000x1, .i32⟩
  | 1 => ⟨S100000x64, .f32⟩
  | 2 => ⟨S_, .f32⟩
  | 3 => ⟨S2000000, .f32⟩
  | 4 => ⟨S_, .f32⟩
  | 5 => ⟨S100000, .f32⟩
  | 6 => ⟨S2000000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S100000x64, .f32⟩
  | 19 => ⟨S100000x64, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x64, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x64, .f32⟩
  | 38 => ⟨S500000x64, .f32⟩
  | 39 => ⟨S_, .f32⟩
  | 40 => ⟨S500000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call0_cst : Ref sig .tc := ⟨.hbm, 49, rfl⟩
abbrev main_call0_v0 : Ref sig .tc := ⟨.hbm, 50, rfl⟩
abbrev main_v25 : Ref sig .tc := ⟨.hbm, 51, rfl⟩
abbrev main_c_4 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call1_cst : Ref sig .tc := ⟨.hbm, 83, rfl⟩
abbrev main_call1_v0 : Ref sig .tc := ⟨.hbm, 84, rfl⟩
abbrev main_v51 : Ref sig .tc := ⟨.hbm, 85, rfl⟩
abbrev main_c_10 : Ref sig .tc := ⟨.hbm, 86, rfl⟩
abbrev main_v52 : Ref sig .tc := ⟨.hbm, 87, rfl⟩
abbrev main_v53 : Ref sig .tc := ⟨.hbm, 88, rfl⟩
abbrev main_c_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_cst_14 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_15 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_16 : Ref sig .tc := ⟨.hbm, 117, rfl⟩
abbrev main_v77 : Ref sig .tc := ⟨.hbm, 118, rfl⟩
abbrev main_v78 : Ref sig .tc := ⟨.hbm, 119, rfl⟩
abbrev main_c_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_18 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_19 : Ref sig .tc := ⟨.hbm, 130, rfl⟩
abbrev main_v87 : Ref sig .tc := ⟨.hbm, 131, rfl⟩
abbrev main_cst_20 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_21 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_c_22 : Ref sig .tc := ⟨.hbm, 148, rfl⟩
abbrev main_v102 : Ref sig .tc := ⟨.hbm, 149, rfl⟩
abbrev main_v103 : Ref sig .tc := ⟨.hbm, 150, rfl⟩
abbrev main_c_23 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_c_24 : Ref sig .tc := ⟨.hbm, 157, rfl⟩
abbrev main_v109 : Ref sig .tc := ⟨.hbm, 158, rfl⟩
abbrev main_v110 : Ref sig .tc := ⟨.hbm, 159, rfl⟩
abbrev main_c_25 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_26 : Ref sig .tc := ⟨.hbm, 167, rfl⟩
abbrev main_v117 : Ref sig .tc := ⟨.hbm, 168, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  dot_S50000x64_S64x64_S50000x64_1_0_0_1_n_n_wf : DotDims.WF S50000x64 S64x64 S50000x64 [1] [0] [0] [1] [] []
  dot_S50000x128_S128x64_S50000x64_1_0_0_1_n_n_wf : DotDims.WF S50000x128 S128x64 S50000x64 [1] [0] [0] [1] [] []
  gather_S50000x128_S2000000x1_S2000000x128_1_0_n_n_0_1_1128_wf : GatherDims.WF S50000x128 S2000000x1 S2000000x128 [1] [0] [] [0] [] 1 ![1, 128]
  scatter_S100000x128_S2000000x1_S2000000x128_1_0_0_1_wf : ScatterDims.WF S100000x128 S2000000x1 S2000000x128 [1] [0] [0] 1
  scatter_S100000_S2000000x1_S2000000_n_0_0_1_wf : ScatterDims.WF S100000 S2000000x1 S2000000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x128_S2000000x1_S2000000x128_1_0_n_n_0_1_1128 : GatherDims S50000x128 S2000000x1 S2000000x128 where
  offsetDims := [1]
  collapsedSliceDims := [0]
  operandBatchingDims := []
  startIndicesBatchingDims := []
  startIndexMap := [0]
  indexVectorDim := 1
  sliceSizes := ![1, 128]
  wf := gather_S50000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf

class Facts : Prop extends Facts₀ where

variable [Facts]
-- ==== Proof.KRun.lean ====
/-
  The idealized kernel's run, read whole.

  The program is nine segments: five stretches of host operations and four launches of the tiled layer kernel between
  them. Running them in order from the launch memory leaves every buffer that outlives a launch at the contents
  obtained by folding the segments over the launch memory: a host stretch applies its operations, a launch replaces
  its output array by what its grid points wrote back and leaves every other buffer alone. This module states the run
  with that fold as its post-condition at EVERY such buffer (the frame theorem keeps only the argument arrays), and
  then at the result and the arguments.
-/
import proofs.«136637_j76338748720023_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory every buffer that
    outlives a launch holds the fold of the nine segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run at the result buffer and the argument arrays: the result holds the fold's value, the arguments are as
    launched. -/
theorem run_value : θ_run defs (onTc (τ := τ) (main (F := F))) ⟨m, fun _ => 0, ρ⟩ (fun r => ∀ c : Dev nD,
      r.2.mem ((c.tc : Thread nD τ).loc main_v84) = W9 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v84 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c)⟩)
    (run_all m ρ)

end Cert.KernelIdeal.KRun

end
-- ==== Proof.Carry.lean ====
/-
  Buffers that a stretch of host operations or a launch leaves alone.

  Between the launch memory and the result the program's buffers change in nine steps. A host stretch writes only
  its own result buffers; a launch writes only its output array. Each lemma below says that one buffer — an argument
  array, or an intermediate array computed earlier and read again later — holds after a step what it held before it,
  and the composites walk a buffer from the step where it is read back to the step where it was made.
-/
import proofs.«136637_j76338748720023_2_alg».proof.Proof.Gen.KernelIdeal.Frame

set_option maxRecDepth 16384

noncomputable section

namespace Cert.KernelIdeal.Carry

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem s1_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg0 (c : Dev nD) : W2 m ρ c (Proc.devRef .tc main_arg0) = W1 m ρ c (Proc.devRef .tc main_arg0) :=
  W2_of_ne m ρ c main_arg0 (by decide)
theorem s3_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg0` at boundary 3 is as at boundary 0. -/
theorem at3_arg0 (c : Dev nD) : W3 m ρ c (Proc.devRef .tc main_arg0) = W0 m ρ c (Proc.devRef .tc main_arg0) :=
  ((s3_arg0 m ρ c).trans (s2_arg0 m ρ c)).trans (s1_arg0 m ρ c)

theorem s1_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg1 (c : Dev nD) : W2 m ρ c (Proc.devRef .tc main_arg1) = W1 m ρ c (Proc.devRef .tc main_arg1) :=
  (W2_arr m ρ c 2).trans (((dat0 (V1 m ρ) c).arrAt_in 2 rfl _).trans (A_eq0 (V1 m ρ) c 2))
/-- `main_arg1` at boundary 1 is as at boundary 0. -/
theorem at1_arg1 (c : Dev nD) : W1 m ρ c (Proc.devRef .tc main_arg1) = W0 m ρ c (Proc.devRef .tc main_arg1) :=
  s1_arg1 m ρ c
/-- `main_arg1` at boundary 2 is as at boundary 0. -/
theorem at2_arg1 (c : Dev nD) : W2 m ρ c (Proc.devRef .tc main_arg1) = W0 m ρ c (Proc.devRef .tc main_arg1) :=
  (s2_arg1 m ρ c).trans (s1_arg1 m ρ c)

theorem s1_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg2` at boundary 1 is as at boundary 0. -/
theorem at1_arg2 (c : Dev nD) : W1 m ρ c (Proc.devRef .tc main_arg2) = W0 m ρ c (Proc.devRef .tc main_arg2) :=
  s1_arg2 m ρ c

theorem s1_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg4` at boundary 1 is as at boundary 0. -/
theorem at1_arg4 (c : Dev nD) : W1 m ρ c (Proc.devRef .tc main_arg4) = W0 m ρ c (Proc.devRef .tc main_arg4) :=
  s1_arg4 m ρ c

theorem s1_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg5 (c : Dev nD) : W2 m ρ c (Proc.devRef .tc main_arg5) = W1 m ρ c (Proc.devRef .tc main_arg5) :=
  W2_of_ne m ρ c main_arg5 (by decide)
/-- `main_arg5` at boundary 2 is as at boundary 0. -/
theorem at2_arg5 (c : Dev nD) : W2 m ρ c (Proc.devRef .tc main_arg5) = W0 m ρ c (Proc.devRef .tc main_arg5) :=
  (s2_arg5 m ρ c).trans (s1_arg5 m ρ c)

theorem s1_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg6 (c : Dev nD) : W2 m ρ c (Proc.devRef .tc main_arg6) = W1 m ρ c (Proc.devRef .tc main_arg6) :=
  W2_of_ne m ρ c main_arg6 (by decide)
/-- `main_arg6` at boundary 2 is as at boundary 0. -/
theorem at2_arg6 (c : Dev nD) : W2 m ρ c (Proc.devRef .tc main_arg6) = W0 m ρ c (Proc.devRef .tc main_arg6) :=
  (s2_arg6 m ρ c).trans (s1_arg6 m ρ c)

theorem s1_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg7 (c : Dev nD) : W2 m ρ c (Proc.devRef .tc main_arg7) = W1 m ρ c (Proc.devRef .tc main_arg7) :=
  W2_of_ne m ρ c main_arg7 (by decide)
theorem s3_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg7` at boundary 3 is as at boundary 0. -/
theorem at3_arg7 (c : Dev nD) : W3 m ρ c (Proc.devRef .tc main_arg7) = W0 m ρ c (Proc.devRef .tc main_arg7) :=
  ((s3_arg7 m ρ c).trans (s2_arg7 m ρ c)).trans (s1_arg7 m ρ c)

theorem s1_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg8 (c : Dev nD) : W2 m ρ c (Proc.devRef .tc main_arg8) = W1 m ρ c (Proc.devRef .tc main_arg8) :=
  W2_of_ne m ρ c main_arg8 (by decide)
theorem s3_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg8 (c : Dev nD) : W4 m ρ c (Proc.devRef .tc main_arg8) = W3 m ρ c (Proc.devRef .tc main_arg8) :=
  W4_of_ne m ρ c main_arg8 (by decide)
theorem s5_arg8 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg8` at boundary 5 is as at boundary 0. -/
theorem at5_arg8 (c : Dev nD) : W5 m ρ c (Proc.devRef .tc main_arg8) = W0 m ρ c (Proc.devRef .tc main_arg8) :=
  ((((s5_arg8 m ρ c).trans (s4_arg8 m ρ c)).trans (s3_arg8 m ρ c)).trans (s2_arg8 m ρ c)).trans (s1_arg8 m ρ c)

theorem s1_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg9 (c : Dev nD) : W2 m ρ c (Proc.devRef .tc main_arg9) = W1 m ρ c (Proc.devRef .tc main_arg9) :=
  W2_of_ne m ρ c main_arg9 (by decide)
theorem s3_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg9 (c : Dev nD) : W4 m ρ c (Proc.devRef .tc main_arg9) = W3 m ρ c (Proc.devRef .tc main_arg9) :=
  W4_of_ne m ρ c main_arg9 (by decide)
/-- `main_arg9` at boundary 4 is as at boundary 0. -/
theorem at4_arg9 (c : Dev nD) : W4 m ρ c (Proc.devRef .tc main_arg9) = W0 m ρ c (Proc.devRef .tc main_arg9) :=
  (((s4_arg9 m ρ c).trans (s3_arg9 m ρ c)).trans (s2_arg9 m ρ c)).trans (s1_arg9 m ρ c)

theorem s1_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg10 (c : Dev nD) : W2 m ρ c (Proc.devRef .tc main_arg10) = W1 m ρ c (Proc.devRef .tc main_arg10) :=
  W2_of_ne m ρ c main_arg10 (by decide)
theorem s3_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg10 (c : Dev nD) : W4 m ρ c (Proc.devRef .tc main_arg10) = W3 m ρ c (Proc.devRef .tc main_arg10) :=
  W4_of_ne m ρ c main_arg10 (by decide)
theorem s5_arg10 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg10` at boundary 5 is as at boundary 0. -/
theorem at5_arg10 (c : Dev nD) : W5 m ρ c (Proc.devRef .tc main_arg10) = W0 m ρ c (Proc.devRef .tc main_arg10) :=
  ((((s5_arg10 m ρ c).trans (s4_arg10 m ρ c)).trans (s3_arg10 m ρ c)).trans (s2_arg10 m ρ c)).trans (s1_arg10 m ρ c)

theorem s1_arg11 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg11 (c : Dev nD) : W2 m ρ c (Proc.devRef .tc main_arg11) = W1 m ρ c (Proc.devRef .tc main_arg11) :=
  W2_of_ne m ρ c main_arg11 (by decide)
theorem s3_arg11 (c : Dev nD) : W3 m ρ c (Proc.devRef .tc main_arg11) = W2 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg11 (c : Dev nD) : W4 m ρ c (Proc.devRef .tc main_arg11) = W3 m ρ c (Proc.devRef .tc main_arg11) :=
  W4_of_ne m ρ c main_arg11 (by decide)
theorem s5_arg11 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_arg11 (c : Dev nD) : W6 m ρ c (Proc.devRef .tc main_arg11) = W5 m ρ c (Proc.devRef .tc main_arg11) :=
  W6_of_ne m ρ c main_arg11 (by decide)
theorem s7_arg11 (c : Dev nD) : W7 m ρ c (Proc.devRef .tc main_arg11) = W6 m ρ c (Proc.devRef .tc main_arg11) :=
  StableHlo.after_of_forall_not_mem (b := Proc.devRef .tc main_arg11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg11` at boundary 7 is as at boundary 0. -/
theorem at7_arg11 (c : Dev nD) : W7 m ρ c (Proc.devRef .tc main_arg11) = W0 m ρ c (Proc.devRef .tc main_arg11) :=
  ((((((s7_arg11 m ρ c).trans (s6_arg11 m ρ c)).trans (s5_arg11 m ρ c)).trans (s4_arg11 m ρ c)).trans (s3_arg11 m ρ c)).trans (s2_arg11 m ρ c)).trans (s1_arg11 m ρ c)

theorem s1_arg12 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg12 (c : Dev nD) : W2 m ρ c (Proc.devRef .tc main_arg12) = W1 m ρ c (Proc.devRef .tc main_arg12) :=
  W2_of_ne m ρ c main_arg12 (by decide)
theorem s3_arg12 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg12 (c : Dev nD) : W4 m ρ c (Proc.devRef .tc main_arg12) = W3 m ρ c (Proc.devRef .tc main_arg12) :=
  W4_of_ne m ρ c main_arg12 (by decide)
theorem s5_arg12 (c : Dev nD) : W5 m ρ c (Proc.devRef .tc main_arg12) = W4 m ρ c (Proc.devRef .tc main_arg12) :=
  StableHlo.after_of_forall_not_mem (b := Proc.devRef .tc main_arg12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_arg12 (c : Dev nD) : W6 m ρ c (Proc.devRef .tc main_arg12) = W5 m ρ c (Proc.devRef .tc main_arg12) :=
  W6_of_ne m ρ c main_arg12 (by decide)
/-- `main_arg12` at boundary 6 is as at boundary 0. -/
theorem at6_arg12 (c : Dev nD) : W6 m ρ c (Proc.devRef .tc main_arg12) = W0 m ρ c (Proc.devRef .tc main_arg12) :=
  (((((s6_arg12 m ρ c).trans (s5_arg12 m ρ c)).trans (s4_arg12 m ρ c)).trans (s3_arg12 m ρ c)).trans (s2_arg12 m ρ c)).trans (s1_arg12 m ρ c)

theorem s1_arg13 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg13 (c : Dev nD) : W2 m ρ c (Proc.devRef .tc main_arg13) = W1 m ρ c (Proc.devRef .tc main_arg13) :=
  W2_of_ne m ρ c main_arg13 (by decide)
theorem s3_arg13 (c : Dev nD) : W3 m ρ c (Proc.devRef .tc main_arg13) = W2 m ρ c (Proc.devRef .tc main_arg13) :=
  StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg13 (c : Dev nD) : W4 m ρ c (Proc.devRef .tc main_arg13) = W3 m ρ c (Proc.devRef .tc main_arg13) :=
  W4_of_ne m ρ c main_arg13 (by decide)
theorem s5_arg13 (c : Dev nD) : W5 m ρ c (Proc.devRef .tc main_arg13) = W4 m ρ c (Proc.devRef .tc main_arg13) :=
  StableHlo.after_of_forall_not_mem (b := Proc.devRef .tc main_arg13) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_arg13 (c : Dev nD) : W6 m ρ c (Proc.devRef .tc main_arg13) = W5 m ρ c (Proc.devRef .tc main_arg13) :=
  W6_of_ne m ρ c main_arg13 (by decide)
theorem s7_arg13 (c : Dev nD) : W7 m ρ c (Proc.devRef .tc main_arg13) = W6 m ρ c (Proc.devRef .tc main_arg13) :=
  StableHlo.after_of_forall_not_mem (b := Proc.devRef .tc main_arg13) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg13` at boundary 7 is as at boundary 0. -/
theorem at7_arg13 (c : Dev nD) : W7 m ρ c (Proc.devRef .tc main_arg13) = W0 m ρ c (Proc.devRef .tc main_arg13) :=
  ((((((s7_arg13 m ρ c).trans (s6_arg13 m ρ c)).trans (s5_arg13 m ρ c)).trans (s4_arg13 m ρ c)).trans (s3_arg13 m ρ c)).trans (s2_arg13 m ρ c)).trans (s1_arg13 m ρ c)

theorem s1_arg14 (c : Dev nD) : W1 m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg14 (c : Dev nD) : W2 m ρ c (Proc.devRef .tc main_arg14) = W1 m ρ c (Proc.devRef .tc main_arg14) :=
  W2_of_ne m ρ c main_arg14 (by decide)
theorem s3_arg14 (c : Dev nD) : W3 m ρ c (Proc.devRef .tc main_arg14) = W2 m ρ c (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg14 (c : Dev nD) : W4 m ρ c (Proc.devRef .tc main_arg14) = W3 m ρ c (Proc.devRef .tc main_arg14) :=
  W4_of_ne m ρ c main_arg14 (by decide)
theorem s5_arg14 (c : Dev nD) : W5 m ρ c (Proc.devRef .tc main_arg14) = W4 m ρ c (Proc.devRef .tc main_arg14) :=
  StableHlo.after_of_forall_not_mem (b := Proc.devRef .tc main_arg14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_arg14 (c : Dev nD) : W6 m ρ c (Proc.devRef .tc main_arg14) = W5 m ρ c (Proc.devRef .tc main_arg14) :=
  W6_of_ne m ρ c main_arg14 (by decide)
/-- `main_arg14` at boundary 2 is as at boundary 0. -/
theorem at2_arg14 (c : Dev nD) : W2 m ρ c (Proc.devRef .tc main_arg14) = W0 m ρ c (Proc.devRef .tc main_arg14) :=
  (s2_arg14 m ρ c).trans (s1_arg14 m ρ c)
/-- `main_arg14` at boundary 4 is as at boundary 0. -/
theorem at4_arg14 (c : Dev nD) : W4 m ρ c (Proc.devRef .tc main_arg14) = W0 m ρ c (Proc.devRef .tc main_arg14) :=
  (((s4_arg14 m ρ c).trans (s3_arg14 m ρ c)).trans (s2_arg14 m ρ c)).trans (s1_arg14 m ρ c)
/-- `main_arg14` at boundary 6 is as at boundary 0. -/
theorem at6_arg14 (c : Dev nD) : W6 m ρ c (Proc.devRef .tc main_arg14) = W0 m ρ c (Proc.devRef .tc main_arg14) :=
  (((((s6_arg14 m ρ c).trans (s5_arg14 m ρ c)).trans (s4_arg14 m ρ c)).trans (s3_arg14 m ρ c)).trans (s2_arg14 m ρ c)).trans (s1_arg14 m ρ c)

theorem s1_arg15 (c : Dev nD) : W1 m ρ c (Proc.devRef .tc main_arg15) = W0 m ρ c (Proc.devRef .tc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg15 (c : Dev nD) : W2 m ρ c (Proc.devRef .tc main_arg15) = W1 m ρ c (Proc.devRef .tc main_arg15) :=
  W2_of_ne m ρ c main_arg15 (by decide)
theorem s3_arg15 (c : Dev nD) : W3 m ρ c (Proc.devRef .tc main_arg15) = W2 m ρ c (Proc.devRef .tc main_arg15) :=
  StableHlo.after_of_forall_not_mem (b := Proc.devRef .tc main_arg15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg15 (c : Dev nD) : W4 m ρ c (Proc.devRef .tc main_arg15) = W3 m ρ c (Proc.devRef .tc main_arg15) :=
  W4_of_ne m ρ c main_arg15 (by decide)
theorem s5_arg15 (c : Dev nD) : W5 m ρ c (Proc.devRef .tc main_arg15) = W4 m ρ c (Proc.devRef .tc main_arg15) :=
  StableHlo.after_of_forall_not_mem (b := Proc.devRef .tc main_arg15) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_arg15 (c : Dev nD) : W6 m ρ c (Proc.devRef .tc main_arg15) = W5 m ρ c (Proc.devRef .tc main_arg15) :=
  W6_of_ne m ρ c main_arg15 (by decide)
/-- `main_arg15` at boundary 2 is as at boundary 0. -/
theorem at2_arg15 (c : Dev nD) : W2 m ρ c (Proc.devRef .tc main_arg15) = W0 m ρ c (Proc.devRef .tc main_arg15) :=
  (s2_arg15 m ρ c).trans (s1_arg15 m ρ c)
/-- `main_arg15` at boundary 4 is as at boundary 0. -/
theorem at4_arg15 (c : Dev nD) : W4 m ρ c (Proc.devRef .tc main_arg15) = W0 m ρ c (Proc.devRef .tc main_arg15) :=
  (((s4_arg15 m ρ c).trans (s3_arg15 m ρ c)).trans (s2_arg15 m ρ c)).trans (s1_arg15 m ρ c)
/-- `main_arg15` at boundary 6 is as at boundary 0. -/
theorem at6_arg15 (c : Dev nD) : W6 m ρ c (Proc.devRef .tc main_arg15) = W0 m ρ c (Proc.devRef .tc main_arg15) :=
  (((((s6_arg15 m ρ c).trans (s5_arg15 m ρ c)).trans (s4_arg15 m ρ c)).trans (s3_arg15 m ρ c)).trans (s2_arg15 m ρ c)).trans (s1_arg15 m ρ c)

theorem s1_arg16 (c : Dev nD) : W1 m ρ c (Proc.devRef .tc main_arg16) = W0 m ρ c (Proc.devRef .tc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg16 (c : Dev nD) : W2 m ρ c (Proc.devRef .tc main_arg16) = W1 m ρ c (Proc.devRef .tc main_arg16) :=
  W2_of_ne m ρ c main_arg16 (by decide)
theorem s3_arg16 (c : Dev nD) : W3 m ρ c (Proc.devRef .tc main_arg16) = W2 m ρ c (Proc.devRef .tc main_arg16) :=
  StableHlo.after_of_forall_not_mem (b := Proc.devRef .tc main_arg16) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg16 (c : Dev nD) : W4 m ρ c (Proc.devRef .tc main_arg16) = W3 m ρ c (Proc.devRef .tc main_arg16) :=
  W4_of_ne m ρ c main_arg16 (by decide)
theorem s5_arg16 (c : Dev nD) : W5 m ρ c (Proc.devRef .tc main_arg16) = W4 m ρ c (Proc.devRef .tc main_arg16) :=
  StableHlo.after_of_forall_not_mem (b := Proc.devRef .tc main_arg16) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_arg16 (c : Dev nD) : W6 m ρ c (Proc.devRef .tc main_arg16) = W5 m ρ c (Proc.devRef .tc main_arg16) :=
  W6_of_ne m ρ c main_arg16 (by decide)
theorem s7_arg16 (c : Dev nD) : W7 m ρ c (Proc.devRef .tc main_arg16) = W6 m ρ c (Proc.devRef .tc main_arg16) :=
  StableHlo.after_of_forall_not_mem (b := Proc.devRef .tc main_arg16) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s8_arg16 (c : Dev nD) : W8 m ρ c (Proc.devRef .tc main_arg16) = W7 m ρ c (Proc.devRef .tc main_arg16) :=
  W8_of_ne m ρ c main_arg16 (by decide)
/-- `main_arg16` at boundary 8 is as at boundary 0. -/
theorem at8_arg16 (c : Dev nD) : W8 m ρ c (Proc.devRef .tc main_arg16) = W0 m ρ c (Proc.devRef .tc main_arg16) :=
  (((((((s8_arg16 m ρ c).trans (s7_arg16 m ρ c)).trans (s6_arg16 m ρ c)).trans (s5_arg16 m ρ c)).trans (s4_arg16 m ρ c)).trans (s3_arg16 m ρ c)).trans (s2_arg16 m ρ c)).trans (s1_arg16 m ρ c)

theorem s1_arg17 (c : Dev nD) : W1 m ρ c (Proc.devRef .tc main_arg17) = W0 m ρ c (Proc.devRef .tc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s2_arg17 (c : Dev nD) : W2 m ρ c (Proc.devRef .tc main_arg17) = W1 m ρ c (Proc.devRef .tc main_arg17) :=
  W2_of_ne m ρ c main_arg17 (by decide)
theorem s3_arg17 (c : Dev nD) : W3 m ρ c (Proc.devRef .tc main_arg17) = W2 m ρ c (Proc.devRef .tc main_arg17) :=
  StableHlo.after_of_forall_not_mem (b := Proc.devRef .tc main_arg17) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_arg17 (c : Dev nD) : W4 m ρ c (Proc.devRef .tc main_arg17) = W3 m ρ c (Proc.devRef .tc main_arg17) :=
  W4_of_ne m ρ c main_arg17 (by decide)
theorem s5_arg17 (c : Dev nD) : W5 m ρ c (Proc.devRef .tc main_arg17) = W4 m ρ c (Proc.devRef .tc main_arg17) :=
  StableHlo.after_of_forall_not_mem (b := Proc.devRef .tc main_arg17) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_arg17 (c : Dev nD) : W6 m ρ c (Proc.devRef .tc main_arg17) = W5 m ρ c (Proc.devRef .tc main_arg17) :=
  W6_of_ne m ρ c main_arg17 (by decide)
theorem s7_arg17 (c : Dev nD) : W7 m ρ c (Proc.devRef .tc main_arg17) = W6 m ρ c (Proc.devRef .tc main_arg17) :=
  StableHlo.after_of_forall_not_mem (b := Proc.devRef .tc main_arg17) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s8_arg17 (c : Dev nD) : W8 m ρ c (Proc.devRef .tc main_arg17) = W7 m ρ c (Proc.devRef .tc main_arg17) :=
  W8_of_ne m ρ c main_arg17 (by decide)
/-- `main_arg17` at boundary 8 is as at boundary 0. -/
theorem at8_arg17 (c : Dev nD) : W8 m ρ c (Proc.devRef .tc main_arg17) = W0 m ρ c (Proc.devRef .tc main_arg17) :=
  (((((((s8_arg17 m ρ c).trans (s7_arg17 m ρ c)).trans (s6_arg17 m ρ c)).trans (s5_arg17 m ρ c)).trans (s4_arg17 m ρ c)).trans (s3_arg17 m ρ c)).trans (s2_arg17 m ρ c)).trans (s1_arg17 m ρ c)

theorem s2_v14 (c : Dev nD) : W2 m ρ c (Proc.devRef .tc main_v14) = W1 m ρ c (Proc.devRef .tc main_v14) :=
  (W2_arr m ρ c 1).trans (((dat0 (V1 m ρ) c).arrAt_in 1 rfl _).trans (A_eq0 (V1 m ρ) c 1))
theorem s3_v14 (c : Dev nD) : W3 m ρ c (Proc.devRef .tc main_v14) = W2 m ρ c (Proc.devRef .tc main_v14) :=
  StableHlo.after_of_forall_not_mem (b := Proc.devRef .tc main_v14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_v14 (c : Dev nD) : W4 m ρ c (Proc.devRef .tc main_v14) = W3 m ρ c (Proc.devRef .tc main_v14) :=
  W4_of_ne m ρ c main_v14 (by decide)
theorem s5_v14 (c : Dev nD) : W5 m ρ c (Proc.devRef .tc main_v14) = W4 m ρ c (Proc.devRef .tc main_v14) :=
  StableHlo.after_of_forall_not_mem (b := Proc.devRef .tc main_v14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_v14` at boundary 5 is as at boundary 1. -/
theorem at5_v14 (c : Dev nD) : W5 m ρ c (Proc.devRef .tc main_v14) = W1 m ρ c (Proc.devRef .tc main_v14) :=
  (((s5_v14 m ρ c).trans (s4_v14 m ρ c)).trans (s3_v14 m ρ c)).trans (s2_v14 m ρ c)

theorem s2_v19 (c : Dev nD) : W2 m ρ c (Proc.devRef .tc main_v19) = W1 m ρ c (Proc.devRef .tc main_v19) :=
  W2_of_ne m ρ c main_v19 (by decide)
theorem s3_v19 (c : Dev nD) : W3 m ρ c (Proc.devRef .tc main_v19) = W2 m ρ c (Proc.devRef .tc main_v19) :=
  StableHlo.after_of_forall_not_mem (b := Proc.devRef .tc main_v19) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_v19 (c : Dev nD) : W4 m ρ c (Proc.devRef .tc main_v19) = W3 m ρ c (Proc.devRef .tc main_v19) :=
  (W4_arr m ρ c 1).trans (((dat1 (V3 m ρ) c).arrAt_in 1 rfl _).trans (A_eq1 (V3 m ρ) c 1))
theorem s5_v19 (c : Dev nD) : W5 m ρ c (Proc.devRef .tc main_v19) = W4 m ρ c (Proc.devRef .tc main_v19) :=
  StableHlo.after_of_forall_not_mem (b := Proc.devRef .tc main_v19) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_v19 (c : Dev nD) : W6 m ρ c (Proc.devRef .tc main_v19) = W5 m ρ c (Proc.devRef .tc main_v19) :=
  W6_of_ne m ρ c main_v19 (by decide)
theorem s7_v19 (c : Dev nD) : W7 m ρ c (Proc.devRef .tc main_v19) = W6 m ρ c (Proc.devRef .tc main_v19) :=
  StableHlo.after_of_forall_not_mem (b := Proc.devRef .tc main_v19) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_v19` at boundary 3 is as at boundary 1. -/
theorem at3_v19 (c : Dev nD) : W3 m ρ c (Proc.devRef .tc main_v19) = W1 m ρ c (Proc.devRef .tc main_v19) :=
  (s3_v19 m ρ c).trans (s2_v19 m ρ c)
/-- `main_v19` at boundary 7 is as at boundary 1. -/
theorem at7_v19 (c : Dev nD) : W7 m ρ c (Proc.devRef .tc main_v19) = W1 m ρ c (Proc.devRef .tc main_v19) :=
  (((((s7_v19 m ρ c).trans (s6_v19 m ρ c)).trans (s5_v19 m ρ c)).trans (s4_v19 m ρ c)).trans (s3_v19 m ρ c)).trans (s2_v19 m ρ c)

theorem s3_v31 (c : Dev nD) : W3 m ρ c (Proc.devRef .tc main_v31) = W2 m ρ c (Proc.devRef .tc main_v31) :=
  StableHlo.after_of_forall_not_mem (b := Proc.devRef .tc main_v31) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s4_v31 (c : Dev nD) : W4 m ρ c (Proc.devRef .tc main_v31) = W3 m ρ c (Proc.devRef .tc main_v31) :=
  W4_of_ne m ρ c main_v31 (by decide)
theorem s5_v31 (c : Dev nD) : W5 m ρ c (Proc.devRef .tc main_v31) = W4 m ρ c (Proc.devRef .tc main_v31) :=
  StableHlo.after_of_forall_not_mem (b := Proc.devRef .tc main_v31) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_v31 (c : Dev nD) : W6 m ρ c (Proc.devRef .tc main_v31) = W5 m ρ c (Proc.devRef .tc main_v31) :=
  (W6_arr m ρ c 2).trans (((dat2 (V5 m ρ) c).arrAt_in 2 rfl _).trans (A_eq2 (V5 m ρ) c 2))
/-- `main_v31` at boundary 5 is as at boundary 2. -/
theorem at5_v31 (c : Dev nD) : W5 m ρ c (Proc.devRef .tc main_v31) = W2 m ρ c (Proc.devRef .tc main_v31) :=
  ((s5_v31 m ρ c).trans (s4_v31 m ρ c)).trans (s3_v31 m ρ c)
/-- `main_v31` at boundary 6 is as at boundary 2. -/
theorem at6_v31 (c : Dev nD) : W6 m ρ c (Proc.devRef .tc main_v31) = W2 m ρ c (Proc.devRef .tc main_v31) :=
  (((s6_v31 m ρ c).trans (s5_v31 m ρ c)).trans (s4_v31 m ρ c)).trans (s3_v31 m ρ c)

theorem s5_v44 (c : Dev nD) : W5 m ρ c (Proc.devRef .tc main_v44) = W4 m ρ c (Proc.devRef .tc main_v44) :=
  StableHlo.after_of_forall_not_mem (b := Proc.devRef .tc main_v44) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s6_v44 (c : Dev nD) : W6 m ρ c (Proc.devRef .tc main_v44) = W5 m ρ c (Proc.devRef .tc main_v44) :=
  W6_of_ne m ρ c main_v44 (by decide)
theorem s7_v44 (c : Dev nD) : W7 m ρ c (Proc.devRef .tc main_v44) = W6 m ρ c (Proc.devRef .tc main_v44) :=
  StableHlo.after_of_forall_not_mem (b := Proc.devRef .tc main_v44) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_v44` at boundary 7 is as at boundary 4. -/
theorem at7_v44 (c : Dev nD) : W7 m ρ c (Proc.devRef .tc main_v44) = W4 m ρ c (Proc.devRef .tc main_v44) :=
  ((s7_v44 m ρ c).trans (s6_v44 m ρ c)).trans (s5_v44 m ρ c)

theorem s7_v56 (c : Dev nD) : W7 m ρ c (Proc.devRef .tc main_v56) = W6 m ρ c (Proc.devRef .tc main_v56) :=
  StableHlo.after_of_forall_not_mem (b := Proc.devRef .tc main_v56) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s8_v56 (c : Dev nD) : W8 m ρ c (Proc.devRef .tc main_v56) = W7 m ρ c (Proc.devRef .tc main_v56) :=
  W8_of_ne m ρ c main_v56 (by decide)
/-- `main_v56` at boundary 8 is as at boundary 6. -/
theorem at8_v56 (c : Dev nD) : W8 m ρ c (Proc.devRef .tc main_v56) = W6 m ρ c (Proc.devRef .tc main_v56) :=
  (s8_v56 m ρ c).trans (s7_v56 m ρ c)

end Cert.KernelIdeal.Carry

end
-- ==== Proof.LibRows.lean ====
/-
  Rows of a matrix reduced along their length, and the matrix product, read one entry at a time on the extended
  reals.

  * Summing, or taking the maximum, along the rows of an `a × s` matrix leaves a length-`a` vector whose entry `r`
    is the sum (the maximum, folded from the starting value) of row `r`.
  * The product of an `m × k` matrix with a `k × n` matrix, accumulated into zero, has at `(p, q)` the sum over
    `c` of `l (p, c) · r (c, q)`: a contraction of the left operand's second axis with the right operand's first.
-/
import Idealize.ShloMosaic.Lib.ValueIdx
import Idealize.ShloMosaic.Lib.Pipeline.Value
import Idealize.ShloMosaic.PureOps.Ideal.Laws

namespace Cert.LibRows

open Idealize.ShloMosaic Idealize.ShloMosaic.ValueIdx

/-- The index a row reduction reads: the kept row coordinate, then the position along the row. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The sum along the rows, at `r`: the sum of row `r`. -/
theorem sum_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.add.neutral φ hφ)
    (r : Fin A) :
    multiReduction .add [1] ⟨1, ![A]⟩ x acc h hφ hacc (ix1 r) = ∑ k : Fin S, x (ix2 r k) :=
  (Ideal.multiReduction_add_single x acc h hφ hacc (ix1 r)).trans
    (Finset.sum_congr rfl fun k _ => congrArg x (lift_last2 h r k))

/-- The maximum along the rows, at `r`: the maximum of row `r`, folded from the starting value. -/
theorem max_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.maximumf.neutral φ hφ)
    (r : Fin A) :
    multiReduction .maximumf [1] ⟨1, ![A]⟩ x acc h hφ hacc (ix1 r)
      = (Finset.univ : Finset (Fin S)).fold max (Ideal.ofBits φ acc) (fun k => x (ix2 r k)) :=
  (Ideal.multiReduction_maximumf_single x acc h hφ hacc (ix1 r)).trans
    (congrArg ((Finset.univ : Finset (Fin S)).fold max (Ideal.ofBits φ acc)) (funext fun k => congrArg x (lift_last2 h r k)))

/-- The matrix product into a zero accumulator, at `(p, q)`: the sum over `c` of `l (p, c) · r (c, q)`. The four
    hypotheses say which coordinate of the output index or of the contraction index each operand coordinate is. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) := by
  refine (Ideal.matmul_constant_zero_apply D none l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibRows
-- ==== Proof.LibDotHost.lean ====
/-
  The host's matrix product read one entry at a time on the extended reals.

  The product of an `m × k` matrix with a `k × n` matrix — a contraction of the left operand's second axis with
  the right operand's first — has at `(p, q)` the sum over `c` of `l (p, c) · r (c, q)`, whatever order the sum is
  scheduled in.
-/
import Idealize.ShloMosaic.Lib.ValueIdx
import Idealize.ShloMosaic.Lib.Pipeline.Value
import Idealize.ShloMosaic.PureOps.Ideal.Laws

namespace Cert.LibDotHost

open Idealize.ShloMosaic Idealize.ShloMosaic.ValueIdx

/-- The host product at `(p, q)`: the sum over `c` of `l (p, c) · r (c, q)`. The four hypotheses say which
    coordinate of the output index or of the contraction index each operand coordinate is. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) := by
  refine (Ideal.dotGeneral_apply D none .single l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibDotHost
-- ==== Proof.LibPlainDot.lean ====
/-
  The plain matrix product `(m × k) · (k × n)`, read one entry at a time on the extended reals, from the dimension
  numbers alone.

  A product whose dimension numbers say "no batch axes; the left operand keeps axis 0 and contracts axis 1; the right
  operand contracts axis 0 and keeps axis 1" has at `(p, q)` the sum over `c` of `l (p, c) · r (c, q)`, whether it is
  the host's `dot_general` or the matrix unit's product into a zero accumulator. The six lists are taken as equations,
  so a printed record discharges each by `rfl`.
-/
import proofs.«136637_j76338748720023_2_alg».proof.Proof.LibRows
import proofs.«136637_j76338748720023_2_alg».proof.Proof.LibDotHost

namespace Cert.LibPlainDot

open Idealize.ShloMosaic Idealize.ShloMosaic.ValueIdx

variable {M K N : ℕ} (D : DotDims ⟨2, ![M, K]⟩ ⟨2, ![K, N]⟩ ⟨2, ![M, N]⟩)
  (hlb : D.lhsBatch = []) (hrb : D.rhsBatch = []) (hln : D.lhsNonContracting = [0]) (hrn : D.rhsNonContracting = [1])
  (hlc : D.lhsContracting = [1]) (hrc : D.rhsContracting = [0])

include hlc in
/-- One contracted axis. -/
theorem contr_rank : D.contr.rank = 1 := D.rank_contr.trans (by rw [hlc]; rfl)

include hlc in
/-- Its extent is `K`. -/
theorem contr_size : D.contr.size ⟨0, by rw [contr_rank D hlc]; exact Nat.one_pos⟩ = K := by
  have hp : 0 < D.lhsContracting.length := by rw [hlc]; exact Nat.one_pos
  refine (D.size_contr 0 hp).trans ?_
  rw [List.getElem_of_eq hlc hp]
  rfl

include hlb hln in
/-- The left operand's row is the result's row. -/
theorem lhs_row (i : (⟨2, ![M, N]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (i ⟨a, ha⟩).val = (i ⟨b, hb⟩).val := fun a b ha hb h => by subst h; rfl
  exact key _ _ _ _ (by simp [hlb, hln])

include hrb hrn hlb hln in
/-- The right operand's column is the result's column. -/
theorem rhs_col (i : (⟨2, ![M, N]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (i ⟨a, ha⟩).val = (i ⟨b, hb⟩).val := fun a b ha hb h => by subst h; rfl
  exact key _ _ _ _ (by simp [hlb, hln, hrn])

include hlb hrb hln hrn hlc hrc in
/-- The matrix unit's product into a zero accumulator, at `(p, q)`. -/
theorem matmul_apply {φ₁ φ₂ : FTy} (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) :=
  Cert.LibRows.matmul_zero_apply D (contr_rank D hlc) (contr_size D hlc) (lhs_row D hlb hln)
    (fun i k => D.lhsIdx_val_of_single hlc i k) (fun i k => D.rhsIdx_val_of_single hrc i k) (rhs_col D hlb hrb hln hrn) l r p q

include hlb hrb hln hrn hlc hrc in
/-- The host's product, at `(p, q)`. -/
theorem dotGeneral_apply {φ₁ φ₂ : FTy} (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) :=
  Cert.LibDotHost.dotGeneral_apply D (contr_rank D hlc) (contr_size D hlc) (lhs_row D hlb hln)
    (fun i k => D.lhsIdx_val_of_single hlc i k) (fun i k => D.rhsIdx_val_of_single hrc i k) (rhs_col D hlb hrb hln hrn) l r p q

end Cert.LibPlainDot
-- ==== Proof.LibLayer.lean ====
/-
  Dense layers read one entry at a time on the extended reals.

  A dense layer sends a matrix `a` (one row per item) to `a · w + b`: entry `(p, q)` is the sum over `c` of
  `a (p, c) · w (c, q)`, plus the bias of column `q`. A graph-convolution layer adds two such products — the
  aggregated neighbours through one weight matrix and the item's own features through another — and one bias. A
  rectifier takes the larger of an entry and a threshold.

  Each is computed two ways below, and both are shown to be the same whole-array function:
  * on the matrix unit: the product accumulated into zeros, the bias vector re-laid as one row and spread down the rows;
  * by the host: the general product contracting the left operand's second axis with the right operand's first, the
    bias vector placed along a new leading unit axis and spread down the rows.
  For the graph-convolution layer the two computations add their three terms in different orders — products first,
  or the bias in the middle — which agree because addition of extended reals is commutative and associative.
-/
import Idealize.ShloMosaic.Lib.ValueIdx
import Idealize.ShloMosaic.Lib.ValueLayout
import Idealize.ShloMosaic.Lib.Pipeline.Value
import Idealize.ShloMosaic.PureOps.Ideal.Laws
import proofs.«136637_j76338748720023_2_alg».proof.Proof.LibPlainDot

noncomputable section

namespace Cert.LibLayer

open Idealize.ShloMosaic Idealize.ShloMosaic.ValueIdx

/-- An `M × N` matrix of extended reals. -/
abbrev Mat (M N : ℕ) : Type := (⟨2, ![M, N]⟩ : Shape).Idx → EReal
/-- A length-`N` vector of extended reals. -/
abbrev Row (N : ℕ) : Type := (⟨1, ![N]⟩ : Shape).Idx → EReal

/-- Entry `(p, q)` of the product `a · w`. -/
def prodAt {M K N : ℕ} (a : Mat M K) (w : Mat K N) (p : Fin M) (q : Fin N) : EReal :=
  ∑ c : Fin K, a (ix2 p c) * w (ix2 c q)

/-- The dense layer `a · w + b`. -/
def dense {M K N : ℕ} (a : Mat M K) (w : Mat K N) (b : Row N) : Mat M N :=
  fun i => prodAt a w (i 0) (i 1) + b (ix1 (i 1))

/-- The graph-convolution layer `(a · w + x · w') + b`. -/
def combine {M K N : ℕ} (a x : Mat M K) (w w' : Mat K N) (b : Row N) : Mat M N :=
  fun i => (prodAt a w (i 0) (i 1) + prodAt x w' (i 0) (i 1)) + b (ix1 (i 1))

/-- The rectifier at threshold `z`. -/
def relu {s : Shape} (z : EReal) (y : s.Idx → EReal) : s.Idx → EReal := fun i => max (y i) z

theorem dense_apply {M K N : ℕ} (a : Mat M K) (w : Mat K N) (b : Row N) (p : Fin M) (q : Fin N) :
    dense a w b (ix2 p q) = prodAt a w p q + b (ix1 q) := rfl

theorem combine_apply {M K N : ℕ} (a x : Mat M K) (w w' : Mat K N) (b : Row N) (p : Fin M) (q : Fin N) :
    combine a x w w' b (ix2 p q) = (prodAt a w p q + prodAt x w' p q) + b (ix1 q) := rfl

/-- Rounding to a narrower float format changes nothing on the extended reals. -/
theorem truncf_eq {s : Shape} {φ ψ : FTy} (a : FVec Ideal s φ) (h : ψ.bits < φ.bits) :
    (truncf ψ a h : s.Idx → EReal) = a := rfl

/-! ## The bias, spread down the rows -/

/-- On the matrix unit: the vector re-laid as one row (twice, the second time onto itself) and spread down `M` rows
    reads, at `(p, q)`, the vector's entry `q`. -/
theorem bias_rows_apply {M N : ℕ} {α : Type} (b : (⟨1, ![N]⟩ : Shape).Idx → α)
    (h1 : (⟨1, ![N]⟩ : Shape).ShapeCasts ⟨2, ![1, N]⟩) (h2 : (⟨2, ![1, N]⟩ : Shape).ShapeCasts ⟨2, ![1, N]⟩)
    (h3 : (⟨2, ![1, N]⟩ : Shape).Broadcasts ⟨2, ![M, N]⟩) (p : Fin M) (q : Fin N) :
    broadcastTo ⟨2, ![M, N]⟩ (shapeCast ⟨2, ![1, N]⟩ (shapeCast ⟨2, ![1, N]⟩ b h1) h2) h3 (ix2 p q) = b (ix1 q) := by
  rw [broadcastTo_1b_ab_apply, shapeCast_self, shapeCast_a_1a_apply]

/-- By the host: the vector placed along a new leading unit axis and spread down `M` rows reads, at `(p, q)`, the
    vector's entry `q`. -/
theorem bias_host_apply {M N : ℕ} {α : Type} (b : (⟨1, ![N]⟩ : Shape).Idx → α)
    (g1 : (⟨1, ![N]⟩ : Shape).BroadcastsInDim ⟨2, ![1, N]⟩ ![1])
    (g2 : (⟨2, ![1, N]⟩ : Shape).BroadcastsInDim ⟨2, ![M, N]⟩ ![0, 1]) (p : Fin M) (q : Fin N) :
    broadcastInDim ⟨2, ![M, N]⟩ ![0, 1] g2 (broadcastInDim ⟨2, ![1, N]⟩ ![1] g1 b) (ix2 p q) = b (ix1 q) := by
  rw [broadcastInDim_apply ![0, 1] g2 _ (ix2 p q) (ix2 (0 : Fin 1) q) (fun ax => by
    match ax with
    | ⟨0, _⟩ => rfl
    | ⟨1, _⟩ =>
      show q.val = if N = 1 then 0 else q.val
      split
      · have := q.isLt; omega
      · rfl)]
  exact broadcastInDim_apply ![1] g1 b (ix2 (0 : Fin 1) q) (ix1 q) (fun ax => by
    match ax with
    | ⟨0, _⟩ =>
      show q.val = if N = 1 then 0 else q.val
      split
      · have := q.isLt; omega
      · rfl)

/-! ## The rectifier -/

/-- On the vector unit: the maximum with a scalar spread over the shape. -/
theorem relu_unit {s : Shape} (y : FVec Ideal s .f32) (w : BitVec 32) :
    maximumf y (broadcast s (Scalar.ofBits (F := Ideal) .f32 w)) = relu (Ideal.ofBits .f32 w) y := rfl

/-- By the host: the maximum with a rank-0 constant spread over the shape. -/
theorem relu_host {s : Shape} (y : FVec Ideal s .f32) (w : BitVec 32)
    (g : (⟨0, ![]⟩ : Shape).BroadcastsInDim s ![]) :
    maximumf y (broadcastInDim s ![] g (constant (F := Ideal) ⟨0, ![]⟩ .f32 w)) = relu (Ideal.ofBits .f32 w) y := by
  funext i
  show max (y i) _ = max (y i) _
  rw [broadcastInDim_apply ![] g _ i ix0 (fun ax => ax.elim0)]
  rfl

/-! ## The layers -/

section
variable {M K N : ℕ}

/-- The dimension numbers of a plain product: no batch axes, the left operand keeps its rows and contracts its
    columns, the right operand contracts its rows and keeps its columns. -/
structure Plain (D : DotDims ⟨2, ![M, K]⟩ ⟨2, ![K, N]⟩ ⟨2, ![M, N]⟩) : Prop where
  lb : D.lhsBatch = []
  rb : D.rhsBatch = []
  ln : D.lhsNonContracting = [0]
  rn : D.rhsNonContracting = [1]
  lc : D.lhsContracting = [1]
  rc : D.rhsContracting = [0]

variable {D : DotDims ⟨2, ![M, K]⟩ ⟨2, ![K, N]⟩ ⟨2, ![M, N]⟩} (hD : Plain D)

include hD in
theorem matmul_at {φ₁ φ₂ : FTy} (a : FVec Ideal ⟨2, ![M, K]⟩ φ₁) (w : FVec Ideal ⟨2, ![K, N]⟩ φ₂) (p : Fin M) (q : Fin N) :
    matmul D none a w (constant ⟨2, ![M, N]⟩ .f32 0x00000000#32) (ix2 p q) = prodAt a w p q :=
  Cert.LibPlainDot.matmul_apply D hD.lb hD.rb hD.ln hD.rn hD.lc hD.rc a w p q

include hD in
theorem dot_at {φ₁ φ₂ : FTy} (a : FVec Ideal ⟨2, ![M, K]⟩ φ₁) (w : FVec Ideal ⟨2, ![K, N]⟩ φ₂) (p : Fin M) (q : Fin N) :
    Host.dotGeneral D none a w (ix2 p q) = prodAt a w p q :=
  Cert.LibPlainDot.dotGeneral_apply D hD.lb hD.rb hD.ln hD.rn hD.lc hD.rc a w p q

include hD in
/-- The dense layer on the matrix unit. -/
theorem dense_unit {φ₁ φ₂ : FTy} (a : FVec Ideal ⟨2, ![M, K]⟩ φ₁) (w : FVec Ideal ⟨2, ![K, N]⟩ φ₂) (b : FVec Ideal ⟨1, ![N]⟩ .f32)
    (h1 : (⟨1, ![N]⟩ : Shape).ShapeCasts ⟨2, ![1, N]⟩) (h2 : (⟨2, ![1, N]⟩ : Shape).ShapeCasts ⟨2, ![1, N]⟩)
    (h3 : (⟨2, ![1, N]⟩ : Shape).Broadcasts ⟨2, ![M, N]⟩) :
    addf (matmul D none a w (constant ⟨2, ![M, N]⟩ .f32 0x00000000#32))
        (broadcastTo ⟨2, ![M, N]⟩ (shapeCast ⟨2, ![1, N]⟩ (shapeCast ⟨2, ![1, N]⟩ b h1) h2) h3)
      = dense a w b := by
  funext i
  obtain ⟨p, q, rfl⟩ : ∃ (p : Fin M) (q : Fin N), i = ix2 p q := ⟨i 0, i 1, eq_ix2 i⟩
  show matmul D none a w _ (ix2 p q) + broadcastTo _ _ h3 (ix2 p q) = prodAt a w p q + b (ix1 q)
  rw [matmul_at hD, bias_rows_apply]

include hD in
/-- The dense layer by the host. -/
theorem dense_host {φ₁ φ₂ : FTy} (a : FVec Ideal ⟨2, ![M, K]⟩ φ₁) (w : FVec Ideal ⟨2, ![K, N]⟩ φ₂) (b : FVec Ideal ⟨1, ![N]⟩ .f32)
    (g1 : (⟨1, ![N]⟩ : Shape).BroadcastsInDim ⟨2, ![1, N]⟩ ![1])
    (g2 : (⟨2, ![1, N]⟩ : Shape).BroadcastsInDim ⟨2, ![M, N]⟩ ![0, 1]) :
    addf (Host.dotGeneral D none a w) (broadcastInDim ⟨2, ![M, N]⟩ ![0, 1] g2 (broadcastInDim ⟨2, ![1, N]⟩ ![1] g1 b))
      = dense a w b := by
  funext i
  obtain ⟨p, q, rfl⟩ : ∃ (p : Fin M) (q : Fin N), i = ix2 p q := ⟨i 0, i 1, eq_ix2 i⟩
  show Host.dotGeneral D none a w (ix2 p q) + broadcastInDim _ _ g2 _ (ix2 p q) = prodAt a w p q + b (ix1 q)
  rw [dot_at hD, bias_host_apply]

include hD in
/-- The graph-convolution layer on the matrix unit: both products, then the bias. -/
theorem combine_unit {φ₁ φ₂ φ₃ φ₄ : FTy} (a : FVec Ideal ⟨2, ![M, K]⟩ φ₁) (w : FVec Ideal ⟨2, ![K, N]⟩ φ₂)
    (x : FVec Ideal ⟨2, ![M, K]⟩ φ₃) (w' : FVec Ideal ⟨2, ![K, N]⟩ φ₄) (b : FVec Ideal ⟨1, ![N]⟩ .f32)
    (h1 : (⟨1, ![N]⟩ : Shape).ShapeCasts ⟨2, ![1, N]⟩) (h2 : (⟨2, ![1, N]⟩ : Shape).ShapeCasts ⟨2, ![1, N]⟩)
    (h3 : (⟨2, ![1, N]⟩ : Shape).Broadcasts ⟨2, ![M, N]⟩) :
    addf (addf (matmul D none a w (constant ⟨2, ![M, N]⟩ .f32 0x00000000#32))
          (matmul D none x w' (constant ⟨2, ![M, N]⟩ .f32 0x00000000#32)))
        (broadcastTo ⟨2, ![M, N]⟩ (shapeCast ⟨2, ![1, N]⟩ (shapeCast ⟨2, ![1, N]⟩ b h1) h2) h3)
      = combine a x w w' b := by
  funext i
  obtain ⟨p, q, rfl⟩ : ∃ (p : Fin M) (q : Fin N), i = ix2 p q := ⟨i 0, i 1, eq_ix2 i⟩
  show (matmul D none a w _ (ix2 p q) + matmul D none x w' _ (ix2 p q)) + broadcastTo _ _ h3 (ix2 p q)
    = (prodAt a w p q + prodAt x w' p q) + b (ix1 q)
  rw [matmul_at hD, matmul_at hD, bias_rows_apply]

include hD in
/-- The graph-convolution layer by the host: the first product, the bias, then the second product — the same three
    terms in another order. -/
theorem combine_host {φ₁ φ₂ φ₃ φ₄ : FTy} (a : FVec Ideal ⟨2, ![M, K]⟩ φ₁) (w : FVec Ideal ⟨2, ![K, N]⟩ φ₂)
    (x : FVec Ideal ⟨2, ![M, K]⟩ φ₃) (w' : FVec Ideal ⟨2, ![K, N]⟩ φ₄) (b : FVec Ideal ⟨1, ![N]⟩ .f32)
    (g1 : (⟨1, ![N]⟩ : Shape).BroadcastsInDim ⟨2, ![1, N]⟩ ![1])
    (g2 : (⟨2, ![1, N]⟩ : Shape).BroadcastsInDim ⟨2, ![M, N]⟩ ![0, 1]) :
    addf (addf (Host.dotGeneral D none a w) (broadcastInDim ⟨2, ![M, N]⟩ ![0, 1] g2 (broadcastInDim ⟨2, ![1, N]⟩ ![1] g1 b)))
        (Host.dotGeneral D none x w')
      = combine a x w w' b := by
  funext i
  obtain ⟨p, q, rfl⟩ : ∃ (p : Fin M) (q : Fin N), i = ix2 p q := ⟨i 0, i 1, eq_ix2 i⟩
  show (Host.dotGeneral D none a w (ix2 p q) + broadcastInDim _ _ g2 _ (ix2 p q)) + Host.dotGeneral D none x w' (ix2 p q)
    = (prodAt a w p q + prodAt x w' p q) + b (ix1 q)
  rw [dot_at hD, dot_at hD, bias_host_apply]
  exact add_right_comm _ _ _

end

end Cert.LibLayer

end
-- ==== Proof.LibRecip.lean ====
/-
  Multiplying by a reciprocal against dividing, on the extended reals.

  A quotient by a nonzero `y` is the product with `y⁻¹` (the inverse of either infinity being zero), so `1 / y = y⁻¹`
  and `x · (1 / y) = x / y` for every extended real `x`, the infinities included: a precomputed reciprocal meets a
  division without any finiteness. The larger of anything and one is at least one, hence never zero: a count clamped
  below by one is a safe divisor whatever the count is. Also here: the host's entrywise quotient read at an index.
-/
import Idealize.ShloMosaic.PureOps.Ideal
import Idealize.ShloMosaic.PureOps.Vector

namespace Cert.LibRecip

open Idealize.ShloMosaic

/-- The larger of anything and one is not zero. -/
theorem max_one_ne_zero (y : EReal) : max y 1 ≠ 0 :=
  ne_of_gt (lt_of_lt_of_le zero_lt_one (le_max_right y 1))

/-- Off zero, one over `d` is the inverse of `d`. -/
theorem one_div (d : EReal) (hd : d ≠ 0) : Ideal.div 1 d = d⁻¹ := by
  unfold Ideal.div
  rw [if_neg hd, one_mul]

/-- Off zero, multiplying by the reciprocal is dividing. -/
theorem mul_recip (x d : EReal) (hd : d ≠ 0) : x * Ideal.div 1 d = Ideal.div x d := by
  unfold Ideal.div
  rw [if_neg hd, if_neg hd, one_mul]

/-- The host's entrywise quotient at an index. -/
theorem host_divf_apply {s : Shape} {φ : FTy} (a b : FVec Ideal s φ) (i : s.Idx) :
    Host.divf a b i = Ideal.div (a i) (b i) := rfl

end Cert.LibRecip
-- ==== Proof.Sage.lean ====
/-
  One layer of a mean-aggregating graph convolution, entry by entry on the extended reals.

  For a node `p` the layer adds three terms: the node's own features `x (p, ·)` through a weight matrix `wr`, the
  aggregate of its neighbours `s (p, ·)` scaled by the node's factor and sent through `wl`, and a bias. The tiled
  kernel scales by a precomputed reciprocal `ic (p, 0)` and adds "own, aggregate, bias"; the plain program divides by
  the count `d p` and adds "aggregate, bias, own". Entry `(p, q)` only reads row `p` of `s`, `ic`, `x`, which is
  why a block of rows of the result is the same function of the matching blocks of rows.
-/
import Idealize.ShloMosaic.Lib.ValueIdx
import Idealize.ShloMosaic.PureOps.Ideal
import proofs.«136637_j76338748720023_2_alg».proof.Proof.LibLayer
import proofs.«136637_j76338748720023_2_alg».proof.Proof.LibRecip

noncomputable section

namespace Cert.Sage

open Idealize.ShloMosaic Idealize.ShloMosaic.ValueIdx Cert.LibLayer

/-- The aggregate scaled row by row: entry `(p, c)` times the factor of row `p`. -/
def scaled {M K : ℕ} (s : Mat M K) (ic : Mat M 1) : Mat M K := fun j => s j * ic (ix2 (j 0) (0 : Fin 1))

/-- The aggregate divided row by row by the row's count. -/
def meaned {M K : ℕ} (s : Mat M K) (d : Row M) : Mat M K := fun j => Ideal.div (s j) (d (ix1 (j 0)))

/-- Entry `(p, q)` as the tiled kernel adds it: own features, scaled aggregate through `wl`, bias. -/
def unitAt {M K1 K2 N : ℕ} (s : Mat M K1) (ic : Mat M 1) (x : Mat M K2) (wl : Mat K1 N) (b : Mat 1 N) (wr : Mat K2 N)
    (p : Fin M) (q : Fin N) : EReal :=
  (prodAt x wr p q + prodAt (scaled s ic) wl p q) + b (ix2 (0 : Fin 1) q)

/-- Entry `(p, q)` as the tiled kernel adds it when the aggregate was projected beforehand: own features, the scaled
    aggregate itself, bias. -/
def unitAt' {M K2 N : ℕ} (s : Mat M N) (ic : Mat M 1) (x : Mat M K2) (b : Mat 1 N) (wr : Mat K2 N)
    (p : Fin M) (q : Fin N) : EReal :=
  (prodAt x wr p q + scaled s ic (ix2 p q)) + b (ix2 (0 : Fin 1) q)

/-- Entry `(p, q)` as the plain program adds it: the mean aggregate through `wl`, bias, own features. -/
def hostAt {M K1 K2 N : ℕ} (s : Mat M K1) (d : Row M) (x : Mat M K2) (wl : Mat K1 N) (b : Row N) (wr : Mat K2 N)
    (p : Fin M) (q : Fin N) : EReal :=
  (prodAt (meaned s d) wl p q + b (ix1 q)) + prodAt x wr p q

/-- A product entry reads one row of its left operand. -/
theorem prodAt_rows {M M' K N : ℕ} (a : Mat M K) (a' : Mat M' K) (w : Mat K N) (p : Fin M) (p' : Fin M') (q : Fin N)
    (h : ∀ c : Fin K, a (ix2 p c) = a' (ix2 p' c)) : prodAt a w p q = prodAt a' w p' q :=
  Finset.sum_congr rfl fun c _ => by rw [h c]

/-- A block of rows: entry `(r, q)` of the kernel's form on blocks whose row `r` is row `p` of the arrays. -/
theorem unitAt_rows {M M' K1 K2 N : ℕ} (s : Mat M K1) (ic : Mat M 1) (x : Mat M K2) (s' : Mat M' K1) (ic' : Mat M' 1)
    (x' : Mat M' K2) (wl : Mat K1 N) (b : Mat 1 N) (wr : Mat K2 N) (r : Fin M) (p : Fin M') (q : Fin N)
    (hs : ∀ c : Fin K1, s (ix2 r c) = s' (ix2 p c)) (hic : ic (ix2 r (0 : Fin 1)) = ic' (ix2 p (0 : Fin 1)))
    (hx : ∀ c : Fin K2, x (ix2 r c) = x' (ix2 p c)) :
    unitAt s ic x wl b wr r q = unitAt s' ic' x' wl b wr p q := by
  unfold unitAt
  rw [prodAt_rows x x' wr r p q hx, prodAt_rows (scaled s ic) (scaled s' ic') wl r p q (fun c => by
    show s (ix2 r c) * ic (ix2 r (0 : Fin 1)) = s' (ix2 p c) * ic' (ix2 p (0 : Fin 1))
    rw [hs c, hic])]

theorem unitAt'_rows {M M' K2 N : ℕ} (s : Mat M N) (ic : Mat M 1) (x : Mat M K2) (s' : Mat M' N) (ic' : Mat M' 1)
    (x' : Mat M' K2) (b : Mat 1 N) (wr : Mat K2 N) (r : Fin M) (p : Fin M') (q : Fin N)
    (hs : ∀ c : Fin N, s (ix2 r c) = s' (ix2 p c)) (hic : ic (ix2 r (0 : Fin 1)) = ic' (ix2 p (0 : Fin 1)))
    (hx : ∀ c : Fin K2, x (ix2 r c) = x' (ix2 p c)) :
    unitAt' s ic x b wr r q = unitAt' s' ic' x' b wr p q := by
  unfold unitAt'
  rw [prodAt_rows x x' wr r p q hx]
  show (_ + s (ix2 r q) * ic (ix2 r (0 : Fin 1))) + _ = (_ + s' (ix2 p q) * ic' (ix2 p (0 : Fin 1))) + _
  rw [hs q, hic]

/-- The kernel's order of the three terms against the plain program's, when the factor of each row is the
    reciprocal of its nonzero count: multiplying by `1 / d` is dividing by `d` on every extended real, and addition is
    commutative and associative. -/
theorem unitAt_eq_hostAt {M K1 K2 N : ℕ} (s : Mat M K1) (ic : Mat M 1) (d : Row M) (x : Mat M K2) (wl : Mat K1 N)
    (b2 : Mat 1 N) (b : Row N) (wr : Mat K2 N) (p : Fin M) (q : Fin N)
    (hic : ic (ix2 p (0 : Fin 1)) = Ideal.div 1 (d (ix1 p))) (hd : d (ix1 p) ≠ 0) (hb : b2 (ix2 (0 : Fin 1) q) = b (ix1 q)) :
    unitAt s ic x wl b2 wr p q = hostAt s d x wl b wr p q := by
  unfold unitAt hostAt
  rw [hb, prodAt_rows (scaled s ic) (meaned s d) wl p p q (fun c => by
    show s (ix2 p c) * ic (ix2 p (0 : Fin 1)) = Ideal.div (s (ix2 p c)) (d (ix1 p))
    rw [hic]; exact Cert.LibRecip.mul_recip _ _ hd)]
  rw [add_comm (prodAt x wr p q), add_right_comm]

end Cert.Sage

end
-- ==== Proof.KTerms.lean ====
/-
  The idealized kernel's host arithmetic between its four launches, as functions of arrays.

  Every node counts the edges that end in it (an integer scatter of ones, converted to a float), clamps the count
  below by one and takes the reciprocal, once for products (edge destinations) and once for users (edge sources).
  An aggregate is the sum, over the edges ending in a node, of the row of a feature table at the edge's other end
  (a gather of rows, then an accumulating scatter into zeros); indices are wrapped once if negative. The layers
  themselves are the launches' output functions; the result is the row-wise dot product of the two final feature
  tables gathered at the label pairs.
-/
import proofs.«136637_j76338748720023_2_alg».proof.KernelIdeal
import proofs.«136637_j76338748720023_2_alg».proof.Proof.Gen.KernelIdeal
import proofs.«136637_j76338748720023_2_alg».proof.Proof.Sage
import Idealize.ShloMosaic.PureOps.Ideal

noncomputable section

namespace Cert.KernelIdeal.KT

open Idealize.ShloMosaic Idealize.ShloMosaic.ValueIdx Cert.KernelIdeal Cert.LibLayer Cert.Sage
open Cert.KernelIdeal.Facts₀ Cert.KernelIdeal.Facts

/-- An edge-index vector as a one-column matrix. -/
def col (a : IVec S2000000 32) : IVec S2000000x1 32 := broadcastInDim S2000000x1 ![0] bcast_S2000000_S2000000x1_0 a

/-- Edge indices wrapped once if negative (by the table's row count `n`), as a column. -/
def wrap (n : BitVec 32) (a : IVec S2000000 32) : IVec S2000000x1 32 :=
  broadcastInDim S2000000x1 ![0] bcast_S2000000_S2000000x1_0
    (select (cmpi .slt a (broadcastInDim S2000000 ![] bcast_S_S2000000 (constantI S_ 32 0#32)))
      (addi a (broadcastInDim S2000000 ![] bcast_S_S2000000 (constantI S_ 32 n))) a)

/-- Label indices wrapped once if negative, as a column. -/
def wrapL (n : BitVec 32) (a : IVec S500000 32) : IVec S500000x1 32 :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 n))) a)

/-- How many edges end in each product, counted in integers and converted. -/
def cntP (a15 : IVec S2000000 32) : FVec Ideal S50000 .f32 :=
  sitofp .f32 (Host.scatter scatter_S50000_S2000000x1_S2000000_n_0_0_1 IntOp.addi
    (broadcastInDim S50000 ![] bcast_S_S50000 (constantI S_ 32 0#32)) (col a15)
    (broadcastInDim S2000000 ![] bcast_S_S2000000 (constantI S_ 32 1#32)))
/-- How many edges start at each user. -/
def cntU (a14 : IVec S2000000 32) : FVec Ideal S100000 .f32 :=
  sitofp .f32 (Host.scatter scatter_S100000_S2000000x1_S2000000_n_0_0_1 IntOp.addi
    (broadcastInDim S100000 ![] bcast_S_S100000 (constantI S_ 32 0#32)) (col a14)
    (broadcastInDim S2000000 ![] bcast_S_S2000000 (constantI S_ 32 1#32)))

def oneP : FVec Ideal S50000 .f32 := broadcastInDim S50000 ![] bcast_S_S50000 (constant S_ .f32 0x3F800000#32)
def oneU : FVec Ideal S100000 .f32 := broadcastInDim S100000 ![] bcast_S_S100000 (constant S_ .f32 0x3F800000#32)

/-- The counts clamped below by one. -/
def dP (a15 : IVec S2000000 32) : FVec Ideal S50000 .f32 := maximumf (cntP a15) oneP
def dU (a14 : IVec S2000000 32) : FVec Ideal S100000 .f32 := maximumf (cntU a14) oneU

/-- Their reciprocals, as one-column matrices. -/
def invP (a15 : IVec S2000000 32) : FVec Ideal S50000x1 .f32 := shapeCast S50000x1 (Host.divf oneP (dP a15)) shapeCasts_S50000_S50000x1
def invU (a14 : IVec S2000000 32) : FVec Ideal S100000x1 .f32 := shapeCast S100000x1 (Host.divf oneU (dU a14)) shapeCasts_S100000_S100000x1

/-- Rows of a user table summed into the products their edges end in. -/
def aggP (x : FVec Ideal S100000x64 .f32) (a14 a15 : IVec S2000000 32) : FVec Ideal S50000x64 .f32 :=
  Host.scatterAdd scatter_S50000x64_S2000000x1_S2000000x64_1_0_0_1
    (broadcastInDim S50000x64 ![] bcast_S_S50000x64 (constant S_ .f32 0x00000000#32)) (col a15)
    (Host.gather gather_S100000x64_S2000000x1_S2000000x64_1_0_n_n_0_1_164 x (wrap 100000#32 a14))
/-- Rows of a product table summed into the users their edges start at. -/
def aggU (x : FVec Ideal S50000x64 .f32) (a14 a15 : IVec S2000000 32) : FVec Ideal S100000x64 .f32 :=
  Host.scatterAdd scatter_S100000x64_S2000000x1_S2000000x64_1_0_0_1
    (broadcastInDim S100000x64 ![] bcast_S_S100000x64 (constant S_ .f32 0x00000000#32)) (col a14)
    (Host.gather gather_S50000x64_S2000000x1_S2000000x64_1_0_n_n_0_1_164 x (wrap 50000#32 a15))

/-- A bias vector as a one-row matrix. -/
def bias (b : FVec Ideal S64 .f32) : FVec Ideal S1x64 .f32 := shapeCast S1x64 b shapeCasts_S64_S1x64

/-- The products' features sent through the layer-1 aggregate weights before aggregation. -/
def proj (a1 : FVec Ideal S50000x128 .f32) (a5 : FVec Ideal S128x64 .f32) : FVec Ideal S50000x64 .f32 :=
  Host.dotGeneral dot_S50000x128_S128x64_S50000x64_1_0_0_1_n_n none a1 a5

/-- The four launches' output functions. -/
def lay0 (s : FVec Ideal S50000x64 .f32) (ic : FVec Ideal S50000x1 .f32) (x : FVec Ideal S50000x128 .f32) (wl : FVec Ideal S64x64 .f32)
    (b : FVec Ideal S1x64 .f32) (wr : FVec Ideal S128x64 .f32) : FVec Ideal S50000x64 .f32 := fun i =>
  max (unitAt (M := 50000) (K1 := 64) (K2 := 128) (N := 64) s ic x wl b wr (i 0) (i 1)) (Ideal.ofBits .f32 0x00000000#32)
def lay1 (s : FVec Ideal S100000x64 .f32) (ic : FVec Ideal S100000x1 .f32) (x : FVec Ideal S100000x64 .f32)
    (b : FVec Ideal S1x64 .f32) (wr : FVec Ideal S64x64 .f32) : FVec Ideal S100000x64 .f32 := fun i =>
  max (unitAt' (M := 100000) (K2 := 64) (N := 64) s ic x b wr (i 0) (i 1)) (Ideal.ofBits .f32 0x00000000#32)
def lay2 (s : FVec Ideal S50000x64 .f32) (ic : FVec Ideal S50000x1 .f32) (x : FVec Ideal S50000x64 .f32) (wl : FVec Ideal S64x64 .f32)
    (b : FVec Ideal S1x64 .f32) (wr : FVec Ideal S64x64 .f32) : FVec Ideal S50000x64 .f32 := fun i =>
  unitAt (M := 50000) (K1 := 64) (K2 := 64) (N := 64) s ic x wl b wr (i 0) (i 1)
def lay3 (s : FVec Ideal S100000x64 .f32) (ic : FVec Ideal S100000x1 .f32) (x : FVec Ideal S100000x64 .f32) (wl : FVec Ideal S64x64 .f32)
    (b : FVec Ideal S1x64 .f32) (wr : FVec Ideal S64x64 .f32) : FVec Ideal S100000x64 .f32 := fun i =>
  unitAt (M := 100000) (K1 := 64) (K2 := 64) (N := 64) s ic x wl b wr (i 0) (i 1)

/-- The result: the dot product of the two final tables' rows at each label pair. -/
def tail (hu2 : FVec Ideal S100000x64 .f32) (hp2 : FVec Ideal S50000x64 .f32) (a16 a17 : IVec S500000 32) : FVec Ideal S500000 .f32 :=
  Host.reduceAdd (mulf (Host.gather gather_S100000x64_S500000x1_S500000x64_1_0_n_n_0_1_164 hu2 (wrapL 100000#32 a16))
      (Host.gather gather_S50000x64_S500000x1_S500000x64_1_0_n_n_0_1_164 hp2 (wrapL 50000#32 a17)))
    (constant S_ .f32 0x00000000#32) reducesTo_S500000x64_S500000_d1 h_S_

/-- Layer 1 at the products, at the users; layer 2 at the products, at the users. -/
def hp (a0 : FVec Ideal S100000x64 .f32) (a1 : FVec Ideal S50000x128 .f32) (a2 : FVec Ideal S64x64 .f32) (a3 : FVec Ideal S64 .f32)
    (a4 : FVec Ideal S128x64 .f32) (a14 a15 : IVec S2000000 32) : FVec Ideal S50000x64 .f32 :=
  lay0 (aggP a0 a14 a15) (invP a15) a1 a2 (bias a3) a4
def hu (a0 : FVec Ideal S100000x64 .f32) (a1 : FVec Ideal S50000x128 .f32) (a5 : FVec Ideal S128x64 .f32) (a6 : FVec Ideal S64 .f32)
    (a7 : FVec Ideal S64x64 .f32) (a14 a15 : IVec S2000000 32) : FVec Ideal S100000x64 .f32 :=
  lay1 (aggU (proj a1 a5) a14 a15) (invU a14) a0 (bias a6) a7
def hp2 (u : FVec Ideal S100000x64 .f32) (p : FVec Ideal S50000x64 .f32) (a8 : FVec Ideal S64x64 .f32) (a9 : FVec Ideal S64 .f32)
    (a10 : FVec Ideal S64x64 .f32) (a14 a15 : IVec S2000000 32) : FVec Ideal S50000x64 .f32 :=
  lay2 (aggP u a14 a15) (invP a15) p a8 (bias a9) a10
def hu2 (u : FVec Ideal S100000x64 .f32) (p : FVec Ideal S50000x64 .f32) (a11 : FVec Ideal S64x64 .f32) (a12 : FVec Ideal S64 .f32)
    (a13 : FVec Ideal S64x64 .f32) (a14 a15 : IVec S2000000 32) : FVec Ideal S100000x64 .f32 :=
  lay3 (aggU p a14 a15) (invU a14) u a11 (bias a12) a13

end Cert.KernelIdeal.KT

end
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.Layer0.lean ====
/-
The first launch of the layer kernel (layer 1, users → products): what its output array holds afterwards.

  The grid has ten points; point `t` reads rows 5000·t … 5000·t + 4999 of the aggregate, of the reciprocal counts and
  of the products' features, the whole of both weight matrices and of the bias row, and writes the same rows of the
  output. Entry (r, q) of the block it writes is the layer's entry (5000·t + r, q): a product entry reads one row of
  its left operand, and scaling by the reciprocal count is row by row. The ten blocks tile the output, so afterwards
  the array is the layer's function of the six input arrays, rectified at zero.
-/
import proofs.«136637_j76338748720023_2_alg».proof.Proof.Gen.KernelIdeal.Frame
import Idealize.ShloMosaic.Lib.Pipeline.Value
import Idealize.ShloMosaic.Lib.ValueIdx
import Idealize.ShloMosaic.Lib.ValueLayout
import proofs.«136637_j76338748720023_2_alg».proof.Proof.LibLayer
import proofs.«136637_j76338748720023_2_alg».proof.Proof.LibColumns
import proofs.«136637_j76338748720023_2_alg».proof.Proof.Sage

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLayer Cert.Sage

variable (V : (c : Dev nD) → (b : Ref sig .tc) → Buf (Elt Ideal) ((c : Thread nD τ).loc b))

theorem hz : (![0, 0] : Fin 2 → Nat) = fun _ => 0 := funext fun a => by fin_cases a <;> rfl

theorem plain_x : Plain dot_S5000x128_S128x64_S5000x64_1_0_0_1_n_n := ⟨rfl, rfl, rfl, rfl, rfl, rfl⟩
theorem plain_a : Plain dot_S5000x64_S64x64_S5000x64_1_0_0_1_n_n := ⟨rfl, rfl, rfl, rfl, rfl, rfl⟩

/-- The body's value at entry (r, q) of the block: the layer's three terms on the loaded blocks, rectified. -/
theorem pay_apply (v0 : Vec Ideal S5000x1 .f32) (v2 : Vec Ideal S5000x64 .f32) (v6 : Vec Ideal S5000x128 .f32)
    (v8 : Vec Ideal S128x64 .f32) (v12 : Vec Ideal S64x64 .f32) (v16 : Vec Ideal S1x64 .f32) (r : Fin 5000) (q : Fin 64) :
    k0_pay1 (F := Ideal) v0 v2 v6 v8 v12 v16 (ix2 r q)
      = max (unitAt (M := 5000) (K1 := 64) (K2 := 128) (N := 64) v2 v0 v6 v12 v16 v8 r q) (Ideal.ofBits .f32 0x00000000#32) := by
  unfold k0_pay1 unitAt
  show max ((matmul (F := Ideal) dot_S5000x128_S128x64_S5000x64_1_0_0_1_n_n none v6 v8 (constant S5000x64 .f32 0x00000000#32) (ix2 r q)
      + matmul (F := Ideal) dot_S5000x64_S64x64_S5000x64_1_0_0_1_n_n none
          (mulf (shapeCast S5000x64 v2 shapeCasts_S5000x64_S5000x64) (broadcastTo S5000x64 (shapeCast S5000x1 v0 shapeCasts_S5000x1_S5000x1) broadcasts_S5000x1_S5000x64))
          v12 (constant S5000x64 .f32 0x00000000#32) (ix2 r q))
      + broadcastTo S5000x64 (shapeCast S1x64 v16 shapeCasts_S1x64_S1x64) broadcasts_S1x64_S5000x64 (ix2 r q)) _ = _
  rw [matmul_at plain_x, matmul_at plain_a, broadcastTo_1b_ab_apply]
  simp only [shapeCast_self]
  have e1 : prodAt (mulf (F := Ideal) (φ := .f32) v2 (broadcastTo S5000x64 v0 broadcasts_S5000x1_S5000x64)) v12 r q = prodAt (scaled v2 v0) v12 r q :=
    prodAt_rows _ _ v12 r r q fun c => by
      show v2 (ix2 r c) * broadcastTo S5000x64 v0 broadcasts_S5000x1_S5000x64 (ix2 r c) = v2 (ix2 r c) * v0 (ix2 r (0 : Fin 1))
      rw [Cert.LibColumns.broadcastTo_a1_ab_apply]
  exact congrArg (fun z => max ((prodAt v6 v8 r q + z) + v16 (ix2 (0 : Fin 1) q)) (Ideal.ofBits .f32 0x00000000#32)) e1

/-- The printed block-index maps over the grid: the row windows move with the point, the others stay at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of point `t`'s block of the aggregate is row 5000·t + r of the array. -/
theorem blk_s (c : Dev nD) (t : Fin cfg0.N) (r : Fin 5000) (j : Fin 64) (p : Fin 50000) (hp : p.val = 5000 * t.val + r.val) :
    (iblk0 V c 0 t : Vec Ideal S5000x64 .f32) (ix2 r j) = (V c main_v29 : S50000x64.Idx → EReal) (ix2 p j) := by
  obtain ⟨h0a, h0b, h1a, h1b, h2a, h2b, h3a, h3b, h4a, h4b, h5a, h5b, hoa, hob⟩ := idx_facts t
  unfold iblk0
  rw [View.read_apply]
  show V c main_v29 _ = V c main_v29 _
  refine congrArg _ (funext fun a => Fin.ext ?_)
  match a with
  | ⟨0, _⟩ => show win0_0.index t (0 : Fin 2) * 5000 + 1 * r.val = p.val; omega
  | ⟨1, _⟩ => show win0_0.index t (1 : Fin 2) * 64 + 1 * j.val = j.val; omega

/-- Row `r` of point `t`'s block of the reciprocal counts is row 5000·t + r of the array. -/
theorem blk_ic (c : Dev nD) (t : Fin cfg0.N) (r : Fin 5000) (j : Fin 1) (p : Fin 50000) (hp : p.val = 5000 * t.val + r.val) :
    (iblk0 V c 1 t : Vec Ideal S5000x1 .f32) (ix2 r j) = (V c main_v14 : S50000x1.Idx → EReal) (ix2 p j) := by
  obtain ⟨h0a, h0b, h1a, h1b, h2a, h2b, h3a, h3b, h4a, h4b, h5a, h5b, hoa, hob⟩ := idx_facts t
  unfold iblk0
  rw [View.read_apply]
  show V c main_v14 _ = V c main_v14 _
  refine congrArg _ (funext fun a => Fin.ext ?_)
  match a with
  | ⟨0, _⟩ => show win0_1.index t (0 : Fin 2) * 5000 + 1 * r.val = p.val; omega
  | ⟨1, _⟩ => show win0_1.index t (1 : Fin 2) * 1 + 1 * j.val = j.val; omega

/-- Row `r` of point `t`'s block of the nodes' own features is row 5000·t + r of the array. -/
theorem blk_x (c : Dev nD) (t : Fin cfg0.N) (r : Fin 5000) (j : Fin 128) (p : Fin 50000) (hp : p.val = 5000 * t.val + r.val) :
    (iblk0 V c 2 t : Vec Ideal S5000x128 .f32) (ix2 r j) = (V c main_arg1 : S50000x128.Idx → EReal) (ix2 p j) := by
  obtain ⟨h0a, h0b, h1a, h1b, h2a, h2b, h3a, h3b, h4a, h4b, h5a, h5b, hoa, hob⟩ := idx_facts t
  unfold iblk0
  rw [View.read_apply]
  show V c main_arg1 _ = V c main_arg1 _
  refine congrArg _ (funext fun a => Fin.ext ?_)
  match a with
  | ⟨0, _⟩ => show win0_2.index t (0 : Fin 2) * 5000 + 1 * r.val = p.val; omega
  | ⟨1, _⟩ => show win0_2.index t (1 : Fin 2) * 128 + 1 * j.val = j.val; omega

/-- Every point reads the whole of the aggregate's weight matrix. -/
theorem blk_wl (c : Dev nD) (t : Fin cfg0.N) :
    (iblk0 V c 3 t : Vec Ideal S64x64 .f32) = (V c main_arg2 : S64x64.Idx → EReal) := by
  obtain ⟨h0a, h0b, h1a, h1b, h2a, h2b, h3a, h3b, h4a, h4b, h5a, h5b, hoa, hob⟩ := idx_facts t
  funext y
  unfold iblk0
  rw [View.read_apply]
  show V c main_arg2 _ = V c main_arg2 _
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- Every point reads the whole of the bias row. -/
theorem blk_b (c : Dev nD) (t : Fin cfg0.N) :
    (iblk0 V c 4 t : Vec Ideal S1x64 .f32) = (V c main_v30 : S1x64.Idx → EReal) := by
  obtain ⟨h0a, h0b, h1a, h1b, h2a, h2b, h3a, h3b, h4a, h4b, h5a, h5b, hoa, hob⟩ := idx_facts t
  funext y
  unfold iblk0
  rw [View.read_apply]
  show V c main_v30 _ = V c main_v30 _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Every point reads the whole of the own features' weight matrix. -/
theorem blk_wr (c : Dev nD) (t : Fin cfg0.N) :
    (iblk0 V c 5 t : Vec Ideal S128x64 .f32) = (V c main_arg4 : S128x64.Idx → EReal) := by
  obtain ⟨h0a, h0b, h1a, h1b, h2a, h2b, h3a, h3b, h4a, h4b, h5a, h5b, hoa, hob⟩ := idx_facts t
  funext y
  unfold iblk0
  rw [View.read_apply]
  show V c main_arg4 _ = V c main_arg4 _
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- The output array after the launch, as one function of the input arrays the launch finds. -/
def G (c : Dev nD) : S50000x64.Idx → EReal := fun i =>
  max (unitAt (M := 50000) (K1 := 64) (K2 := 128) (N := 64) (V c main_v29) (V c main_v14) (V c main_arg1) (V c main_arg2) (V c main_v30) (V c main_arg4) (i 0) (i 1)) (Ideal.ofBits .f32 0x00000000#32)

/-- What point `t` writes back is block `t` of `G`. -/
theorem flushed (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S5000x128) hz, View.ld_unit_zero (S := S64x64) hz, View.ld_unit_zero (S := S1x64) hz, View.ld_unit_zero (S := S128x64) hz]
  obtain ⟨h0a, h0b, h1a, h1b, h2a, h2b, h3a, h3b, h4a, h4b, h5a, h5b, hoa, hob⟩ := idx_facts t
  funext y
  obtain ⟨r, q, rfl⟩ : ∃ (r : Fin 5000) (q : Fin 64), y = ix2 r q := ⟨y 0, y 1, eq_ix2 y⟩
  rw [View.read_apply]
  refine (pay_apply _ _ _ _ _ _ r q).trans ?_
  have hN : cfg0.N = 10 := N_0
  have hp : 5000 * t.val + r.val < 50000 := by have := t.isLt; have := r.isLt; omega
  have he : ((cfg0.win 6).blk t).view.emb (ix2 r q) = ix2 (⟨5000 * t.val + r.val, hp⟩ : Fin 50000) q :=
    funext fun a => Fin.ext (by
      match a with
      | ⟨0, _⟩ => show win0_6.index t (0 : Fin 2) * 5000 + 1 * r.val = 5000 * t.val + r.val; omega
      | ⟨1, _⟩ => show win0_6.index t (1 : Fin 2) * 64 + 1 * q.val = q.val; omega)
  rw [he]
  show _ = max (unitAt (M := 50000) (K1 := 64) (K2 := 128) (N := 64) (V c main_v29) (V c main_v14) (V c main_arg1) (V c main_arg2) (V c main_v30) (V c main_arg4) (⟨5000 * t.val + r.val, hp⟩ : Fin 50000) q) (Ideal.ofBits .f32 0x00000000#32)
  refine congrArg (fun z => max z _) ?_
  rw [blk_wl V c t, blk_b V c t, blk_wr V c t]
  exact unitAt_rows (M := 5000) (M' := 50000) _ _ _ _ _ _ _ _ _ r ⟨5000 * t.val + r.val, hp⟩ q (fun j => blk_s V c t r j _ rfl) (blk_ic V c t r 0 _ rfl) (fun j => blk_x V c t r j _ rfl)

/-- An index of the output array is in point `t`'s block iff its row is one of the point's 5000 rows. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v31).slice (win0_6.rect t)).set ↔ _
  rw [View.set_slice_whole, Rect.mem_set_unit]
  exact Iff.rfl

/-- The 10 blocks tile the output, so after the launch it holds `G`. -/
theorem final (c : Dev nD) : (dat0 V c).arrAt 6 cfg0.N = G V c :=
  (dat0 V c).arrAt_eq_of_cover 6 (G V c) (fun t _ => flushed V c t) fun i => by
    have hN : cfg0.N = 10 := N_0
    have hi0 : (i 0).val < 50000 := (i 0).isLt
    have hi1 : (i 1).val < 64 := (i 1).isLt
    refine ⟨⟨(i 0).val / 5000, by omega⟩, flush0_6 _, ?_⟩
    rw [mem_blk]
    obtain ⟨h0a, h0b, h1a, h1b, h2a, h2b, h3a, h3b, h4a, h4b, h5a, h5b, hoa, hob⟩ := idx_facts ⟨(i 0).val / 5000, by omega⟩
    intro a
    match a with
    | ⟨0, _⟩ =>
      show win0_6.index _ (0 : Fin 2) * 5000 ≤ (i 0).val ∧ (i 0).val < win0_6.index _ (0 : Fin 2) * 5000 + 5000
      rw [hoa]; show (i 0).val / 5000 * 5000 ≤ (i 0).val ∧ (i 0).val < (i 0).val / 5000 * 5000 + 5000; omega
    | ⟨1, _⟩ =>
      show win0_6.index _ (1 : Fin 2) * 64 ≤ (i 1).val ∧ (i 1).val < win0_6.index _ (1 : Fin 2) * 64 + 64
      rw [hob]; omega

end Cert.KernelIdeal.Layer0

end
-- ==== Proof.Layer1.lean ====
/-
  The second launch of the layer kernel (layer 1, products → users): what its output array holds afterwards.

  Here the products' features were sent through the aggregate's weight matrix BEFORE they were gathered along the
  edges and summed, so the kernel has no product for the aggregate: point `t` of twenty scales rows
  5000·t … 5000·t + 4999 of the projected aggregate by the reciprocal counts, adds the users' own features through
  their weight matrix and the bias, rectifies at zero and writes the same rows of the output. The twenty blocks tile
  the output.
-/
import proofs.«136637_j76338748720023_2_alg».proof.Proof.Gen.KernelIdeal.Frame
import Idealize.ShloMosaic.Lib.Pipeline.Value
import Idealize.ShloMosaic.Lib.ValueIdx
import Idealize.ShloMosaic.Lib.ValueLayout
import proofs.«136637_j76338748720023_2_alg».proof.Proof.LibLayer
import proofs.«136637_j76338748720023_2_alg».proof.Proof.LibColumns
import proofs.«136637_j76338748720023_2_alg».proof.Proof.Sage

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLayer Cert.Sage

variable (V : (c : Dev nD) → (b : Ref sig .tc) → Buf (Elt Ideal) ((c : Thread nD τ).loc b))

theorem hz : (![0, 0] : Fin 2 → Nat) = fun _ => 0 := funext fun a => by fin_cases a <;> rfl

theorem plain_a : Plain dot_S5000x64_S64x64_S5000x64_1_0_0_1_n_n := ⟨rfl, rfl, rfl, rfl, rfl, rfl⟩

/-- The body's value at entry (r, q) of the block: own features through the weight matrix, the scaled aggregate
    itself (it was projected before it was aggregated), the bias; rectified. -/
theorem pay_apply (v0 : Vec Ideal S5000x1 .f32) (v2 : Vec Ideal S5000x64 .f32) (v6 : Vec Ideal S5000x64 .f32)
    (v8 : Vec Ideal S64x64 .f32) (v12 : Vec Ideal S1x64 .f32) (r : Fin 5000) (q : Fin 64) :
    k1_pay1 (F := Ideal) v0 v2 v6 v8 v12 (ix2 r q)
      = max (unitAt' (M := 5000) (K2 := 64) (N := 64) v2 v0 v6 v12 v8 r q) (Ideal.ofBits .f32 0x00000000#32) := by
  unfold k1_pay1 unitAt'
  show max ((matmul (F := Ideal) dot_S5000x64_S64x64_S5000x64_1_0_0_1_n_n none v6 v8 (constant S5000x64 .f32 0x00000000#32) (ix2 r q)
      + mulf (F := Ideal) (φ := .f32) (shapeCast S5000x64 v2 shapeCasts_S5000x64_S5000x64) (broadcastTo S5000x64 (shapeCast S5000x1 v0 shapeCasts_S5000x1_S5000x1) broadcasts_S5000x1_S5000x64) (ix2 r q))
      + broadcastTo S5000x64 (shapeCast S1x64 v12 shapeCasts_S1x64_S1x64) broadcasts_S1x64_S5000x64 (ix2 r q)) _ = _
  rw [matmul_at plain_a, broadcastTo_1b_ab_apply]
  simp only [shapeCast_self]
  have e1 : mulf (F := Ideal) (φ := .f32) v2 (broadcastTo S5000x64 v0 broadcasts_S5000x1_S5000x64) (ix2 r q) = scaled v2 v0 (ix2 r q) := by
    show v2 (ix2 r q) * broadcastTo S5000x64 v0 broadcasts_S5000x1_S5000x64 (ix2 r q) = v2 (ix2 r q) * v0 (ix2 r (0 : Fin 1))
    rw [Cert.LibColumns.broadcastTo_a1_ab_apply]
  exact congrArg (fun z => max ((prodAt v6 v8 r q + z) + v12 (ix2 (0 : Fin 1) q)) (Ideal.ofBits .f32 0x00000000#32)) e1

/-- The printed block-index maps over the grid: the row windows move with the point, the others stay at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of point `t`'s block of the projected aggregate is row 5000·t + r of the array. -/
theorem blk_s (c : Dev nD) (t : Fin cfg1.N) (r : Fin 5000) (j : Fin 64) (p : Fin 100000) (hp : p.val = 5000 * t.val + r.val) :
    (iblk1 V c 0 t : Vec Ideal S5000x64 .f32) (ix2 r j) = (V c main_v42 : S100000x64.Idx → EReal) (ix2 p j) := by
  obtain ⟨h0a, h0b, h1a, h1b, h2a, h2b, h3a, h3b, h4a, h4b, hoa, hob⟩ := idx_facts t
  unfold iblk1
  rw [View.read_apply]
  show V c main_v42 _ = V c main_v42 _
  refine congrArg _ (funext fun a => Fin.ext ?_)
  match a with
  | ⟨0, _⟩ => show win1_0.index t (0 : Fin 2) * 5000 + 1 * r.val = p.val; omega
  | ⟨1, _⟩ => show win1_0.index t (1 : Fin 2) * 64 + 1 * j.val = j.val; omega

/-- Row `r` of point `t`'s block of the reciprocal counts is row 5000·t + r of the array. -/
theorem blk_ic (c : Dev nD) (t : Fin cfg1.N) (r : Fin 5000) (j : Fin 1) (p : Fin 100000) (hp : p.val = 5000 * t.val + r.val) :
    (iblk1 V c 1 t : Vec Ideal S5000x1 .f32) (ix2 r j) = (V c main_v19 : S100000x1.Idx → EReal) (ix2 p j) := by
  obtain ⟨h0a, h0b, h1a, h1b, h2a, h2b, h3a, h3b, h4a, h4b, hoa, hob⟩ := idx_facts t
  unfold iblk1
  rw [View.read_apply]
  show V c main_v19 _ = V c main_v19 _
  refine congrArg _ (funext fun a => Fin.ext ?_)
  match a with
  | ⟨0, _⟩ => show win1_1.index t (0 : Fin 2) * 5000 + 1 * r.val = p.val; omega
  | ⟨1, _⟩ => show win1_1.index t (1 : Fin 2) * 1 + 1 * j.val = j.val; omega

/-- Row `r` of point `t`'s block of the nodes' own features is row 5000·t + r of the array. -/
theorem blk_x (c : Dev nD) (t : Fin cfg1.N) (r : Fin 5000) (j : Fin 64) (p : Fin 100000) (hp : p.val = 5000 * t.val + r.val) :
    (iblk1 V c 2 t : Vec Ideal S5000x64 .f32) (ix2 r j) = (V c main_arg0 : S100000x64.Idx → EReal) (ix2 p j) := by
  obtain ⟨h0a, h0b, h1a, h1b, h2a, h2b, h3a, h3b, h4a, h4b, hoa, hob⟩ := idx_facts t
  unfold iblk1
  rw [View.read_apply]
  show V c main_arg0 _ = V c main_arg0 _
  refine congrArg _ (funext fun a => Fin.ext ?_)
  match a with
  | ⟨0, _⟩ => show win1_2.index t (0 : Fin 2) * 5000 + 1 * r.val = p.val; omega
  | ⟨1, _⟩ => show win1_2.index t (1 : Fin 2) * 64 + 1 * j.val = j.val; omega

/-- Every point reads the whole of the bias row. -/
theorem blk_b (c : Dev nD) (t : Fin cfg1.N) :
    (iblk1 V c 3 t : Vec Ideal S1x64 .f32) = (V c main_v43 : S1x64.Idx → EReal) := by
  obtain ⟨h0a, h0b, h1a, h1b, h2a, h2b, h3a, h3b, h4a, h4b, hoa, hob⟩ := idx_facts t
  funext y
  unfold iblk1
  rw [View.read_apply]
  show V c main_v43 _ = V c main_v43 _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Every point reads the whole of the own features' weight matrix. -/
theorem blk_wr (c : Dev nD) (t : Fin cfg1.N) :
    (iblk1 V c 4 t : Vec Ideal S64x64 .f32) = (V c main_arg7 : S64x64.Idx → EReal) := by
  obtain ⟨h0a, h0b, h1a, h1b, h2a, h2b, h3a, h3b, h4a, h4b, hoa, hob⟩ := idx_facts t
  funext y
  unfold iblk1
  rw [View.read_apply]
  show V c main_arg7 _ = V c main_arg7 _
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- The output array after the launch, as one function of the input arrays the launch finds. -/
def G (c : Dev nD) : S100000x64.Idx → EReal := fun i =>
  max (unitAt' (M := 100000) (K2 := 64) (N := 64) (V c main_v42) (V c main_v19) (V c main_arg0) (V c main_v43) (V c main_arg7) (i 0) (i 1)) (Ideal.ofBits .f32 0x00000000#32)

/-- What point `t` writes back is block `t` of `G`. -/
theorem flushed (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz, View.ld_unit_zero (S := S64x64) hz]
  obtain ⟨h0a, h0b, h1a, h1b, h2a, h2b, h3a, h3b, h4a, h4b, hoa, hob⟩ := idx_facts t
  funext y
  obtain ⟨r, q, rfl⟩ : ∃ (r : Fin 5000) (q : Fin 64), y = ix2 r q := ⟨y 0, y 1, eq_ix2 y⟩
  rw [View.read_apply]
  refine (pay_apply _ _ _ _ _ r q).trans ?_
  have hN : cfg1.N = 20 := N_1
  have hp : 5000 * t.val + r.val < 100000 := by have := t.isLt; have := r.isLt; omega
  have he : ((cfg1.win 5).blk t).view.emb (ix2 r q) = ix2 (⟨5000 * t.val + r.val, hp⟩ : Fin 100000) q :=
    funext fun a => Fin.ext (by
      match a with
      | ⟨0, _⟩ => show win1_5.index t (0 : Fin 2) * 5000 + 1 * r.val = 5000 * t.val + r.val; omega
      | ⟨1, _⟩ => show win1_5.index t (1 : Fin 2) * 64 + 1 * q.val = q.val; omega)
  rw [he]
  show _ = max (unitAt' (M := 100000) (K2 := 64) (N := 64) (V c main_v42) (V c main_v19) (V c main_arg0) (V c main_v43) (V c main_arg7) (⟨5000 * t.val + r.val, hp⟩ : Fin 100000) q) (Ideal.ofBits .f32 0x00000000#32)
  refine congrArg (fun z => max z _) ?_
  rw [blk_b V c t, blk_wr V c t]
  exact unitAt'_rows (M := 5000) (M' := 100000) _ _ _ _ _ _ _ _ r ⟨5000 * t.val + r.val, hp⟩ q (fun j => blk_s V c t r j _ rfl) (blk_ic V c t r 0 _ rfl) (fun j => blk_x V c t r j _ rfl)

/-- An index of the output array is in point `t`'s block iff its row is one of the point's 5000 rows. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v44).slice (win1_5.rect t)).set ↔ _
  rw [View.set_slice_whole, Rect.mem_set_unit]
  exact Iff.rfl

/-- The 20 blocks tile the output, so after the launch it holds `G`. -/
theorem final (c : Dev nD) : (dat1 V c).arrAt 5 cfg1.N = G V c :=
  (dat1 V c).arrAt_eq_of_cover 5 (G V c) (fun t _ => flushed V c t) fun i => by
    have hN : cfg1.N = 20 := N_1
    have hi0 : (i 0).val < 100000 := (i 0).isLt
    have hi1 : (i 1).val < 64 := (i 1).isLt
    refine ⟨⟨(i 0).val / 5000, by omega⟩, flush1_5 _, ?_⟩
    rw [mem_blk]
    obtain ⟨h0a, h0b, h1a, h1b, h2a, h2b, h3a, h3b, h4a, h4b, hoa, hob⟩ := idx_facts ⟨(i 0).val / 5000, by omega⟩
    intro a
    match a with
    | ⟨0, _⟩ =>
      show win1_5.index _ (0 : Fin 2) * 5000 ≤ (i 0).val ∧ (i 0).val < win1_5.index _ (0 : Fin 2) * 5000 + 5000
      rw [hoa]; show (i 0).val / 5000 * 5000 ≤ (i 0).val ∧ (i 0).val < (i 0).val / 5000 * 5000 + 5000; omega
    | ⟨1, _⟩ =>
      show win1_5.index _ (1 : Fin 2) * 64 ≤ (i 1).val ∧ (i 1).val < win1_5.index _ (1 : Fin 2) * 64 + 64
      rw [hob]; omega

end Cert.KernelIdeal.Layer1

end
-- ==== Proof.Layer2.lean ====
/-
  The third launch of the layer kernel (layer 2, users → products): what its output array holds afterwards.

  Point `t` of ten reads rows 5000·t … 5000·t + 4999 of the aggregate, of the reciprocal counts and of the nodes' own
  layer-1 features, the whole of both weight matrices and of the bias row, and writes the same rows of the output:
  the scaled aggregate and the own features each through their weight matrix, plus the bias, not rectified. The
  blocks tile the output, so afterwards the array is that function of the six input arrays.
-/
import proofs.«136637_j76338748720023_2_alg».proof.Proof.Gen.KernelIdeal.Frame
import Idealize.ShloMosaic.Lib.Pipeline.Value
import Idealize.ShloMosaic.Lib.ValueIdx
import Idealize.ShloMosaic.Lib.ValueLayout
import proofs.«136637_j76338748720023_2_alg».proof.Proof.LibLayer
import proofs.«136637_j76338748720023_2_alg».proof.Proof.LibColumns
import proofs.«136637_j76338748720023_2_alg».proof.Proof.Sage

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLayer Cert.Sage

variable (V : (c : Dev nD) → (b : Ref sig .tc) → Buf (Elt Ideal) ((c : Thread nD τ).loc b))

theorem hz : (![0, 0] : Fin 2 → Nat) = fun _ => 0 := funext fun a => by fin_cases a <;> rfl

theorem plain_a : Plain dot_S5000x64_S64x64_S5000x64_1_0_0_1_n_n := ⟨rfl, rfl, rfl, rfl, rfl, rfl⟩

/-- The body's value at entry (r, q) of the block: the layer's three terms on the loaded blocks. -/
theorem pay_apply (v0 : Vec Ideal S5000x1 .f32) (v2 : Vec Ideal S5000x64 .f32) (v6 : Vec Ideal S5000x64 .f32)
    (v9 : Vec Ideal S64x64 .f32) (v13 : Vec Ideal S64x64 .f32) (v17 : Vec Ideal S1x64 .f32) (r : Fin 5000) (q : Fin 64) :
    k2_pay1 (F := Ideal) v0 v2 v6 v9 v13 v17 (ix2 r q)
      = unitAt (M := 5000) (K1 := 64) (K2 := 64) (N := 64) v2 v0 v6 v13 v17 v9 r q := by
  unfold k2_pay1 unitAt
  show (matmul (F := Ideal) dot_S5000x64_S64x64_S5000x64_1_0_0_1_n_n none (shapeCast S5000x64 v6 shapeCasts_S5000x64_S5000x64) v9 (constant S5000x64 .f32 0x00000000#32) (ix2 r q)
      + matmul (F := Ideal) dot_S5000x64_S64x64_S5000x64_1_0_0_1_n_n none
          (mulf (shapeCast S5000x64 v2 shapeCasts_S5000x64_S5000x64) (broadcastTo S5000x64 (shapeCast S5000x1 v0 shapeCasts_S5000x1_S5000x1) broadcasts_S5000x1_S5000x64))
          v13 (constant S5000x64 .f32 0x00000000#32) (ix2 r q))
      + broadcastTo S5000x64 (shapeCast S1x64 v17 shapeCasts_S1x64_S1x64) broadcasts_S1x64_S5000x64 (ix2 r q) = _
  rw [matmul_at plain_a, matmul_at plain_a, broadcastTo_1b_ab_apply]
  simp only [shapeCast_self]
  have e1 : prodAt (mulf (F := Ideal) (φ := .f32) v2 (broadcastTo S5000x64 v0 broadcasts_S5000x1_S5000x64)) v13 r q = prodAt (scaled v2 v0) v13 r q :=
    prodAt_rows _ _ v13 r r q fun c => by
      show v2 (ix2 r c) * broadcastTo S5000x64 v0 broadcasts_S5000x1_S5000x64 (ix2 r c) = v2 (ix2 r c) * v0 (ix2 r (0 : Fin 1))
      rw [Cert.LibColumns.broadcastTo_a1_ab_apply]
  exact congrArg (fun z => (prodAt v6 v9 r q + z) + v17 (ix2 (0 : Fin 1) q)) e1

/-- The printed block-index maps over the grid: the row windows move with the point, the others stay at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `r` of point `t`'s block of the aggregate is row 5000·t + r of the array. -/
theorem blk_s (c : Dev nD) (t : Fin cfg2.N) (r : Fin 5000) (j : Fin 64) (p : Fin 50000) (hp : p.val = 5000 * t.val + r.val) :
    (iblk2 V c 0 t : Vec Ideal S5000x64 .f32) (ix2 r j) = (V c main_v54 : S50000x64.Idx → EReal) (ix2 p j) := by
  obtain ⟨h0a, h0b, h1a, h1b, h2a, h2b, h3a, h3b, h4a, h4b, h5a, h5b, hoa, hob⟩ := idx_facts t
  unfold iblk2
  rw [View.read_apply]
  show V c main_v54 _ = V c main_v54 _
  refine congrArg _ (funext fun a => Fin.ext ?_)
  match a with
  | ⟨0, _⟩ => show win2_0.index t (0 : Fin 2) * 5000 + 1 * r.val = p.val; omega
  | ⟨1, _⟩ => show win2_0.index t (1 : Fin 2) * 64 + 1 * j.val = j.val; omega

/-- Row `r` of point `t`'s block of the reciprocal counts is row 5000·t + r of the array. -/
theorem blk_ic (c : Dev nD) (t : Fin cfg2.N) (r : Fin 5000) (j : Fin 1) (p : Fin 50000) (hp : p.val = 5000 * t.val + r.val) :
    (iblk2 V c 1 t : Vec Ideal S5000x1 .f32) (ix2 r j) = (V c main_v14 : S50000x1.Idx → EReal) (ix2 p j) := by
  obtain ⟨h0a, h0b, h1a, h1b, h2a, h2b, h3a, h3b, h4a, h4b, h5a, h5b, hoa, hob⟩ := idx_facts t
  unfold iblk2
  rw [View.read_apply]
  show V c main_v14 _ = V c main_v14 _
  refine congrArg _ (funext fun a => Fin.ext ?_)
  match a with
  | ⟨0, _⟩ => show win2_1.index t (0 : Fin 2) * 5000 + 1 * r.val = p.val; omega
  | ⟨1, _⟩ => show win2_1.index t (1 : Fin 2) * 1 + 1 * j.val = j.val; omega

/-- Row `r` of point `t`'s block of the nodes' own features is row 5000·t + r of the array. -/
theorem blk_x (c : Dev nD) (t : Fin cfg2.N) (r : Fin 5000) (j : Fin 64) (p : Fin 50000) (hp : p.val = 5000 * t.val + r.val) :
    (iblk2 V c 2 t : Vec Ideal S5000x64 .f32) (ix2 r j) = (V c main_v31 : S50000x64.Idx → EReal) (ix2 p j) := by
  obtain ⟨h0a, h0b, h1a, h1b, h2a, h2b, h3a, h3b, h4a, h4b, h5a, h5b, hoa, hob⟩ := idx_facts t
  unfold iblk2
  rw [View.read_apply]
  show V c main_v31 _ = V c main_v31 _
  refine congrArg _ (funext fun a => Fin.ext ?_)
  match a with
  | ⟨0, _⟩ => show win2_2.index t (0 : Fin 2) * 5000 + 1 * r.val = p.val; omega
  | ⟨1, _⟩ => show win2_2.index t (1 : Fin 2) * 64 + 1 * j.val = j.val; omega

/-- Every point reads the whole of the aggregate's weight matrix. -/
theorem blk_wl (c : Dev nD) (t : Fin cfg2.N) :
    (iblk2 V c 3 t : Vec Ideal S64x64 .f32) = (V c main_arg8 : S64x64.Idx → EReal) := by
  obtain ⟨h0a, h0b, h1a, h1b, h2a, h2b, h3a, h3b, h4a, h4b, h5a, h5b, hoa, hob⟩ := idx_facts t
  funext y
  unfold iblk2
  rw [View.read_apply]
  show V c main_arg8 _ = V c main_arg8 _
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Every point reads the whole of the bias row. -/
theorem blk_b (c : Dev nD) (t : Fin cfg2.N) :
    (iblk2 V c 4 t : Vec Ideal S1x64 .f32) = (V c main_v55 : S1x64.Idx → EReal) := by
  obtain ⟨h0a, h0b, h1a, h1b, h2a, h2b, h3a, h3b, h4a, h4b, h5a, h5b, hoa, hob⟩ := idx_facts t
  funext y
  unfold iblk2
  rw [View.read_apply]
  show V c main_v55 _ = V c main_v55 _
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- Every point reads the whole of the own features' weight matrix. -/
theorem blk_wr (c : Dev nD) (t : Fin cfg2.N) :
    (iblk2 V c 5 t : Vec Ideal S64x64 .f32) = (V c main_arg10 : S64x64.Idx → EReal) := by
  obtain ⟨h0a, h0b, h1a, h1b, h2a, h2b, h3a, h3b, h4a, h4b, h5a, h5b, hoa, hob⟩ := idx_facts t
  funext y
  unfold iblk2
  rw [View.read_apply]
  show V c main_arg10 _ = V c main_arg10 _
  refine congrArg _ (funext fun a => Fin.ext ?_)
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- The output array after the launch, as one function of the input arrays the launch finds. -/
def G (c : Dev nD) : S50000x64.Idx → EReal := fun i =>
  (unitAt (M := 50000) (K1 := 64) (K2 := 64) (N := 64) (V c main_v54) (V c main_v14) (V c main_v31) (V c main_arg8) (V c main_v55) (V c main_arg10) (i 0) (i 1))

/-- What point `t` writes back is block `t` of `G`. -/
theorem flushed (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S64x64) hz, View.ld_unit_zero (S := S1x64) hz]
  obtain ⟨h0a, h0b, h1a, h1b, h2a, h2b, h3a, h3b, h4a, h4b, h5a, h5b, hoa, hob⟩ := idx_facts t
  funext y
  obtain ⟨r, q, rfl⟩ : ∃ (r : Fin 5000) (q : Fin 64), y = ix2 r q := ⟨y 0, y 1, eq_ix2 y⟩
  rw [View.read_apply]
  refine (pay_apply _ _ _ _ _ _ r q).trans ?_
  have hN : cfg2.N = 10 := N_2
  have hp : 5000 * t.val + r.val < 50000 := by have := t.isLt; have := r.isLt; omega
  have he : ((cfg2.win 6).blk t).view.emb (ix2 r q) = ix2 (⟨5000 * t.val + r.val, hp⟩ : Fin 50000) q :=
    funext fun a => Fin.ext (by
      match a with
      | ⟨0, _⟩ => show win2_6.index t (0 : Fin 2) * 5000 + 1 * r.val = 5000 * t.val + r.val; omega
      | ⟨1, _⟩ => show win2_6.index t (1 : Fin 2) * 64 + 1 * q.val = q.val; omega)
  rw [he]
  show _ = (unitAt (M := 50000) (K1 := 64) (K2 := 64) (N := 64) (V c main_v54) (V c main_v14) (V c main_v31) (V c main_arg8) (V c main_v55) (V c main_arg10) (⟨5000 * t.val + r.val, hp⟩ : Fin 50000) q)
  rw [blk_wl V c t, blk_b V c t, blk_wr V c t]
  exact unitAt_rows (M := 5000) (M' := 50000) _ _ _ _ _ _ _ _ _ r ⟨5000 * t.val + r.val, hp⟩ q (fun j => blk_s V c t r j _ rfl) (blk_ic V c t r 0 _ rfl) (fun j => blk_x V c t r j _ rfl)

/-- An index of the output array is in point `t`'s block iff its row is one of the point's 5000 rows. -/
theorem mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v56).slice (win2_6.rect t)).set ↔ _
  rw [View.set_slice_whole, Rect.mem_set_unit]
  exact Iff.rfl

/-- The 10 blocks tile the output, so after the launch it holds `G`. -/
theorem final (c : Dev nD) : (dat2 V c).arrAt 6 cfg2.N = G V c :=
  (dat2 V c).arrAt_eq_of_cover 6 (G V c) (fun t _ => flushed V c t) fun i => by
    have hN : cfg2.N = 10 := N_2
    have hi0 : (i 0).val < 50000 := (i 0).isLt
    have hi1 : (i 1).val < 64 := (i 1).isLt
    refine ⟨⟨(i 0).val / 5000, by omega⟩, flush2_6 _, ?_⟩
    rw [mem_blk]
    obtain ⟨h0a, h0b, h1a, h1b, h2a, h2b, h3a, h3b, h4a, h4b, h5a, h5b, hoa, hob⟩ := idx_facts ⟨(i 0).val / 5000, by omega⟩
    intro a
    match a with
    | ⟨0, _⟩ =>
      show win2_6.index _ (0 : Fin 2) * 5000 ≤ (i 0).val ∧ (i 0).val < win2_6.index _ (0 : Fin 2) * 5000 + 5000
      rw [hoa]; show (i 0).val / 5000 * 5000 ≤ (i 0).val ∧ (i 0).val < (i 0).val / 5000 * 5000 + 5000; omega
    | ⟨1, _⟩ =>
      show win2_6.index _ (1 : Fin 2) * 64 ≤ (i 1).val ∧ (i 1).val < win2_6.index _ (1 : Fin 2) * 64 + 64
      rw [hob]; omega

end Cert.KernelIdeal.Layer2

end
-- ==== Proof.Layer3.lean ====
/-
  The fourth launch of the layer kernel (layer 2, products → users): what its output array holds afterwards.

  Point `t` of twenty reads rows 5000·t … 5000·t + 4999 of the aggregate, of the reciprocal counts and of the nodes' own
  layer-1 features, the whole of both weight matrices and of the bias row, and writes the same rows of the output:
  the scaled aggregate and the own features each through their weight matrix, plus the bias, not rectified. The
  blocks tile the output, so afterwards the array is that function of the six input arrays.
-/
import proofs.«136637_j76338748720023_2_alg».proof.Proof.Gen.KernelIdeal.Frame
import Idealize.ShloMosaic.Lib.Pipeline.Value
import Idealize.ShloMosaic.Lib.ValueIdx
import Idealize.ShloMosaic.Lib.ValueLayout
import proofs.«136637_j76338748720023_2_alg».proof.Proof.LibLayer
import proofs.«136637_j76338748720023_2_alg».proof.Proof.LibColumns
import proofs.«136637_j76338748720023_2_alg».proof.Proof.Sage

set_option maxRecDepth 16384

noncomputable section

namespace Cert.KernelIdeal.Layer3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLayer Cert.Sage

variable (V : (c : Dev nD) → (b : Ref sig .tc) → Buf (Elt Ideal) ((c : Thread nD τ).loc b))

theorem hz : (![0, 0] : Fin 2 → Nat) = fun _ => 0 := funext fun a => by fin_cases a <;> rfl

theorem plain_a : Plain dot_S5000x64_S64x64_S5000x64_1_0_0_1_n_n := ⟨rfl, rfl, rfl, rfl, rfl, rfl⟩

/-- The body's value at entry (r, q) of the block: the layer's three terms on the loaded blocks. -/
theorem pay_apply (v0 : Vec Ideal S5000x1 .f32) (v2 : Vec Ideal S5000x64 .f32) (v6 : Vec Ideal S5000x64 .f32)
    (v9 : Vec Ideal S64x64 .f32) (v13 : Vec Ideal S64x64 .f32) (v17 : Vec Ideal S1x64 .f32) (r : Fin 5000) (q : Fin 64) :
    k3_pay1 (F := Ideal) v0 v2 v6 v9 v13 v17 (ix2 r q)
      = unitAt (M := 5000) (K1 := 64) (K2 := 64) (N := 64) v2 v0 v6 v13 v17 v9 r q := by
  unfold k3_pay1 unitAt
  show (matmul (F := Ideal) dot_S5000x64_S64x64_S5000x64_1_0_0_1_n_n none (shapeCast S5000x64 v6 shapeCasts_S5000x64_S5000x64) v9 (constant S5000x64 .f32 0x00000000#32) (ix2 r q)
      + matmul (F := Ideal) dot_S5000x64_S64x64_S5000x64_1_0_0_1_n_n none
          (mulf (shapeCast S5000x64 v2 shapeCasts_S5000x64_S5000x64) (broadcastTo S5000x64 (shapeCast S5000x1 v0 shapeCasts_S5000x1_S5000x1) broadcasts_S5000x1_S5000x64))
          v13 (constant S5000x64 .f32 0x00000000#32) (ix2 r q))
      + broadcastTo S5000x64 (shapeCast S1x64 v17 shapeCasts_S1x64_S1x64) broadcasts_S1x64_S5000x64 (ix2 r q) = _
  rw [matmul_at plain_a, matmul_at plain_a, broadcastTo_1b_ab_apply]
  simp only [shapeCast_self]
  have e1 : prodAt (mulf (F := Ideal) (φ := .f32) v2 (broadcastTo S5000x64 v0 broadcasts_S5000x1_S5000x64)) v13 r q = prodAt (scaled v2 v0) v13 r q :=
    prodAt_rows _ _ v13 r r q fun c => by
      show v2 (ix2 r c) * broadcastTo S5000x64 v0 broadcasts_S5000x1_S5000x64 (ix2 r c) = v2 (ix2 r c) * v0 (ix2 r (0 : Fin 1))
      rw [Cert.LibColumns.broadcastTo_a1_ab_apply]
  exact congrArg (fun z => (prodAt v6 v9 r q + z) + v17 (ix2 (0 : Fin 1) q)) e1

/-- The printed block-index maps over the grid: the row windows move with the point, the others stay at the origin. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `r` of point `t`'s block of the aggregate is row 5000·t + r of the array. -/
theorem blk_s (c : Dev nD) (t : Fin cfg3.N) (r : Fin 5000) (j : Fin 64) (p : Fin 100000) (hp : p.val = 5000 * t.val + r.val) :
    (iblk3 V c 0 t : Vec Ideal S5000x64 .f32) (ix2 r j) = (V c main_v66 : S100000x64.Idx → EReal) (ix2 p j) := by
  obtain ⟨h0a, h0b, h1a, h1b, h2a, h2b, h3a, h3b, h4a, h4b, h5a, h5b, hoa, hob⟩ := idx_facts t
  unfold iblk3
  rw [View.read_apply]
  show V c main_v66 _ = V c main_v66 _
  refine congrArg _ (funext fun a => Fin.ext ?_)
  match a with
  | ⟨0, _⟩ => show win3_0.index t (0 : Fin 2) * 5000 + 1 * r.val = p.val; omega
  | ⟨1, _⟩ => show win3_0.index t (1 : Fin 2) * 64 + 1 * j.val = j.val; omega

/-- Row `r` of point `t`'s block of the reciprocal counts is row 5000·t + r of the array. -/
theorem blk_ic (c : Dev nD) (t : Fin cfg3.N) (r : Fin 5000) (j : Fin 1) (p : Fin 100000) (hp : p.val = 5000 * t.val + r.val) :
    (iblk3 V c 1 t : Vec Ideal S5000x1 .f32) (ix2 r j) = (V c main_v19 : S100000x1.Idx → EReal) (ix2 p j) := by
  obtain ⟨h0a, h0b, h1a, h1b, h2a, h2b, h3a, h3b, h4a, h4b, h5a, h5b, hoa, hob⟩ := idx_facts t
  unfold iblk3
  rw [View.read_apply]
  show V c main_v19 _ = V c main_v19 _
  refine congrArg _ (funext fun a => Fin.ext ?_)
  match a with
  | ⟨0, _⟩ => show win3_1.index t (0 : Fin 2) * 5000 + 1 * r.val = p.val; omega
  | ⟨1, _⟩ => show win3_1.index t (1 : Fin 2) * 1 + 1 * j.val = j.val; omega

/-- Row `r` of point `t`'s block of the nodes' own features is row 5000·t + r of the array. -/
theorem blk_x (c : Dev nD) (t : Fin cfg3.N) (r : Fin 5000) (j : Fin 64) (p : Fin 100000) (hp : p.val = 5000 * t.val + r.val) :
    (iblk3 V c 2 t : Vec Ideal S5000x64 .f32) (ix2 r j) = (V c main_v44 : S100000x64.Idx → EReal) (ix2 p j) := by
  obtain ⟨h0a, h0b, h1a, h1b, h2a, h2b, h3a, h3b, h4a, h4b, h5a, h5b, hoa, hob⟩ := idx_facts t
  unfold iblk3
  rw [View.read_apply]
  show V c main_v44 _ = V c main_v44 _
  refine congrArg _ (funext fun a => Fin.ext ?_)
  match a with
  | ⟨0, _⟩ => show win3_2.index t (0 : Fin 2) * 5000 + 1 * r.val = p.val; omega
  | ⟨1, _⟩ => show win3_2.index t (1 : Fin 2) * 64 + 1 * j.val = j.val; omega

/-- Every point reads the whole of the aggregate's weight matrix. -/
theorem blk_wl (c : Dev nD) (t : Fin cfg3.N) :
    (iblk3 V c 3 t : Vec Ideal S64x64 .f32) = (V c main_arg11 : S64x64.Idx → EReal) := by
  obtain ⟨h0a, h0b, h1a, h1b, h2a, h2b, h3a, h3b, h4a, h4b, h5a, h5b, hoa, hob⟩ := idx_facts t
  funext y
  unfold iblk3
  rw [View.read_apply]
  show V c main_arg11 _ = V c main_arg11 _
  refine congrArg _ (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- Every point reads the whole of the bias row. -/
theorem blk_b (c : Dev nD) (t : Fin cfg3.N) :
    (iblk3 V c 4 t : Vec Ideal S1x64 .f32) = (V c main_v67 : S1x64.Idx → EReal) := by
  obtain ⟨h0a, h0b, h1a, h1b, h2a, h2b, h3a, h3b, h4a, h4b, h5a, h5b, hoa, hob⟩ := idx_facts t
  funext y
  unfold iblk3
  rw [View.read_apply]
  show V c main_v67 _ = V c main_v67 _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Every point reads the whole of the own features' weight matrix. -/
theorem blk_wr (c : Dev nD) (t : Fin cfg3.N) :
    (iblk3 V c 5 t : Vec Ideal S64x64 .f32) = (V c main_arg13 : S64x64.Idx → EReal) := by
  obtain ⟨h0a, h0b, h1a, h1b, h2a, h2b, h3a, h3b, h4a, h4b, h5a, h5b, hoa, hob⟩ := idx_facts t
  funext y
  unfold iblk3
  rw [View.read_apply]
  show V c main_arg13 _ = V c main_arg13 _
  refine congrArg _ (funext fun a => Fin.ext ?_)
  match a with
  | ⟨0, _⟩ => show win3_5.index t (0 : Fin 2) * 64 + 1 * (y 0).val = (y 0).val; omega
  | ⟨1, _⟩ => show win3_5.index t (1 : Fin 2) * 64 + 1 * (y 1).val = (y 1).val; omega

/-- The output array after the launch, as one function of the input arrays the launch finds. -/
def G (c : Dev nD) : S100000x64.Idx → EReal := fun i =>
  (unitAt (M := 100000) (K1 := 64) (K2 := 64) (N := 64) (V c main_v66) (V c main_v19) (V c main_v44) (V c main_arg11) (V c main_v67) (V c main_arg13) (i 0) (i 1))

/-- What point `t` writes back is block `t` of `G`. -/
theorem flushed (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S5000x1) hz, View.ld_unit_zero (S := S64x64) hz, View.ld_unit_zero (S := S1x64) hz]
  obtain ⟨h0a, h0b, h1a, h1b, h2a, h2b, h3a, h3b, h4a, h4b, h5a, h5b, hoa, hob⟩ := idx_facts t
  funext y
  obtain ⟨r, q, rfl⟩ : ∃ (r : Fin 5000) (q : Fin 64), y = ix2 r q := ⟨y 0, y 1, eq_ix2 y⟩
  rw [View.read_apply]
  refine (pay_apply _ _ _ _ _ _ r q).trans ?_
  have hN : cfg3.N = 20 := N_3
  have hp : 5000 * t.val + r.val < 100000 := by have := t.isLt; have := r.isLt; omega
  have he : ((cfg3.win 6).blk t).view.emb (ix2 r q) = ix2 (⟨5000 * t.val + r.val, hp⟩ : Fin 100000) q :=
    funext fun a => Fin.ext (by
      match a with
      | ⟨0, _⟩ => show win3_6.index t (0 : Fin 2) * 5000 + 1 * r.val = 5000 * t.val + r.val; omega
      | ⟨1, _⟩ => show win3_6.index t (1 : Fin 2) * 64 + 1 * q.val = q.val; omega)
  rw [he]
  show _ = (unitAt (M := 100000) (K1 := 64) (K2 := 64) (N := 64) (V c main_v66) (V c main_v19) (V c main_v44) (V c main_arg11) (V c main_v67) (V c main_arg13) (⟨5000 * t.val + r.val, hp⟩ : Fin 100000) q)
  rw [blk_wl V c t, blk_b V c t, blk_wr V c t]
  exact unitAt_rows (M := 5000) (M' := 100000) _ _ _ _ _ _ _ _ _ r ⟨5000 * t.val + r.val, hp⟩ q (fun j => blk_s V c t r j _ rfl) (blk_ic V c t r 0 _ rfl) (fun j => blk_x V c t r j _ rfl)

/-- An index of the output array is in point `t`'s block iff its row is one of the point's 5000 rows. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v68).slice (win3_6.rect t)).set ↔ _
  rw [View.set_slice_whole, Rect.mem_set_unit]
  exact Iff.rfl

/-- The 20 blocks tile the output, so after the launch it holds `G`. -/
theorem final (c : Dev nD) : (dat3 V c).arrAt 6 cfg3.N = G V c :=
  (dat3 V c).arrAt_eq_of_cover 6 (G V c) (fun t _ => flushed V c t) fun i => by
    have hN : cfg3.N = 20 := N_3
    have hi0 : (i 0).val < 100000 := (i 0).isLt
    have hi1 : (i 1).val < 64 := (i 1).isLt
    refine ⟨⟨(i 0).val / 5000, by omega⟩, flush3_6 _, ?_⟩
    rw [mem_blk]
    obtain ⟨h0a, h0b, h1a, h1b, h2a, h2b, h3a, h3b, h4a, h4b, h5a, h5b, hoa, hob⟩ := idx_facts ⟨(i 0).val / 5000, by omega⟩
    intro a
    match a with
    | ⟨0, _⟩ =>
      show win3_6.index _ (0 : Fin 2) * 5000 ≤ (i 0).val ∧ (i 0).val < win3_6.index _ (0 : Fin 2) * 5000 + 5000
      rw [hoa]; show (i 0).val / 5000 * 5000 ≤ (i 0).val ∧ (i 0).val < (i 0).val / 5000 * 5000 + 5000; omega
    | ⟨1, _⟩ =>
      show win3_6.index _ (1 : Fin 2) * 64 ≤ (i 1).val ∧ (i 1).val < win3_6.index _ (1 : Fin 2) * 64 + 64
      rw [hob]; omega

end Cert.KernelIdeal.Layer3

end
-- ==== Proof.KVals.lean ====
/-
  What the idealized kernel's buffers hold at each of the nine segment boundaries, as functions of the arguments.

  Going forward from the launch memory: the first host stretch makes the two reciprocal-count columns, the first
  aggregate and the first bias row; each launch then turns the arrays it finds into a layer's output (the launch's
  value theorem), and each later host stretch gathers and sums a layer's output into the next aggregate. Buffers read
  again later are walked back to where they were made. The last stretch's result is the program's result.
-/
import proofs.«136637_j76338748720023_2_alg».proof.Proof.Gen.KernelIdeal.Frame
import Idealize.ShloMosaic.Lib.StableHlo.Run
import proofs.«136637_j76338748720023_2_alg».proof.Proof.Carry
import proofs.«136637_j76338748720023_2_alg».proof.Proof.KTerms
import proofs.«136637_j76338748720023_2_alg».proof.Proof.Layer0
import proofs.«136637_j76338748720023_2_alg».proof.Proof.Layer1
import proofs.«136637_j76338748720023_2_alg».proof.Proof.Layer2
import proofs.«136637_j76338748720023_2_alg».proof.Proof.Layer3

set_option maxRecDepth 16384

noncomputable section

namespace Cert.KernelIdeal.KVals

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.KT Cert.KernelIdeal.Carry

variable (m : (ℓ : Loc nD τ sig) → Buf (Elt Ideal) ℓ) (ρ : Dev nD → PrngReg) (c : Dev nD)

/-! ## After the first host stretch -/

theorem v1_v29 : W1 m ρ c (Proc.devRef .tc main_v29) = aggP (m ((c : Thread nD τ).loc main_arg0)) (m ((c : Thread nD τ).loc main_arg14)) (m ((c : Thread nD τ).loc main_arg15)) := by
  dsimp only [W1, hostOps0]; after_results_simp; rfl
theorem v1_v14 : W1 m ρ c (Proc.devRef .tc main_v14) = invP (m ((c : Thread nD τ).loc main_arg15)) := by
  dsimp only [W1, hostOps0]; after_results_simp; rfl
theorem v1_v19 : W1 m ρ c (Proc.devRef .tc main_v19) = invU (m ((c : Thread nD τ).loc main_arg14)) := by
  dsimp only [W1, hostOps0]; after_results_simp; rfl
theorem v1_v30 : W1 m ρ c (Proc.devRef .tc main_v30) = bias (m ((c : Thread nD τ).loc main_arg3)) := by
  dsimp only [W1, hostOps0]; after_results_simp; rfl

/-! ## After the first launch -/

theorem v2_v31 : W2 m ρ c (Proc.devRef .tc main_v31) = (hp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))) := by
  refine (W2_arr m ρ c 6).trans ((Layer0.final (V1 m ρ) c).trans ?_)
  have e : Layer0.G (V1 m ρ) c = lay0 (W1 m ρ c (Proc.devRef .tc main_v29)) (W1 m ρ c (Proc.devRef .tc main_v14)) (W1 m ρ c (Proc.devRef .tc main_arg1)) (W1 m ρ c (Proc.devRef .tc main_arg2)) (W1 m ρ c (Proc.devRef .tc main_v30)) (W1 m ρ c (Proc.devRef .tc main_arg4)) := rfl
  rw [e, v1_v29, v1_v14, at1_arg1, at1_arg2, v1_v30, at1_arg4]
  rfl

/-! ## After the second host stretch -/

theorem v3_v42 : W3 m ρ c (Proc.devRef .tc main_v42) = aggU (proj (m ((c : Thread nD τ).loc main_arg1)) (m ((c : Thread nD τ).loc main_arg5))) (m ((c : Thread nD τ).loc main_arg14)) (m ((c : Thread nD τ).loc main_arg15)) := by
  dsimp only [W3, hostOps1]; after_results_simp
  rw [at2_arg1, at2_arg5, at2_arg14, at2_arg15]
  rfl
theorem v3_v43 : W3 m ρ c (Proc.devRef .tc main_v43) = bias (m ((c : Thread nD τ).loc main_arg6)) := by
  dsimp only [W3, hostOps1]; after_results_simp
  rw [at2_arg6]
  rfl

/-! ## After the second launch -/

theorem v4_v44 : W4 m ρ c (Proc.devRef .tc main_v44) = (hu (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15))) := by
  refine (W4_arr m ρ c 5).trans ((Layer1.final (V3 m ρ) c).trans ?_)
  have e : Layer1.G (V3 m ρ) c = lay1 (W3 m ρ c (Proc.devRef .tc main_v42)) (W3 m ρ c (Proc.devRef .tc main_v19)) (W3 m ρ c (Proc.devRef .tc main_arg0)) (W3 m ρ c (Proc.devRef .tc main_v43)) (W3 m ρ c (Proc.devRef .tc main_arg7)) := rfl
  rw [e, v3_v42, at3_v19, v1_v19, at3_arg0, v3_v43, at3_arg7]
  rfl

/-! ## After the third host stretch -/

theorem v5_v54 : W5 m ρ c (Proc.devRef .tc main_v54) = aggP (hu (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15))) (m ((c : Thread nD τ).loc main_arg14)) (m ((c : Thread nD τ).loc main_arg15)) := by
  dsimp only [W5, hostOps2]; after_results_simp
  rw [v4_v44, at4_arg14, at4_arg15]
  rfl
theorem v5_v55 : W5 m ρ c (Proc.devRef .tc main_v55) = bias (m ((c : Thread nD τ).loc main_arg9)) := by
  dsimp only [W5, hostOps2]; after_results_simp
  rw [at4_arg9]
  rfl

/-! ## After the third launch -/

theorem v6_v56 : W6 m ρ c (Proc.devRef .tc main_v56) = (hp2 (hu (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15))) (hp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))) (m ((c : Thread nD τ).loc main_arg8)) (m ((c : Thread nD τ).loc main_arg9)) (m ((c : Thread nD τ).loc main_arg10)) (m ((c : Thread nD τ).loc main_arg14)) (m ((c : Thread nD τ).loc main_arg15))) := by
  refine (W6_arr m ρ c 6).trans ((Layer2.final (V5 m ρ) c).trans ?_)
  have e : Layer2.G (V5 m ρ) c = lay2 (W5 m ρ c (Proc.devRef .tc main_v54)) (W5 m ρ c (Proc.devRef .tc main_v14)) (W5 m ρ c (Proc.devRef .tc main_v31)) (W5 m ρ c (Proc.devRef .tc main_arg8)) (W5 m ρ c (Proc.devRef .tc main_v55)) (W5 m ρ c (Proc.devRef .tc main_arg10)) := rfl
  rw [e, v5_v54, at5_v14, v1_v14, at5_v31, v2_v31, at5_arg8, v5_v55, at5_arg10]
  rfl

/-! ## After the fourth host stretch -/

theorem v7_v66 : W7 m ρ c (Proc.devRef .tc main_v66) = aggU (hp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))) (m ((c : Thread nD τ).loc main_arg14)) (m ((c : Thread nD τ).loc main_arg15)) := by
  dsimp only [W7, hostOps3]; after_results_simp
  rw [at6_v31, v2_v31, at6_arg14, at6_arg15]
  rfl
theorem v7_v67 : W7 m ρ c (Proc.devRef .tc main_v67) = bias (m ((c : Thread nD τ).loc main_arg12)) := by
  dsimp only [W7, hostOps3]; after_results_simp
  rw [at6_arg12]
  rfl

/-! ## After the fourth launch -/

theorem v8_v68 : W8 m ρ c (Proc.devRef .tc main_v68) = (hu2 (hu (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15))) (hp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))) (m ((c : Thread nD τ).loc main_arg11)) (m ((c : Thread nD τ).loc main_arg12)) (m ((c : Thread nD τ).loc main_arg13)) (m ((c : Thread nD τ).loc main_arg14)) (m ((c : Thread nD τ).loc main_arg15))) := by
  refine (W8_arr m ρ c 6).trans ((Layer3.final (V7 m ρ) c).trans ?_)
  have e : Layer3.G (V7 m ρ) c = lay3 (W7 m ρ c (Proc.devRef .tc main_v66)) (W7 m ρ c (Proc.devRef .tc main_v19)) (W7 m ρ c (Proc.devRef .tc main_v44)) (W7 m ρ c (Proc.devRef .tc main_arg11)) (W7 m ρ c (Proc.devRef .tc main_v67)) (W7 m ρ c (Proc.devRef .tc main_arg13)) := rfl
  rw [e, v7_v66, at7_v19, v1_v19, at7_v44, v4_v44, at7_arg11, v7_v67, at7_arg13]
  rfl

/-! ## The result -/

/-- The result buffer after the last host stretch: the label pairs' dot products of the two layer-2 tables. -/
theorem v9_v84 : W9 m ρ c (Proc.devRef .tc main_v84) = tail (hu2 (hu (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15))) (hp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))) (m ((c : Thread nD τ).loc main_arg11)) (m ((c : Thread nD τ).loc main_arg12)) (m ((c : Thread nD τ).loc main_arg13)) (m ((c : Thread nD τ).loc main_arg14)) (m ((c : Thread nD τ).loc main_arg15))) (hp2 (hu (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15))) (hp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))) (m ((c : Thread nD τ).loc main_arg8)) (m ((c : Thread nD τ).loc main_arg9)) (m ((c : Thread nD τ).loc main_arg10)) (m ((c : Thread nD τ).loc main_arg14)) (m ((c : Thread nD τ).loc main_arg15))) (m ((c : Thread nD τ).loc main_arg16)) (m ((c : Thread nD τ).loc main_arg17)) := by
  dsimp only [W9, hostOps4]; after_results_simp
  rw [v8_v68, at8_v56, v6_v56, at8_arg16, at8_arg17]
  rfl

end Cert.KernelIdeal.KVals

end
-- ==== Proof.KOut.lean ====
/-
  The idealized kernel's run with its result named: the label pairs' dot products of the two layer-2 tables, each
  table the launches' functions of the aggregates, the reciprocal counts and the arguments.
-/
import proofs.«136637_j76338748720023_2_alg».proof.Proof.KRun
import proofs.«136637_j76338748720023_2_alg».proof.Proof.KVals

set_option maxRecDepth 16384

noncomputable section

namespace Cert.KernelIdeal.KOut

open Idealize.ShloMosaic Idealize.ShloMosaic.TcCoe Idealize.SL.Sem
open Cert.KernelIdeal Cert.KernelIdeal.Gen Cert.KernelIdeal.KT

/-- The result as a function of the launch memory. -/
def res (m : (ℓ : Loc nD τ sig) → Buf (Elt Ideal) ℓ) (c : Dev nD) : Buf (Elt Ideal) ((c.tc : Thread nD τ).loc main_v84) :=
  tail (hu2 (hu (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15))) (hp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))) (m ((c : Thread nD τ).loc main_arg11)) (m ((c : Thread nD τ).loc main_arg12)) (m ((c : Thread nD τ).loc main_arg13)) (m ((c : Thread nD τ).loc main_arg14)) (m ((c : Thread nD τ).loc main_arg15))) (hp2 (hu (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg14)) (m ((c : Thread nD τ).loc main_arg15))) (hp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14)) (m ((c : Thread nD τ).loc main_arg15))) (m ((c : Thread nD τ).loc main_arg8)) (m ((c : Thread nD τ).loc main_arg9)) (m ((c : Thread nD τ).loc main_arg10)) (m ((c : Thread nD τ).loc main_arg14)) (m ((c : Thread nD τ).loc main_arg15))) (m ((c : Thread nD τ).loc main_arg16)) (m ((c : Thread nD τ).loc main_arg17))

/-- Every weakly fair execution terminates without a fault with the result buffer at `res` and the arguments as
    launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v84) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (Cert.KernelIdeal.KVals.v9_v84 m ρ c), (h c).2⟩)
    (Cert.KernelIdeal.KRun.run_value (F := Ideal) m ρ)

end Cert.KernelIdeal.KOut

end
-- ==== Proof.LibHostBcast.lean ====
/-
  The host's broadcast_in_dim in the keepdims shapes of a pairwise computation, read at explicit coordinates, and the
  host's sums along the last axis on the extended reals.

  A length-a vector placed as an a x 1 column or a 1 x a row; such a column spread across columns, such a row spread
  down rows; an a x b matrix placed as an a x 1 x b or a 1 x a x b array; such arrays spread along their unit axis.
  The host's sum along the last axis of a matrix or of a cube is the initial value plus the sum over that axis.
-/
import Idealize.ShloMosaic.Lib.ValueIdx
import Idealize.ShloMosaic.Lib.Pipeline.Value
import Idealize.ShloMosaic.Lib.IdealHost
import Idealize.ShloMosaic.PureOps.Ideal.Laws

namespace Cert.LibHostBcast

open Idealize.ShloMosaic Idealize.ShloMosaic.ValueIdx

variable {α : Type}

/-- A vector as an a x 1 column: entry (i, u) is the vector's entry i. -/
theorem bid_a_a1_apply {a : ℕ} (dims : Fin 1 → Fin 2) (hd : dims 0 = 0) (x : (⟨1, ![a]⟩ : Shape).Idx → α)
    (h : (⟨1, ![a]⟩ : Shape).BroadcastsInDim ⟨2, ![a, 1]⟩ dims) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A vector as a 1 x a row: entry (u, i) is the vector's entry i. -/
theorem bid_a_1a_apply {a : ℕ} (dims : Fin 1 → Fin 2) (hd : dims 0 = 1) (x : (⟨1, ![a]⟩ : Shape).Idx → α)
    (h : (⟨1, ![a]⟩ : Shape).BroadcastsInDim ⟨2, ![1, a]⟩ dims) (u : Fin 1) (i : Fin a) :
    broadcastInDim ⟨2, ![1, a]⟩ dims h x (ix2 u i) = x (ix1 i) := by
  refine broadcastInDim_apply dims h x (ix2 u i) (ix1 i) fun ax => ?_
  match ax with
  | ⟨0, _⟩ =>
    show i.val = if a = 1 then 0 else ((ix2 u i : (⟨2, ![1, a]⟩ : Shape).Idx) (dims 0)).val
    rw [hd]
    split
    · have := i.isLt; omega
    · rfl

/-- An a x 1 column spread across b columns: entry (p, c) is the column's entry (p, 0). -/
theorem bid_a1_ab_apply {a b : ℕ} (dims : Fin 2 → Fin 2) (h0 : dims 0 = 0) (h1 : dims 1 = 1) (v : (⟨2, ![a, 1]⟩ : Shape).Idx → α)
    (h : (⟨2, ![a, 1]⟩ : Shape).BroadcastsInDim ⟨2, ![a, b]⟩ dims) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [h0]
    split
    · have := p.isLt; omega
    · rfl
  | ⟨1, _⟩ => rfl

/-- A 1 x b row spread down a rows: entry (p, c) is the row's entry (0, c). -/
theorem bid_1b_ab_apply {a b : ℕ} (dims : Fin 2 → Fin 2) (h0 : dims 0 = 0) (h1 : dims 1 = 1) (v : (⟨2, ![1, b]⟩ : Shape).Idx → α)
    (h : (⟨2, ![1, b]⟩ : Shape).BroadcastsInDim ⟨2, ![a, b]⟩ dims) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [h1]
    split
    · have := c.isLt; omega
    · rfl

/-- An a x b matrix as an a x 1 x b array: entry (i, u, j) is the matrix's entry (i, j). -/
theorem bid_ab_a1b_apply {a b : ℕ} (dims : Fin 2 → Fin 3) (h0 : dims 0 = 0) (h1 : dims 1 = 2) (x : (⟨2, ![a, b]⟩ : Shape).Idx → α)
    (h : (⟨2, ![a, b]⟩ : Shape).BroadcastsInDim ⟨3, ![a, 1, b]⟩ dims) (i : Fin a) (u : Fin 1) (j : Fin b) :
    broadcastInDim ⟨3, ![a, 1, b]⟩ dims h x (ix3 i u j) = x (ix2 i j) := by
  refine broadcastInDim_apply dims h x (ix3 i u j) (ix2 i j) fun ax => ?_
  match ax with
  | ⟨0, _⟩ =>
    show i.val = if a = 1 then 0 else ((ix3 i u j : (⟨3, ![a, 1, b]⟩ : Shape).Idx) (dims 0)).val
    rw [h0]
    split
    · have := i.isLt; omega
    · rfl
  | ⟨1, _⟩ =>
    show j.val = if b = 1 then 0 else ((ix3 i u j : (⟨3, ![a, 1, b]⟩ : Shape).Idx) (dims 1)).val
    rw [h1]
    split
    · have := j.isLt; omega
    · rfl

/-- An a x b matrix as a 1 x a x b array: entry (u, i, j) is the matrix's entry (i, j). -/
theorem bid_ab_1ab_apply {a b : ℕ} (dims : Fin 2 → Fin 3) (h0 : dims 0 = 1) (h1 : dims 1 = 2) (x : (⟨2, ![a, b]⟩ : Shape).Idx → α)
    (h : (⟨2, ![a, b]⟩ : Shape).BroadcastsInDim ⟨3, ![1, a, b]⟩ dims) (u : Fin 1) (i : Fin a) (j : Fin b) :
    broadcastInDim ⟨3, ![1, a, b]⟩ dims h x (ix3 u i j) = x (ix2 i j) := by
  refine broadcastInDim_apply dims h x (ix3 u i j) (ix2 i j) fun ax => ?_
  match ax with
  | ⟨0, _⟩ =>
    show i.val = if a = 1 then 0 else ((ix3 u i j : (⟨3, ![1, a, b]⟩ : Shape).Idx) (dims 0)).val
    rw [h0]
    split
    · have := i.isLt; omega
    · rfl
  | ⟨1, _⟩ =>
    show j.val = if b = 1 then 0 else ((ix3 u i j : (⟨3, ![1, a, b]⟩ : Shape).Idx) (dims 1)).val
    rw [h1]
    split
    · have := j.isLt; omega
    · rfl

/-- An a x 1 x b array spread along its middle axis: entry (i, k, j) is the array's entry (i, 0, j). -/
theorem bid_a1b_acb_apply {a b c : ℕ} (dims : Fin 3 → Fin 3) (h0 : dims 0 = 0) (h1 : dims 1 = 1) (h2 : dims 2 = 2)
    (v : (⟨3, ![a, 1, b]⟩ : Shape).Idx → α) (h : (⟨3, ![a, 1, b]⟩ : Shape).BroadcastsInDim ⟨3, ![a, c, b]⟩ dims)
    (i : Fin a) (k : Fin c) (j : Fin b) :
    broadcastInDim ⟨3, ![a, c, b]⟩ dims h v (ix3 i k j) = v (ix3 i (0 : Fin 1) j) := by
  refine broadcastInDim_apply dims h v (ix3 i k j) (ix3 i (0 : Fin 1) j) fun ax => ?_
  match ax with
  | ⟨0, _⟩ =>
    show i.val = if a = 1 then 0 else ((ix3 i k j : (⟨3, ![a, c, b]⟩ : Shape).Idx) (dims 0)).val
    rw [h0]
    split
    · have := i.isLt; omega
    · rfl
  | ⟨1, _⟩ => rfl
  | ⟨2, _⟩ =>
    show j.val = if b = 1 then 0 else ((ix3 i k j : (⟨3, ![a, c, b]⟩ : Shape).Idx) (dims 2)).val
    rw [h2]
    split
    · have := j.isLt; omega
    · rfl

/-- A 1 x a x b array spread along its first axis: entry (k, i, j) is the array's entry (0, i, j). -/
theorem bid_1ab_cab_apply {a b c : ℕ} (dims : Fin 3 → Fin 3) (h0 : dims 0 = 0) (h1 : dims 1 = 1) (h2 : dims 2 = 2)
    (v : (⟨3, ![1, a, b]⟩ : Shape).Idx → α) (h : (⟨3, ![1, a, b]⟩ : Shape).BroadcastsInDim ⟨3, ![c, a, b]⟩ dims)
    (k : Fin c) (i : Fin a) (j : Fin b) :
    broadcastInDim ⟨3, ![c, a, b]⟩ dims h v (ix3 k i j) = v (ix3 (0 : Fin 1) i j) := by
  refine broadcastInDim_apply dims h v (ix3 k i j) (ix3 (0 : Fin 1) i j) fun ax => ?_
  match ax with
  | ⟨0, _⟩ => rfl
  | ⟨1, _⟩ =>
    show i.val = if a = 1 then 0 else ((ix3 k i j : (⟨3, ![c, a, b]⟩ : Shape).Idx) (dims 1)).val
    rw [h1]
    split
    · have := i.isLt; omega
    · rfl
  | ⟨2, _⟩ =>
    show j.val = if b = 1 then 0 else ((ix3 k i j : (⟨3, ![c, a, b]⟩ : Shape).Idx) (dims 2)).val
    rw [h2]
    split
    · have := j.isLt; omega
    · rfl

/-- The index a last-axis reduction of a matrix reads. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The index a last-axis reduction of a cube reads. -/
theorem lift_last3 {A B S : ℕ} (h : (⟨3, ![A, B, S]⟩ : Shape).Reduces [2] ⟨2, ![A, B]⟩) (r : Fin A) (s : Fin B) (k : Fin S) :
    h.lift (ix2 r s) k = ix3 r s k :=
  funext fun a => Fin.ext (by
    match a with
    | ⟨0, _⟩ => rfl
    | ⟨1, _⟩ => rfl
    | ⟨2, _⟩ => rfl)

/-- The host's sum along the rows of a matrix, at r: the initial value plus the sum of row r. -/
theorem hostSum_last2_apply {A S : ℕ} {φ : FTy} (x : FVec Ideal ⟨2, ![A, S]⟩ φ) (init : (⟨0, ![]⟩ : Shape).Idx → Ideal φ)
    (h' : (⟨2, ![A, S]⟩ : Shape).ReducesTo [1] ⟨1, ![A]⟩) (h : (⟨2, ![A, S]⟩ : Shape).Reduces [1] ⟨1, ![A]⟩)
    (hu : 0 < (⟨0, ![]⟩ : Shape).numel) (r : Fin A) :
    Host.reduceAdd x init h' hu (ix1 r) = init ix0 + ∑ k : Fin S, x (ix2 r k) := by
  refine (hostReduceAdd_apply x init h' hu (ix1 r)).trans ?_
  refine (Ideal.hostReduceAdd_single h' h x _ (ix1 r)).trans ?_
  refine congrArg₂ HAdd.hAdd (congrArg init (funext fun a => a.elim0)) ?_
  exact Finset.sum_congr rfl fun k _ => congrArg x (lift_last2 h r k)

/-- The host's sum along the last axis of a cube, at (r, s): the initial value plus the sum over k of (r, s, k). -/
theorem hostSum_last3_apply {A B S : ℕ} {φ : FTy} (x : FVec Ideal ⟨3, ![A, B, S]⟩ φ) (init : (⟨0, ![]⟩ : Shape).Idx → Ideal φ)
    (h' : (⟨3, ![A, B, S]⟩ : Shape).ReducesTo [2] ⟨2, ![A, B]⟩) (h : (⟨3, ![A, B, S]⟩ : Shape).Reduces [2] ⟨2, ![A, B]⟩)
    (hu : 0 < (⟨0, ![]⟩ : Shape).numel) (r : Fin A) (s : Fin B) :
    Host.reduceAdd x init h' hu (ix2 r s) = init ix0 + ∑ k : Fin S, x (ix3 r s k) := by
  refine (hostReduceAdd_apply x init h' hu (ix2 r s)).trans ?_
  refine (Ideal.hostReduceAdd_single h' h x _ (ix2 r s)).trans ?_
  refine congrArg₂ HAdd.hAdd (congrArg init (funext fun a => a.elim0)) ?_
  exact Finset.sum_congr rfl fun k _ => congrArg x (lift_last3 h r s k)

end Cert.LibHostBcast
-- ==== Proof.SageHost.lean ====
/-
  The layer as the plain program spells it, and as the tiled kernel's host side feeds it.

  The plain program divides the aggregate by the counts spread along the rows, multiplies by the weight matrix, adds
  the bias spread down the rows, then adds the own features' product: entry by entry that is `hostAt`. The tiled
  kernel is given the reciprocal counts as a column and the bias as a one-row matrix; with those its entry `unitAt`
  is `hostAt` as soon as no count is zero. When the aggregate was projected before it was summed, the kernel's entry
  `unitAt'` is `hostAt` provided the projected aggregate times the reciprocal is the mean aggregate's product entry.
-/
import proofs.«136637_j76338748720023_2_alg».proof.Proof.Sage
import proofs.«136637_j76338748720023_2_alg».proof.Proof.LibHostBcast
import proofs.«136637_j76338748720023_2_alg».proof.Proof.LibColumns
import Idealize.ShloMosaic.Lib.ValueLayout

noncomputable section

namespace Cert.Sage

open Idealize.ShloMosaic Idealize.ShloMosaic.ValueIdx Cert.LibLayer

section
variable {M K1 K2 N : ℕ}
variable {D1 : DotDims ⟨2, ![M, K1]⟩ ⟨2, ![K1, N]⟩ ⟨2, ![M, N]⟩} (h1 : Plain D1)
variable {D2 : DotDims ⟨2, ![M, K2]⟩ ⟨2, ![K2, N]⟩ ⟨2, ![M, N]⟩} (h2 : Plain D2)

include h1 h2 in
/-- The plain program's layer, as a whole array. -/
theorem host_layer (s : FVec Ideal ⟨2, ![M, K1]⟩ .f32) (d : FVec Ideal ⟨1, ![M]⟩ .f32) (x : FVec Ideal ⟨2, ![M, K2]⟩ .f32)
    (wl : FVec Ideal ⟨2, ![K1, N]⟩ .f32) (b : FVec Ideal ⟨1, ![N]⟩ .f32) (wr : FVec Ideal ⟨2, ![K2, N]⟩ .f32)
    (g0 : (⟨1, ![M]⟩ : Shape).BroadcastsInDim ⟨2, ![M, 1]⟩ ![0]) (g01 : (⟨2, ![M, 1]⟩ : Shape).BroadcastsInDim ⟨2, ![M, K1]⟩ ![0, 1])
    (g1 : (⟨1, ![N]⟩ : Shape).BroadcastsInDim ⟨2, ![1, N]⟩ ![1]) (g2 : (⟨2, ![1, N]⟩ : Shape).BroadcastsInDim ⟨2, ![M, N]⟩ ![0, 1]) :
    addf (addf (Host.dotGeneral D1 none (Host.divf s (broadcastInDim ⟨2, ![M, K1]⟩ ![0, 1] g01 (broadcastInDim ⟨2, ![M, 1]⟩ ![0] g0 d))) wl)
          (broadcastInDim ⟨2, ![M, N]⟩ ![0, 1] g2 (broadcastInDim ⟨2, ![1, N]⟩ ![1] g1 b)))
        (Host.dotGeneral D2 none x wr)
      = fun i => hostAt s d x wl b wr (i 0) (i 1) := by
  funext i
  obtain ⟨p, q, rfl⟩ : ∃ (p : Fin M) (q : Fin N), i = ix2 p q := ⟨i 0, i 1, eq_ix2 i⟩
  show (Host.dotGeneral D1 none _ wl (ix2 p q) + broadcastInDim _ _ g2 _ (ix2 p q)) + Host.dotGeneral D2 none x wr (ix2 p q)
    = hostAt s d x wl b wr p q
  rw [dot_at h1, dot_at h2, bias_host_apply]
  unfold hostAt
  refine congrArg (fun z => (z + b (ix1 q)) + prodAt x wr p q) (prodAt_rows _ _ wl p p q fun c => ?_)
  show Host.divf s _ (ix2 p c) = Ideal.div (s (ix2 p c)) (d (ix1 p))
  rw [Cert.LibRecip.host_divf_apply, Cert.LibHostBcast.bid_a1_ab_apply ![0, 1] rfl rfl, Cert.LibHostBcast.bid_a_a1_apply ![0] rfl]

end

/-- The kernel's entry with the reciprocal counts as a column and the bias as a one-row matrix is the plain program's. -/
theorem unit_layer_eq {M K1 K2 N : ℕ} (s : Mat M K1) (d one : Row M) (x : Mat M K2) (wl : Mat K1 N) (b : Row N) (wr : Mat K2 N)
    (hc : (⟨1, ![M]⟩ : Shape).ShapeCasts ⟨2, ![M, 1]⟩) (hr : (⟨1, ![N]⟩ : Shape).ShapeCasts ⟨2, ![1, N]⟩)
    (p : Fin M) (q : Fin N) (hone : one (ix1 p) = 1) (hd : d (ix1 p) ≠ 0) :
    unitAt s (shapeCast ⟨2, ![M, 1]⟩ (Host.divf (F := Ideal) (φ := .f32) one d) hc) x wl (shapeCast ⟨2, ![1, N]⟩ b hr) wr p q
      = hostAt s d x wl b wr p q :=
  unitAt_eq_hostAt s _ d x wl _ b wr p q
    (by rw [Cert.LibColumns.shapeCast_a_a1_apply, Cert.LibRecip.host_divf_apply, hone]) hd
    (by rw [shapeCast_a_1a_apply])

/-- The same when the aggregate `s'` was projected before it was summed: the hypothesis `hproj` is the exchange of the
    projection with the mean, at this entry. -/
theorem unit'_layer_eq {M K1 K2 N : ℕ} (s' : Mat M N) (s : Mat M K1) (d one : Row M) (x : Mat M K2) (wl : Mat K1 N) (b : Row N)
    (wr : Mat K2 N) (hc : (⟨1, ![M]⟩ : Shape).ShapeCasts ⟨2, ![M, 1]⟩) (hr : (⟨1, ![N]⟩ : Shape).ShapeCasts ⟨2, ![1, N]⟩)
    (p : Fin M) (q : Fin N) (hone : one (ix1 p) = 1)
    (hproj : s' (ix2 p q) * Ideal.div 1 (d (ix1 p)) = prodAt (meaned s d) wl p q) :
    unitAt' s' (shapeCast ⟨2, ![M, 1]⟩ (Host.divf (F := Ideal) (φ := .f32) one d) hc) x (shapeCast ⟨2, ![1, N]⟩ b hr) wr p q
      = hostAt s d x wl b wr p q := by
  unfold unitAt' hostAt
  show (prodAt x wr p q + s' (ix2 p q) * shapeCast ⟨2, ![M, 1]⟩ (Host.divf (F := Ideal) (φ := .f32) one d) hc (ix2 p (0 : Fin 1)))
      + shapeCast ⟨2, ![1, N]⟩ b hr (ix2 (0 : Fin 1) q) = _
  rw [Cert.LibColumns.shapeCast_a_a1_apply, Cert.LibRecip.host_divf_apply, hone, shapeCast_a_1a_apply, hproj,
    add_comm (prodAt x wr p q), add_right_comm]

end Cert.Sage

end
-- ==== Proof.LibFinite.lean ====
/-
  Extended reals that are real numbers, and a "finite inputs" check read back.

  * `IsReal x`: the extended real `x` is (the coercion of) a real number. The coercion commutes with finite sums and
    with maxima (`coe_sum`, `coe_max`).
  * An extended real whose absolute value — the larger of `x` and `−x` — is below `+∞` (the word `0x7F800000`) is a
    real number (`isReal_of_abs_lt`).
  * A precondition's check of one array — compare every entry's absolute value with the splat of `+∞`, reduce the
    verdicts by "and" from "true" into one — that came out "true" says every entry of the array is a real number
    (`isReal_of_check`), whatever the array's shape.
-/
import Idealize.ShloMosaic.Lib.ReduceAll
import Idealize.ShloMosaic.Lib.Pipeline.Value
import Idealize.ShloMosaic.Lib.ValueIdx
import Idealize.ShloMosaic.PureOps.Ideal

noncomputable section

namespace Cert.LibFinite

open Idealize.ShloMosaic Idealize.ShloMosaic.ValueIdx

/-- An extended real that is a real number. -/
def IsReal (x : EReal) : Prop := ∃ r : ℝ, x = (r : EReal)

/-- The coercion of a finite sum of reals is the sum of the coercions. -/
theorem coe_sum {ι : Type} (t : Finset ι) (f : ι → ℝ) : ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- The scalar shape has one index. -/
instance : Subsingleton (⟨0, ![]⟩ : Shape).Idx := ⟨fun _ _ => funext fun d => d.elim0⟩

/-- An extended real whose absolute value is below `+∞` is a real number. -/
theorem isReal_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  by_cases ht : x = ⊤
  · subst ht; simp [Ideal.cmp] at h
  by_cases hb : x = ⊥
  · subst hb; simp [Ideal.cmp] at h
  lift x to ℝ using ⟨ht, hb⟩
  exact ⟨x, rfl⟩

/-- One array's check read back: if "every entry's absolute value is below `+∞`" came out true, every entry is real. -/
theorem isReal_of_check {s : Shape} {axes : List (Fin s.rank)} (x : FVec Ideal s .f32)
    (dims : Fin (⟨0, ![]⟩ : Shape).rank → Fin s.rank) (hb : (⟨0, ![]⟩ : Shape).BroadcastsInDim s dims)
    (hr : s.ReducesTo axes ⟨0, ![]⟩) (hu : 0 < (⟨0, ![]⟩ : Shape).numel)
    (e : Host.reduce IntOp.andi (cmpf .olt (Host.absf x) (broadcastInDim s dims hb (constant ⟨0, ![]⟩ .f32 0x7F800000#32)))
      (constantI ⟨0, ![]⟩ 1 1#1) hr hu ix0 = 1#1) (i : s.Idx) : IsReal (x i) := by
  have h := Host.reduce_andi_all _ _ hr hu ix0 e i
  have hb' : broadcastInDim s dims hb (constant (F := Ideal) ⟨0, ![]⟩ .f32 0x7F800000#32) i = Ideal.ofBits .f32 0x7F800000#32 :=
    broadcastInDim_apply dims hb _ i ix0 (fun a => a.elim0)
  apply isReal_of_abs_lt
  rw [← hb']
  exact h

end Cert.LibFinite

end
-- ==== Proof.LibCount.lean ====
import Idealize.ShloMosaic.Lib.ValueIdx
import Idealize.ShloMosaic.Lib.IdealHost
import Idealize.ShloMosaic.PureOps.Ideal.Laws

/-!
  Counting the edges that end in each node, with integers and with floats.

  A graph has N edges; edge `n` ends in node `s n`, the entry (n, 0) of an N×1 index column read as a signed
  integer. A scatter of the constant one into an array of B zeros, with addition, counts for every node
  `b` of 0…B−1 the edges ending in `b`; an edge whose node number is not one of 0…B−1 is dropped. (The
  dimension numbers: no update window axes, inserted window axes [0], scatter axes to operand axes [0],
  index vector axis 1.)

  * With 32-bit integer addition the scatter is a left fold over the edges in order; its entry `b` is the
    word of the number #{n | s n = b}: the fold adds one exactly at the edges that land on `b`
    (`scatter_addi_apply`). That number is at most N, so below 2³¹ it does not wrap, and the signed reading
    of the word — what the conversion to a float returns on the extended reals — is the number itself.
  * With float addition of 1.0 into 0.0 the entry is, on the extended reals, 0 plus a sum of ones over the
    same set (`count_apply`).
  So the two arrays are equal (`count_eq`), and every entry is a real number ≥ 0 (`count_nonneg`); its
  maximum with 1.0 is a real number ≥ 1 (`count_max_one`).
-/

noncomputable section

namespace Cert.LibCount

open Finset Idealize.ShloMosaic Idealize.ShloMosaic.ValueIdx

/-! ## Where an update lands -/

section Lands

variable {B N w : ℕ}
variable (dS : ScatterDims ⟨1, ![B]⟩ ⟨2, ![N, 1]⟩ ⟨1, ![N]⟩)
  (hU : dS.updateWindowDims = []) (hI : dS.insertedWindowDims = [0]) (hS : dS.scatterDimsToOperandDims = [0])
  (hV : dS.indexVectorDim = 1)

include hU hI hS hV

theorem siIdx_eq (n : Fin N) (k : Fin dS.scatterDimsToOperandDims.length) :
    dS.siIdx (ix1 n) k = ix2 n (0 : Fin 1) := by
  obtain ⟨uw, iw, sd, iv, wf⟩ := dS
  dsimp only at hU hI hS hV
  subst hU hI hS hV
  funext b
  apply Fin.ext
  match b with
  | ⟨0, _⟩ => rfl
  | ⟨1, _⟩ =>
    have hk : k.val < 1 := k.isLt
    show k.val = 0
    omega

theorem start_0 (idx : IVec ⟨2, ![N, 1]⟩ w) (n : Fin N) :
    dS.start (ix1 n) idx (0 : Fin 1) = (idx (ix2 n (0 : Fin 1))).toInt := by
  unfold ScatterDims.start
  split
  · exact congrArg (fun j => (idx j).toInt) (siIdx_eq dS hU hI hS hV n _)
  · rename_i h; exact absurd (by rw [hS]; exact List.mem_singleton.mpr rfl) h

theorem window_0 (n : Fin N) : dS.window (ix1 n) (0 : Fin 1) = 0 := by
  unfold ScatterDims.window
  split
  · rename_i h
    have h' : (0 : Fin 1) ∈ (⟨1, ![B]⟩ : Shape).kept dS.insertedWindowDims := h
    rw [hI] at h'
    exact absurd (List.mem_filter.mp h').2 (by simp)
  · rfl

/-- Update `n` lands on entry `b` exactly when edge `n`'s node number is `b`. -/
theorem lands_iff (idx : IVec ⟨2, ![N, 1]⟩ w) (n : Fin N) (b : Fin B) :
    dS.resultIdx? (ix1 n) idx = some (ix1 b) ↔ (idx (ix2 n (0 : Fin 1))).toInt = (b.val : ℤ) := by
  have hb : b.val < B := b.isLt
  unfold ScatterDims.resultIdx?
  split
  · rename_i h
    rw [Option.some.injEq]
    constructor
    · intro e
      have e0 : (dS.start (ix1 n) idx (0 : Fin 1) + (dS.window (ix1 n) (0 : Fin 1) : ℤ)).toNat = b.val :=
        congrArg (fun f => (f (0 : Fin 1)).val) e
      have h0 := h (0 : Fin 1)
      rw [start_0 dS hU hI hS hV, window_0 dS hU hI hS hV] at e0 h0
      omega
    · intro e0
      funext a
      apply Fin.ext
      match a with
      | ⟨0, _⟩ =>
        show (dS.start (ix1 n) idx (0 : Fin 1) + (dS.window (ix1 n) (0 : Fin 1) : ℤ)).toNat = b.val
        rw [start_0 dS hU hI hS hV, window_0 dS hU hI hS hV, e0]; omega
  · rename_i h
    constructor
    · intro e; exact absurd e (by simp)
    · intro e0
      exfalso
      apply h
      intro a
      match a with
      | ⟨0, _⟩ =>
        show 0 ≤ dS.start (ix1 n) idx (0 : Fin 1) + (dS.window (ix1 n) (0 : Fin 1) : ℤ) ∧ dS.start (ix1 n) idx (0 : Fin 1) + (dS.window (ix1 n) (0 : Fin 1) : ℤ) < ((B : ℕ) : ℤ)
        rw [start_0 dS hU hI hS hV, window_0 dS hU hI hS hV, e0]; omega

end Lands

/-! ## The fold of a scatter, read at one entry -/

section Fold

variable {α : Type} {s si u : Shape} {w : ℕ}

/-- A scatter's fold over any list of update numbers, read at entry `i`: the fold, from the operand's entry `i`,
    that applies the body at the updates landing on `i` and skips the others. -/
theorem fold_apply (d : ScatterDims s si u) (f : α → α → α) (idx : IVec si w) (upd : u.Idx → α) (i : s.Idx)
    (L : List (Fin u.numel)) (x : s.Idx → α) :
    (L.foldl (fun r n =>
        match d.resultIdx? (u.rowMajor.symm n) idx with
        | some k => fun i' => if i' = k then f (r k) (upd (u.rowMajor.symm n)) else r i'
        | none => r) x) i
      = L.foldl (fun a n => if d.resultIdx? (u.rowMajor.symm n) idx = some i then f a (upd (u.rowMajor.symm n)) else a) (x i) := by
  induction L generalizing x with
  | nil => rfl
  | cons n L ih =>
    rw [List.foldl_cons, List.foldl_cons, ih]
    congr 1
    cases h : d.resultIdx? (u.rowMajor.symm n) idx with
    | none => simp
    | some k =>
      by_cases hik : i = k
      · subst hik; simp
      · have hne : ¬ (some k = some i) := fun e => hik (Option.some.inj e).symm
        simp [hik, hne]

/-- The scatter read at entry `i`. -/
theorem scatter_apply (d : ScatterDims s si u) (f : α → α → α) (x : s.Idx → α) (idx : IVec si w) (upd : u.Idx → α) (i : s.Idx) :
    Host.scatter d f x idx upd i
      = (List.finRange u.numel).foldl
          (fun a n => if d.resultIdx? (u.rowMajor.symm n) idx = some i then f a (upd (u.rowMajor.symm n)) else a) (x i) :=
  fold_apply d f idx upd i _ x

/-- Adding the word one at the places of a list where `p` holds adds the word of their number. -/
theorem foldl_addi_one {ι : Type} (p : ι → Prop) [DecidablePred p] (L : List ι) (a : BitVec w) :
    L.foldl (fun a n => if p n then IntOp.addi a (BitVec.ofNat w 1) else a) a = a + BitVec.ofNat w (L.countP (fun n => decide (p n))) := by
  induction L generalizing a with
  | nil => simp
  | cons n L ih =>
    rw [List.foldl_cons, ih, List.countP_cons]
    by_cases h : p n
    · simp only [h, if_true, decide_true]
      show a + BitVec.ofNat w 1 + _ = _
      rw [BitVec.add_assoc, ← BitVec.ofNat_add, Nat.add_comm 1]
    · simp [h]

/-- Over all of `Fin m` in order, the number of places where `p` holds is the size of the set of them. -/
theorem countP_finRange {m : ℕ} (p : Fin m → Prop) [DecidablePred p] :
    (List.finRange m).countP (fun n => decide (p n)) = (Finset.univ.filter p).card := by
  rw [List.countP_eq_length_filter]
  rfl

end Fold

/-! ## The two counts -/

section Count

variable {B N : ℕ}

/-- The indices of a length-N array are the numbers 0…N−1. -/
def idxEquiv1 : (⟨1, ![N]⟩ : Shape).Idx ≃ Fin N where
  toFun j := j 0
  invFun n := ix1 n
  left_inv j := (eq_ix1 j).symm
  right_inv n := rfl

/-- The number of edges ending in node `b`. -/
def edgeCount (idx : IVec ⟨2, ![N, 1]⟩ 32) (b : Fin B) : ℕ :=
  (Finset.univ.filter (fun n : Fin N => (idx (ix2 n (0 : Fin 1))).toInt = (b.val : ℤ))).card

theorem edgeCount_le (idx : IVec ⟨2, ![N, 1]⟩ 32) (b : Fin B) : edgeCount idx b ≤ N :=
  (Finset.card_le_univ _).trans (by simp)

variable (dS : ScatterDims ⟨1, ![B]⟩ ⟨2, ![N, 1]⟩ ⟨1, ![N]⟩)
  (hU : dS.updateWindowDims = []) (hI : dS.insertedWindowDims = [0]) (hS : dS.scatterDimsToOperandDims = [0])
  (hV : dS.indexVectorDim = 1)

include hU hI hS hV

/-- The updates landing on `b`, as update indices, are as many as the edges ending in `b`. -/
theorem card_lands (idx : IVec ⟨2, ![N, 1]⟩ 32) (b : Fin B)
    [DecidablePred fun j : (⟨1, ![N]⟩ : Shape).Idx => dS.resultIdx? j idx = some (ix1 b)] :
    (Finset.univ.filter (fun j : (⟨1, ![N]⟩ : Shape).Idx => dS.resultIdx? j idx = some (ix1 b))).card = edgeCount idx b := by
  refine Finset.card_equiv idxEquiv1 (fun j => ?_)
  obtain ⟨n, rfl⟩ : ∃ n, j = ix1 n := ⟨j 0, eq_ix1 j⟩
  simp only [Finset.mem_filter, Finset.mem_univ, true_and]
  exact lands_iff dS hU hI hS hV idx n b

/-- The same, over the updates' numbers in row-major order. -/
theorem card_lands_rowMajor (idx : IVec ⟨2, ![N, 1]⟩ 32) (b : Fin B)
    [DecidablePred fun n : Fin (⟨1, ![N]⟩ : Shape).numel => dS.resultIdx? ((⟨1, ![N]⟩ : Shape).rowMajor.symm n) idx = some (ix1 b)] :
    (Finset.univ.filter (fun n : Fin (⟨1, ![N]⟩ : Shape).numel =>
        dS.resultIdx? ((⟨1, ![N]⟩ : Shape).rowMajor.symm n) idx = some (ix1 b))).card = edgeCount idx b := by
  classical
  rw [← card_lands dS hU hI hS hV idx b]
  refine Finset.card_equiv (⟨1, ![N]⟩ : Shape).rowMajor.symm (fun n => ?_)
  simp only [Finset.mem_filter, Finset.mem_univ, true_and]

/-- The integer count: the scatter of ones into zeros with 32-bit addition has at `b` the word of the number of
    edges ending in `b`. -/
theorem scatter_addi_apply (g0 : (⟨0, ![]⟩ : Shape).BroadcastsInDim ⟨1, ![B]⟩ ![]) (g1 : (⟨0, ![]⟩ : Shape).BroadcastsInDim ⟨1, ![N]⟩ ![])
    (idx : IVec ⟨2, ![N, 1]⟩ 32) (b : Fin B) :
    Host.scatter dS IntOp.addi (broadcastInDim ⟨1, ![B]⟩ ![] g0 (constantI ⟨0, ![]⟩ 32 0#32)) idx
        (broadcastInDim ⟨1, ![N]⟩ ![] g1 (constantI ⟨0, ![]⟩ 32 1#32)) (ix1 b)
      = BitVec.ofNat 32 (edgeCount idx b) := by
  rw [scatter_apply]
  have hupd : ∀ j, broadcastInDim ⟨1, ![N]⟩ ![] g1 (constantI ⟨0, ![]⟩ 32 1#32) j = BitVec.ofNat 32 1 :=
    fun j => broadcastInDim_scalar_apply g1 _ j
  have hx : broadcastInDim ⟨1, ![B]⟩ ![] g0 (constantI ⟨0, ![]⟩ 32 0#32) (ix1 b) = 0#32 := broadcastInDim_scalar_apply g0 _ _
  simp only [hupd]
  rw [hx, foldl_addi_one (fun n => dS.resultIdx? ((⟨1, ![N]⟩ : Shape).rowMajor.symm n) idx = some (ix1 b)),
    countP_finRange, card_lands_rowMajor dS hU hI hS hV idx b, BitVec.zero_add]

/-- The float count: the scatter of 1.0 into 0.0 with addition has, on the extended reals, at `b` the number of
    edges ending in `b`. -/
theorem count_apply (g0 : (⟨0, ![]⟩ : Shape).BroadcastsInDim ⟨1, ![B]⟩ ![]) (g1 : (⟨0, ![]⟩ : Shape).BroadcastsInDim ⟨1, ![N]⟩ ![])
    (idx : IVec ⟨2, ![N, 1]⟩ 32) (b : Fin B) :
    Host.scatterAdd (F := Ideal) dS (broadcastInDim ⟨1, ![B]⟩ ![] g0 (constant ⟨0, ![]⟩ .f32 0x00000000#32)) idx
        (broadcastInDim ⟨1, ![N]⟩ ![] g1 (constant ⟨0, ![]⟩ .f32 0x3F800000#32)) (ix1 b)
      = (((edgeCount idx b : ℕ) : ℝ) : EReal) := by
  have hupd : ∀ j, broadcastInDim ⟨1, ![N]⟩ ![] g1 (constant (F := Ideal) ⟨0, ![]⟩ .f32 0x3F800000#32) j = (1 : EReal) :=
    fun j => (broadcastInDim_scalar_apply g1 _ j).trans Ideal.ofBits_one_f32
  have hx : broadcastInDim ⟨1, ![B]⟩ ![] g0 (constant (F := Ideal) ⟨0, ![]⟩ .f32 0x00000000#32) (ix1 b) = (0 : EReal) :=
    (broadcastInDim_scalar_apply g0 _ _).trans Ideal.ofBits_zero_f32
  have key : (0 : EReal) + ∑ j ∈ Finset.univ.filter (fun j => dS.resultIdx? j idx = some (ix1 b)), (1 : EReal)
      = (((edgeCount idx b : ℕ) : ℝ) : EReal) := by
    rw [zero_add, Finset.sum_const, nsmul_one, card_lands dS hU hI hS hV idx b]
    rfl
  rw [← key]
  show (_ : EReal) + ∑ j ∈ Finset.univ.filter (fun j => dS.resultIdx? j idx = some (ix1 b)), (_ : EReal) = _
  exact congrArg₂ (· + ·) hx (Finset.sum_congr rfl fun j _ => hupd j)

end Count

/-! ## The two counts are equal, and are real numbers -/

section Equal

variable {B N : ℕ}

/-- A 32-bit word that spells a number below 2³¹ reads, signed, as that number: no wrap-around. -/
theorem toInt_ofNat_small (k : ℕ) (hk : k < 2 ^ 31) : (BitVec.ofNat 32 k).toInt = (k : ℤ) := by
  have hm : k % 2 ^ 32 = k := Nat.mod_eq_of_lt (by omega)
  rw [BitVec.toInt_eq_toNat_cond, BitVec.toNat_ofNat, hm, if_pos (by omega)]

/-- A real number ≥ 0, raised to at least 1.0, is a real number ≥ 1. -/
theorem max_one_of_nonneg {c : EReal} (h : ∃ r : ℝ, 0 ≤ r ∧ c = (r : EReal)) :
    ∃ r : ℝ, 1 ≤ r ∧ max c (Ideal.ofBits .f32 0x3F800000#32) = (r : EReal) := by
  obtain ⟨r, _, rfl⟩ := h
  refine ⟨max r 1, le_max_right _ _, ?_⟩
  rw [Ideal.ofBits_one_f32, ← EReal.coe_one]
  exact (EReal.coe_strictMono.monotone.map_max).symm

variable (dS dS' : ScatterDims ⟨1, ![B]⟩ ⟨2, ![N, 1]⟩ ⟨1, ![N]⟩)
  (hU : dS.updateWindowDims = []) (hI : dS.insertedWindowDims = [0]) (hS : dS.scatterDimsToOperandDims = [0])
  (hV : dS.indexVectorDim = 1)
  (hU' : dS'.updateWindowDims = []) (hI' : dS'.insertedWindowDims = [0]) (hS' : dS'.scatterDimsToOperandDims = [0])
  (hV' : dS'.indexVectorDim = 1)

section Kernel

include hU hI hS hV

/-- The integer count converted to a float is, on the extended reals, the number of edges ending in `b`. -/
theorem sitofp_count_apply (hN : N < 2 ^ 31)
    (g0 : (⟨0, ![]⟩ : Shape).BroadcastsInDim ⟨1, ![B]⟩ ![]) (g1 : (⟨0, ![]⟩ : Shape).BroadcastsInDim ⟨1, ![N]⟩ ![])
    (idx : IVec ⟨2, ![N, 1]⟩ 32) (b : Fin B) :
    sitofp (F := Ideal) .f32 (Host.scatter dS IntOp.addi (broadcastInDim ⟨1, ![B]⟩ ![] g0 (constantI ⟨0, ![]⟩ 32 0#32)) idx
        (broadcastInDim ⟨1, ![N]⟩ ![] g1 (constantI ⟨0, ![]⟩ 32 1#32))) (ix1 b)
      = (((edgeCount idx b : ℕ) : ℝ) : EReal) := by
  rw [sitofp_apply, scatter_addi_apply dS hU hI hS hV g0 g1 idx b]
  show (((BitVec.ofNat 32 (edgeCount idx b)).toInt : ℝ) : EReal) = _
  rw [toInt_ofNat_small _ (lt_of_le_of_lt (edgeCount_le idx b) hN), Int.cast_natCast]

end Kernel

include hU hI hS hV hU' hI' hS' hV'

/-- The integer count converted to a float and the float count are the same array. -/
theorem count_eq (hN : N < 2 ^ 31)
    (g0 g0' : (⟨0, ![]⟩ : Shape).BroadcastsInDim ⟨1, ![B]⟩ ![]) (g1 g1' : (⟨0, ![]⟩ : Shape).BroadcastsInDim ⟨1, ![N]⟩ ![])
    (idx : IVec ⟨2, ![N, 1]⟩ 32) :
    sitofp (F := Ideal) .f32 (Host.scatter dS IntOp.addi (broadcastInDim ⟨1, ![B]⟩ ![] g0 (constantI ⟨0, ![]⟩ 32 0#32)) idx
        (broadcastInDim ⟨1, ![N]⟩ ![] g1 (constantI ⟨0, ![]⟩ 32 1#32)))
      = Host.scatterAdd (F := Ideal) dS' (broadcastInDim ⟨1, ![B]⟩ ![] g0' (constant ⟨0, ![]⟩ .f32 0x00000000#32)) idx
          (broadcastInDim ⟨1, ![N]⟩ ![] g1' (constant ⟨0, ![]⟩ .f32 0x3F800000#32)) := by
  funext i
  obtain ⟨b, rfl⟩ : ∃ b, i = ix1 b := ⟨i 0, eq_ix1 i⟩
  rw [sitofp_count_apply dS hU hI hS hV hN g0 g1 idx b, count_apply dS' hU' hI' hS' hV' g0' g1' idx b]

end Equal

section Real

variable {B N : ℕ}
variable (dS : ScatterDims ⟨1, ![B]⟩ ⟨2, ![N, 1]⟩ ⟨1, ![N]⟩)
  (hU : dS.updateWindowDims = []) (hI : dS.insertedWindowDims = [0]) (hS : dS.scatterDimsToOperandDims = [0])
  (hV : dS.indexVectorDim = 1)

include hU hI hS hV

/-- Every entry of the float count is a real number ≥ 0. -/
theorem count_nonneg (g0 : (⟨0, ![]⟩ : Shape).BroadcastsInDim ⟨1, ![B]⟩ ![]) (g1 : (⟨0, ![]⟩ : Shape).BroadcastsInDim ⟨1, ![N]⟩ ![])
    (idx : IVec ⟨2, ![N, 1]⟩ 32) (i : (⟨1, ![B]⟩ : Shape).Idx) :
    ∃ r : ℝ, 0 ≤ r ∧ Host.scatterAdd (F := Ideal) dS (broadcastInDim ⟨1, ![B]⟩ ![] g0 (constant ⟨0, ![]⟩ .f32 0x00000000#32)) idx
        (broadcastInDim ⟨1, ![N]⟩ ![] g1 (constant ⟨0, ![]⟩ .f32 0x3F800000#32)) i = (r : EReal) := by
  obtain ⟨b, rfl⟩ : ∃ b, i = ix1 b := ⟨i 0, eq_ix1 i⟩
  exact ⟨(edgeCount idx b : ℕ), Nat.cast_nonneg _, count_apply dS hU hI hS hV g0 g1 idx b⟩

/-- Every entry of the float count, raised to at least 1.0, is a real number ≥ 1. -/
theorem count_max_one (g0 : (⟨0, ![]⟩ : Shape).BroadcastsInDim ⟨1, ![B]⟩ ![]) (g1 : (⟨0, ![]⟩ : Shape).BroadcastsInDim ⟨1, ![N]⟩ ![])
    (idx : IVec ⟨2, ![N, 1]⟩ 32) (i : (⟨1, ![B]⟩ : Shape).Idx) :
    ∃ r : ℝ, 1 ≤ r ∧ max (Host.scatterAdd (F := Ideal) dS (broadcastInDim ⟨1, ![B]⟩ ![] g0 (constant ⟨0, ![]⟩ .f32 0x00000000#32)) idx
        (broadcastInDim ⟨1, ![N]⟩ ![] g1 (constant ⟨0, ![]⟩ .f32 0x3F800000#32)) i) (Ideal.ofBits .f32 0x3F800000#32) = (r : EReal) :=
  max_one_of_nonneg (count_nonneg dS hU hI hS hV g0 g1 idx i)

/-- Every entry of the integer count converted to a float is a real number ≥ 0. -/
theorem sitofp_count_nonneg (hN : N < 2 ^ 31)
    (g0 : (⟨0, ![]⟩ : Shape).BroadcastsInDim ⟨1, ![B]⟩ ![]) (g1 : (⟨0, ![]⟩ : Shape).BroadcastsInDim ⟨1, ![N]⟩ ![])
    (idx : IVec ⟨2, ![N, 1]⟩ 32) (i : (⟨1, ![B]⟩ : Shape).Idx) :
    ∃ r : ℝ, 0 ≤ r ∧ sitofp (F := Ideal) .f32 (Host.scatter dS IntOp.addi (broadcastInDim ⟨1, ![B]⟩ ![] g0 (constantI ⟨0, ![]⟩ 32 0#32)) idx
        (broadcastInDim ⟨1, ![N]⟩ ![] g1 (constantI ⟨0, ![]⟩ 32 1#32))) i = (r : EReal) := by
  obtain ⟨b, rfl⟩ : ∃ b, i = ix1 b := ⟨i 0, eq_ix1 i⟩
  exact ⟨(edgeCount idx b : ℕ), Nat.cast_nonneg _, sitofp_count_apply dS hU hI hS hV hN g0 g1 idx b⟩

/-- Every entry of the integer count converted to a float, raised to at least 1.0, is a real number ≥ 1. -/
theorem sitofp_count_max_one (hN : N < 2 ^ 31)
    (g0 : (⟨0, ![]⟩ : Shape).BroadcastsInDim ⟨1, ![B]⟩ ![]) (g1 : (⟨0, ![]⟩ : Shape).BroadcastsInDim ⟨1, ![N]⟩ ![])
    (idx : IVec ⟨2, ![N, 1]⟩ 32) (i : (⟨1, ![B]⟩ : Shape).Idx) :
    ∃ r : ℝ, 1 ≤ r ∧ max (sitofp (F := Ideal) .f32 (Host.scatter dS IntOp.addi (broadcastInDim ⟨1, ![B]⟩ ![] g0 (constantI ⟨0, ![]⟩ 32 0#32)) idx
        (broadcastInDim ⟨1, ![N]⟩ ![] g1 (constantI ⟨0, ![]⟩ 32 1#32))) i) (Ideal.ofBits .f32 0x3F800000#32) = (r : EReal) :=
  max_one_of_nonneg (sitofp_count_nonneg dS hU hI hS hV hN g0 g1 idx i)

end Real

end Cert.LibCount

end
-- ==== Proof.BridgeCount.lean ====
/-
  The two programs count edges differently and get the same counts.

  The kernel counts the edges ending in a node with 32-bit integers and converts; the plain program adds the float
  one into the float zero. Two million ones do not wrap, so both are the natural number of such edges, and the two
  count arrays are equal. Clamped below by one a count is a real number at least one: never zero.
-/
import proofs.«136637_j76338748720023_2_alg».proof.Proof.Gen.ReferenceIdeal.Read
import proofs.«136637_j76338748720023_2_alg».proof.Proof.KTerms
import proofs.«136637_j76338748720023_2_alg».proof.Proof.SageHost
import Idealize.ShloMosaic.Lib.IdealHost
import proofs.«136637_j76338748720023_2_alg».proof.Proof.LibFinite
import proofs.«136637_j76338748720023_2_alg».proof.Proof.LibCount

set_option maxRecDepth 16384

noncomputable section

namespace Cert.Bridge

open Idealize.ShloMosaic Idealize.ShloMosaic.ValueIdx Cert.LibLayer Cert.Sage Cert.LibFinite
open Cert.KernelIdeal.KT

theorem oneP_apply (p : Fin 50000) : oneP (ix1 p) = 1 := by
  unfold oneP; rw [broadcastInDim_scalar_apply]; exact Ideal.ofBits_one_f32
theorem oneU_apply (p : Fin 100000) : oneU (ix1 p) = 1 := by
  unfold oneU; rw [broadcastInDim_scalar_apply]; exact Ideal.ofBits_one_f32

/-- The clamped product counts: the kernel's array is the plain program's. -/
theorem dP_eq (x15 : IVec Cert.KernelIdeal.S2000000 32) : dP x15 = Cert.ReferenceIdeal.Read.val_main_v15 (F := Ideal) x15 :=
  congrArg₂ (fun a b => maximumf (F := Ideal) (φ := .f32) a b)
    (Cert.LibCount.count_eq Cert.KernelIdeal.scatter_S50000_S2000000x1_S2000000_n_0_0_1 Cert.ReferenceIdeal.scatter_S50000_S2000000x1_S2000000_n_0_0_1
      rfl rfl rfl rfl rfl rfl rfl rfl (by norm_num) _ _ _ _ (col x15)) rfl
/-- The clamped user counts likewise. -/
theorem dU_eq (x14 : IVec Cert.KernelIdeal.S2000000 32) : dU x14 = Cert.ReferenceIdeal.Read.val_main_v41 (F := Ideal) x14 :=
  congrArg₂ (fun a b => maximumf (F := Ideal) (φ := .f32) a b)
    (Cert.LibCount.count_eq Cert.KernelIdeal.scatter_S100000_S2000000x1_S2000000_n_0_0_1 Cert.ReferenceIdeal.scatter_S100000_S2000000x1_S2000000_n_0_0_1
      rfl rfl rfl rfl rfl rfl rfl rfl (by norm_num) _ _ _ _ (col x14)) rfl

/-- A clamped count is a real number at least one. -/
theorem dP_real (x15 : IVec Cert.KernelIdeal.S2000000 32) (p : Fin 50000) : ∃ r : ℝ, 1 ≤ r ∧ dP x15 (ix1 p) = (r : EReal) := by
  obtain ⟨r, hr, e⟩ := Cert.LibCount.sitofp_count_max_one Cert.KernelIdeal.scatter_S50000_S2000000x1_S2000000_n_0_0_1 rfl rfl rfl rfl (by norm_num)
    Cert.KernelIdeal.Facts₀.bcast_S_S50000 Cert.KernelIdeal.Facts₀.bcast_S_S2000000 (col x15) (ix1 p)
  refine ⟨r, hr, ?_⟩
  rw [← e]
  unfold dP oneP cntP
  rw [maximumf_apply, broadcastInDim_scalar_apply]
  rfl
theorem dU_real (x14 : IVec Cert.KernelIdeal.S2000000 32) (p : Fin 100000) : ∃ r : ℝ, 1 ≤ r ∧ dU x14 (ix1 p) = (r : EReal) := by
  obtain ⟨r, hr, e⟩ := Cert.LibCount.sitofp_count_max_one Cert.KernelIdeal.scatter_S100000_S2000000x1_S2000000_n_0_0_1 rfl rfl rfl rfl (by norm_num)
    Cert.KernelIdeal.Facts₀.bcast_S_S100000 Cert.KernelIdeal.Facts₀.bcast_S_S2000000 (col x14) (ix1 p)
  refine ⟨r, hr, ?_⟩
  rw [← e]
  unfold dU oneU cntU
  rw [maximumf_apply, broadcastInDim_scalar_apply]
  rfl

theorem dP_ne (x15 : IVec Cert.KernelIdeal.S2000000 32) (p : Fin 50000) : dP x15 (ix1 p) ≠ 0 := by
  obtain ⟨r, hr, e⟩ := dP_real x15 p
  rw [e]; intro h
  have : r = 0 := by exact_mod_cast h
  linarith
theorem dU_ne (x14 : IVec Cert.KernelIdeal.S2000000 32) (p : Fin 100000) : dU x14 (ix1 p) ≠ 0 := by
  obtain ⟨r, hr, e⟩ := dU_real x14 p
  rw [e]; intro h
  have : r = 0 := by exact_mod_cast h
  linarith

end Cert.Bridge

end
-- ==== Proof.BridgeLayers.lean ====
/-
  Three of the four layers need no finiteness: the kernel's entry is the plain program's.

  Both programs aggregate the same rows along the same edges; the kernel multiplies the aggregate by the reciprocal
  of the clamped count where the plain program divides by it, and adds the same three terms in another order. A
  clamped count is never zero, multiplying by `1 / d` is dividing by `d` on every extended real, and addition is
  commutative and associative: so layer 1 at the products and both halves of layer 2 agree entry by entry whatever
  the arguments hold.
-/
import proofs.«136637_j76338748720023_2_alg».proof.Proof.Gen.ReferenceIdeal.Read
import proofs.«136637_j76338748720023_2_alg».proof.Proof.KTerms
import proofs.«136637_j76338748720023_2_alg».proof.Proof.SageHost
import Idealize.ShloMosaic.Lib.IdealHost
import proofs.«136637_j76338748720023_2_alg».proof.Proof.LibFinite
import proofs.«136637_j76338748720023_2_alg».proof.Proof.BridgeCount

set_option maxRecDepth 16384

noncomputable section

namespace Cert.Bridge

open Idealize.ShloMosaic Idealize.ShloMosaic.ValueIdx Cert.LibLayer Cert.Sage Cert.LibFinite
open Cert.KernelIdeal.KT

/-- Layer 1 at the products: the plain program's array is the kernel's. -/
theorem hp_eq (x0 : FVec Ideal Cert.KernelIdeal.S100000x64 .f32) (x1 : FVec Ideal Cert.KernelIdeal.S50000x128 .f32) (x2 : FVec Ideal Cert.KernelIdeal.S64x64 .f32) (x3 : FVec Ideal Cert.KernelIdeal.S64 .f32) (x4 : FVec Ideal Cert.KernelIdeal.S128x64 .f32) (x14 x15 : IVec Cert.KernelIdeal.S2000000 32) :
    Cert.ReferenceIdeal.Read.val_main_v25 (F := Ideal) x0 x1 x2 x3 x4 x14 x15 = hp x0 x1 x2 x3 x4 x14 x15 := by
  have hR : Cert.ReferenceIdeal.Read.val_main_v25 (F := Ideal) x0 x1 x2 x3 x4 x14 x15 = fun i => max (hostAt (M := 50000) (K1 := 64) (K2 := 128) (N := 64) (Cert.ReferenceIdeal.Read.val_main_v9 (F := Ideal) x0 x14 x15) (Cert.ReferenceIdeal.Read.val_main_v15 (F := Ideal) x15) x1 x2 x3 x4 (i 0) (i 1)) (Ideal.ofBits .f32 0x00000000#32) := by
    unfold Cert.ReferenceIdeal.Read.val_main_v25 Cert.ReferenceIdeal.Read.val_main_v24 Cert.ReferenceIdeal.Read.val_main_v22 Cert.ReferenceIdeal.Read.val_main_v19 Cert.ReferenceIdeal.Read.val_main_v18 Cert.ReferenceIdeal.Read.val_main_v17 Cert.ReferenceIdeal.Read.val_main_v16 Cert.ReferenceIdeal.Read.val_main_v21 Cert.ReferenceIdeal.Read.val_main_v20 Cert.ReferenceIdeal.Read.val_main_v23 Cert.ReferenceIdeal.Read.val_main_call0_v0 Cert.ReferenceIdeal.Read.val_main_call0_cst
    rw [relu_host, host_layer (M := 50000) (K1 := 64) (K2 := 128) (N := 64) (⟨rfl, rfl, rfl, rfl, rfl, rfl⟩ : Plain Cert.ReferenceIdeal.dot_S50000x64_S64x64_S50000x64_1_0_0_1_n_n) (⟨rfl, rfl, rfl, rfl, rfl, rfl⟩ : Plain Cert.ReferenceIdeal.dot_S50000x128_S128x64_S50000x64_1_0_0_1_n_n)]
    rfl
  rw [hR]
  funext i
  obtain ⟨p, q, rfl⟩ : ∃ (p : Fin 50000) (q : Fin 64), i = ix2 p q := ⟨i 0, i 1, eq_ix2 i⟩
  have hK : unitAt (M := 50000) (K1 := 64) (K2 := 128) (N := 64) (aggP x0 x14 x15) (invP x15) x1 x2 (bias x3) x4 p q
      = hostAt (aggP x0 x14 x15) (dP x15) x1 x2 x3 x4 p q :=
    unit_layer_eq _ _ oneP _ _ _ _ _ _ p q (oneP_apply p) (dP_ne x15 p)
  show max (hostAt (Cert.ReferenceIdeal.Read.val_main_v9 (F := Ideal) x0 x14 x15) (Cert.ReferenceIdeal.Read.val_main_v15 (F := Ideal) x15) x1 x2 x3 x4 p q) _ = max (unitAt (M := 50000) (K1 := 64) (K2 := 128) (N := 64) (aggP x0 x14 x15) (invP x15) x1 x2 (bias x3) x4 p q) _
  rw [hK, dP_eq]
  rfl

/-- Layer 2 at the products, from any layer-1 tables `u`, `p`: the plain program's array is the kernel's. -/
theorem hp2_eq (x0 : FVec Ideal Cert.KernelIdeal.S100000x64 .f32) (x1 : FVec Ideal Cert.KernelIdeal.S50000x128 .f32) (x2 : FVec Ideal Cert.KernelIdeal.S64x64 .f32) (x3 : FVec Ideal Cert.KernelIdeal.S64 .f32) (x4 x5 : FVec Ideal Cert.KernelIdeal.S128x64 .f32) (x6 : FVec Ideal Cert.KernelIdeal.S64 .f32) (x7 x8 : FVec Ideal Cert.KernelIdeal.S64x64 .f32) (x9 : FVec Ideal Cert.KernelIdeal.S64 .f32) (x10 : FVec Ideal Cert.KernelIdeal.S64x64 .f32) (x14 x15 : IVec Cert.KernelIdeal.S2000000 32) :
    Cert.ReferenceIdeal.Read.val_main_v76 (F := Ideal) x0 x1 x2 x3 x4 x5 x6 x7 x8 x9 x10 x14 x15 = hp2 (Cert.ReferenceIdeal.Read.val_main_v51 (F := Ideal) x0 x1 x5 x6 x7 x14 x15) (Cert.ReferenceIdeal.Read.val_main_v25 (F := Ideal) x0 x1 x2 x3 x4 x14 x15) x8 x9 x10 x14 x15 := by
  have hR : Cert.ReferenceIdeal.Read.val_main_v76 (F := Ideal) x0 x1 x2 x3 x4 x5 x6 x7 x8 x9 x10 x14 x15 = fun i => hostAt (M := 50000) (K1 := 64) (K2 := 64) (N := 64) (Cert.ReferenceIdeal.Read.val_main_v61 (F := Ideal) x0 x1 x5 x6 x7 x14 x15) (Cert.ReferenceIdeal.Read.val_main_v67 (F := Ideal) x15) (Cert.ReferenceIdeal.Read.val_main_v25 (F := Ideal) x0 x1 x2 x3 x4 x14 x15) x8 x9 x10 (i 0) (i 1) := by
    unfold Cert.ReferenceIdeal.Read.val_main_v76 Cert.ReferenceIdeal.Read.val_main_v74 Cert.ReferenceIdeal.Read.val_main_v71 Cert.ReferenceIdeal.Read.val_main_v70 Cert.ReferenceIdeal.Read.val_main_v69 Cert.ReferenceIdeal.Read.val_main_v68 Cert.ReferenceIdeal.Read.val_main_v73 Cert.ReferenceIdeal.Read.val_main_v72 Cert.ReferenceIdeal.Read.val_main_v75
    rw [host_layer (M := 50000) (K1 := 64) (K2 := 64) (N := 64) (⟨rfl, rfl, rfl, rfl, rfl, rfl⟩ : Plain Cert.ReferenceIdeal.dot_S50000x64_S64x64_S50000x64_1_0_0_1_n_n) (⟨rfl, rfl, rfl, rfl, rfl, rfl⟩ : Plain Cert.ReferenceIdeal.dot_S50000x64_S64x64_S50000x64_1_0_0_1_n_n)]

  rw [hR]
  funext i
  obtain ⟨p, q, rfl⟩ : ∃ (p : Fin 50000) (q : Fin 64), i = ix2 p q := ⟨i 0, i 1, eq_ix2 i⟩
  have hK : unitAt (M := 50000) (K1 := 64) (K2 := 64) (N := 64) (aggP (Cert.ReferenceIdeal.Read.val_main_v51 (F := Ideal) x0 x1 x5 x6 x7 x14 x15) x14 x15) (invP x15) (Cert.ReferenceIdeal.Read.val_main_v25 (F := Ideal) x0 x1 x2 x3 x4 x14 x15) x8 (bias x9) x10 p q
      = hostAt (aggP (Cert.ReferenceIdeal.Read.val_main_v51 (F := Ideal) x0 x1 x5 x6 x7 x14 x15) x14 x15) (dP x15) (Cert.ReferenceIdeal.Read.val_main_v25 (F := Ideal) x0 x1 x2 x3 x4 x14 x15) x8 x9 x10 p q :=
    unit_layer_eq _ _ oneP _ _ _ _ _ _ p q (oneP_apply p) (dP_ne x15 p)
  show (hostAt (Cert.ReferenceIdeal.Read.val_main_v61 (F := Ideal) x0 x1 x5 x6 x7 x14 x15) (Cert.ReferenceIdeal.Read.val_main_v67 (F := Ideal) x15) (Cert.ReferenceIdeal.Read.val_main_v25 (F := Ideal) x0 x1 x2 x3 x4 x14 x15) x8 x9 x10 p q) = (unitAt (M := 50000) (K1 := 64) (K2 := 64) (N := 64) (aggP (Cert.ReferenceIdeal.Read.val_main_v51 (F := Ideal) x0 x1 x5 x6 x7 x14 x15) x14 x15) (invP x15) (Cert.ReferenceIdeal.Read.val_main_v25 (F := Ideal) x0 x1 x2 x3 x4 x14 x15) x8 (bias x9) x10 p q)
  rw [hK, dP_eq]
  rfl

/-- Layer 2 at the users: the plain program's array is the kernel's. -/
theorem hu2_eq (x0 : FVec Ideal Cert.KernelIdeal.S100000x64 .f32) (x1 : FVec Ideal Cert.KernelIdeal.S50000x128 .f32) (x2 : FVec Ideal Cert.KernelIdeal.S64x64 .f32) (x3 : FVec Ideal Cert.KernelIdeal.S64 .f32) (x4 x5 : FVec Ideal Cert.KernelIdeal.S128x64 .f32) (x6 : FVec Ideal Cert.KernelIdeal.S64 .f32) (x7 x11 : FVec Ideal Cert.KernelIdeal.S64x64 .f32) (x12 : FVec Ideal Cert.KernelIdeal.S64 .f32) (x13 : FVec Ideal Cert.KernelIdeal.S64x64 .f32) (x14 x15 : IVec Cert.KernelIdeal.S2000000 32) :
    Cert.ReferenceIdeal.Read.val_main_v101 (F := Ideal) x0 x1 x2 x3 x4 x5 x6 x7 x11 x12 x13 x14 x15 = hu2 (Cert.ReferenceIdeal.Read.val_main_v51 (F := Ideal) x0 x1 x5 x6 x7 x14 x15) (Cert.ReferenceIdeal.Read.val_main_v25 (F := Ideal) x0 x1 x2 x3 x4 x14 x15) x11 x12 x13 x14 x15 := by
  have hR : Cert.ReferenceIdeal.Read.val_main_v101 (F := Ideal) x0 x1 x2 x3 x4 x5 x6 x7 x11 x12 x13 x14 x15 = fun i => hostAt (M := 100000) (K1 := 64) (K2 := 64) (N := 64) (Cert.ReferenceIdeal.Read.val_main_v86 (F := Ideal) x0 x1 x2 x3 x4 x14 x15) (Cert.ReferenceIdeal.Read.val_main_v92 (F := Ideal) x14) (Cert.ReferenceIdeal.Read.val_main_v51 (F := Ideal) x0 x1 x5 x6 x7 x14 x15) x11 x12 x13 (i 0) (i 1) := by
    unfold Cert.ReferenceIdeal.Read.val_main_v101 Cert.ReferenceIdeal.Read.val_main_v99 Cert.ReferenceIdeal.Read.val_main_v96 Cert.ReferenceIdeal.Read.val_main_v95 Cert.ReferenceIdeal.Read.val_main_v94 Cert.ReferenceIdeal.Read.val_main_v93 Cert.ReferenceIdeal.Read.val_main_v98 Cert.ReferenceIdeal.Read.val_main_v97 Cert.ReferenceIdeal.Read.val_main_v100
    rw [host_layer (M := 100000) (K1 := 64) (K2 := 64) (N := 64) (⟨rfl, rfl, rfl, rfl, rfl, rfl⟩ : Plain Cert.ReferenceIdeal.dot_S100000x64_S64x64_S100000x64_1_0_0_1_n_n) (⟨rfl, rfl, rfl, rfl, rfl, rfl⟩ : Plain Cert.ReferenceIdeal.dot_S100000x64_S64x64_S100000x64_1_0_0_1_n_n)]

  rw [hR]
  funext i
  obtain ⟨p, q, rfl⟩ : ∃ (p : Fin 100000) (q : Fin 64), i = ix2 p q := ⟨i 0, i 1, eq_ix2 i⟩
  have hK : unitAt (M := 100000) (K1 := 64) (K2 := 64) (N := 64) (aggU (Cert.ReferenceIdeal.Read.val_main_v25 (F := Ideal) x0 x1 x2 x3 x4 x14 x15) x14 x15) (invU x14) (Cert.ReferenceIdeal.Read.val_main_v51 (F := Ideal) x0 x1 x5 x6 x7 x14 x15) x11 (bias x12) x13 p q
      = hostAt (aggU (Cert.ReferenceIdeal.Read.val_main_v25 (F := Ideal) x0 x1 x2 x3 x4 x14 x15) x14 x15) (dU x14) (Cert.ReferenceIdeal.Read.val_main_v51 (F := Ideal) x0 x1 x5 x6 x7 x14 x15) x11 x12 x13 p q :=
    unit_layer_eq _ _ oneU _ _ _ _ _ _ p q (oneU_apply p) (dU_ne x14 p)
  show (hostAt (Cert.ReferenceIdeal.Read.val_main_v86 (F := Ideal) x0 x1 x2 x3 x4 x14 x15) (Cert.ReferenceIdeal.Read.val_main_v92 (F := Ideal) x14) (Cert.ReferenceIdeal.Read.val_main_v51 (F := Ideal) x0 x1 x5 x6 x7 x14 x15) x11 x12 x13 p q) = (unitAt (M := 100000) (K1 := 64) (K2 := 64) (N := 64) (aggU (Cert.ReferenceIdeal.Read.val_main_v25 (F := Ideal) x0 x1 x2 x3 x4 x14 x15) x14 x15) (invU x14) (Cert.ReferenceIdeal.Read.val_main_v51 (F := Ideal) x0 x1 x5 x6 x7 x14 x15) x11 (bias x12) x13 p q)
  rw [hK, dU_eq]
  rfl

end Cert.Bridge

end
-- ==== Proof.LibScatterRows.lean ====
import Idealize.ShloMosaic.Lib.ValueIdx
import Idealize.ShloMosaic.PureOps.Ideal.Laws

/-!
  An accumulating scatter of rows, entry by entry (the host's segment sum).

  Row `n` of an N×D matrix of updates is added into row `s n` of a B×D array, where `s n` is the entry
  (n, 0) of an N×1 index column read as a signed integer; a row whose number is not one of 0…B−1 is
  dropped. (The dimension numbers: update window axes [1], inserted window axes [0], scatter axes to
  operand axes [0], index vector axis 1 — what `x.at[idx].add(upd)` and `jax.ops.segment_sum` lower to.)
  On the extended reals the result's entry (b, d) is the operand's entry plus the sum, over the rows `n`
  with `s n = b`, of update (n, d).
-/

noncomputable section

namespace Cert.LibScatterRows

open Finset Idealize.ShloMosaic Idealize.ShloMosaic.ValueIdx

variable {B D N w : ℕ}
variable (dS : ScatterDims ⟨2, ![B, D]⟩ ⟨2, ![N, 1]⟩ ⟨2, ![N, D]⟩)
  (hU : dS.updateWindowDims = [1]) (hI : dS.insertedWindowDims = [0]) (hS : dS.scatterDimsToOperandDims = [0])
  (hV : dS.indexVectorDim = 1)

include hU hI hS hV

theorem siIdx_eq (n : Fin N) (q : Fin D) (k : Fin dS.scatterDimsToOperandDims.length) :
    dS.siIdx (ix2 n q) k = ix2 n (0 : Fin 1) := by
  obtain ⟨uw, iw, sd, iv, wf⟩ := dS
  dsimp only at hU hI hS hV
  subst hU hI hS hV
  funext b
  apply Fin.ext
  match b with
  | ⟨0, _⟩ => rfl
  | ⟨1, _⟩ =>
    have hk : k.val < 1 := k.isLt
    show k.val = 0
    omega

theorem start_0 (idx : IVec ⟨2, ![N, 1]⟩ w) (n : Fin N) (q : Fin D) :
    dS.start (ix2 n q) idx (0 : Fin 2) = (idx (ix2 n (0 : Fin 1))).toInt := by
  unfold ScatterDims.start
  split
  · exact congrArg (fun j => (idx j).toInt) (siIdx_eq dS hU hI hS hV n q _)
  · rename_i h; exact absurd (by rw [hS]; exact List.mem_singleton.mpr rfl) h

theorem start_1 (idx : IVec ⟨2, ![N, 1]⟩ w) (n : Fin N) (q : Fin D) :
    dS.start (ix2 n q) idx (1 : Fin 2) = 0 := by
  unfold ScatterDims.start
  split
  · rename_i h
    rw [hS] at h
    exact absurd (congrArg Fin.val (List.mem_singleton.mp h)) (by show ¬((1 : ℕ) = 0); decide)
  · rfl

theorem window_0 (n : Fin N) (q : Fin D) : dS.window (ix2 n q) (0 : Fin 2) = 0 := by
  unfold ScatterDims.window
  split
  · rename_i h
    have h' : (0 : Fin 2) ∈ (⟨2, ![B, D]⟩ : Shape).kept dS.insertedWindowDims := h
    rw [hI] at h'
    exact absurd (List.mem_filter.mp h').2 (by simp)
  · rfl

theorem window_1 (n : Fin N) (q : Fin D) : dS.window (ix2 n q) (1 : Fin 2) = q.val := by
  obtain ⟨uw, iw, sd, iv, wf⟩ := dS
  dsimp only at hU hI hS hV
  subst hU hI hS hV
  unfold ScatterDims.window
  split
  · rfl
  · rename_i h
    exact absurd (List.mem_filter.mpr ⟨List.mem_finRange _, by simp⟩) h

/-- Update (n, q) lands on entry (b, d) exactly when row `n`'s number is `b` and `q = d`. -/
theorem lands_iff (idx : IVec ⟨2, ![N, 1]⟩ w) (n : Fin N) (q : Fin D) (b : Fin B) (d : Fin D) :
    dS.resultIdx? (ix2 n q) idx = some (ix2 b d) ↔ (idx (ix2 n (0 : Fin 1))).toInt = (b.val : ℤ) ∧ q = d := by
  have hb : b.val < B := b.isLt
  have hq : q.val < D := q.isLt
  have hd : d.val < D := d.isLt
  unfold ScatterDims.resultIdx?
  split
  · rename_i h
    rw [Option.some.injEq]
    constructor
    · intro e
      have e0 : (dS.start (ix2 n q) idx (0 : Fin 2) + (dS.window (ix2 n q) (0 : Fin 2) : ℤ)).toNat = b.val :=
        congrArg (fun f => (f (0 : Fin 2)).val) e
      have e1 : (dS.start (ix2 n q) idx (1 : Fin 2) + (dS.window (ix2 n q) (1 : Fin 2) : ℤ)).toNat = d.val :=
        congrArg (fun f => (f (1 : Fin 2)).val) e
      have h0 := h (0 : Fin 2)
      rw [start_0 dS hU hI hS hV, window_0 dS hU hI hS hV] at e0 h0
      rw [start_1 dS hU hI hS hV, window_1 dS hU hI hS hV] at e1
      refine ⟨by omega, Fin.ext (by omega)⟩
    · rintro ⟨e0, rfl⟩
      funext a
      apply Fin.ext
      match a with
      | ⟨0, _⟩ =>
        show (dS.start (ix2 n q) idx (0 : Fin 2) + (dS.window (ix2 n q) (0 : Fin 2) : ℤ)).toNat = b.val
        rw [start_0 dS hU hI hS hV, window_0 dS hU hI hS hV, e0]; omega
      | ⟨1, _⟩ =>
        show (dS.start (ix2 n q) idx (1 : Fin 2) + (dS.window (ix2 n q) (1 : Fin 2) : ℤ)).toNat = q.val
        rw [start_1 dS hU hI hS hV, window_1 dS hU hI hS hV]; omega
  · rename_i h
    constructor
    · intro e; exact absurd e (by simp)
    · rintro ⟨e0, rfl⟩
      exfalso
      apply h
      intro a
      match a with
      | ⟨0, _⟩ =>
        show 0 ≤ dS.start (ix2 n q) idx (0 : Fin 2) + (dS.window (ix2 n q) (0 : Fin 2) : ℤ) ∧ dS.start (ix2 n q) idx (0 : Fin 2) + (dS.window (ix2 n q) (0 : Fin 2) : ℤ) < ((B : ℕ) : ℤ)
        rw [start_0 dS hU hI hS hV, window_0 dS hU hI hS hV, e0]; omega
      | ⟨1, _⟩ =>
        show 0 ≤ dS.start (ix2 n q) idx (1 : Fin 2) + (dS.window (ix2 n q) (1 : Fin 2) : ℤ) ∧ dS.start (ix2 n q) idx (1 : Fin 2) + (dS.window (ix2 n q) (1 : Fin 2) : ℤ) < ((D : ℕ) : ℤ)
        rw [start_1 dS hU hI hS hV, window_1 dS hU hI hS hV]; omega

/-- The accumulating scatter at entry (b, d): the operand's entry plus the updates (·, d) of the rows numbered `b`. -/
theorem scatterAdd_apply {φ : FTy} (x : FVec Ideal ⟨2, ![B, D]⟩ φ) (idx : IVec ⟨2, ![N, 1]⟩ w) (upd : FVec Ideal ⟨2, ![N, D]⟩ φ)
    (b : Fin B) (d : Fin D) :
    Host.scatterAdd (F := Ideal) dS x idx upd (ix2 b d)
      = x (ix2 b d) + ∑ n : Fin N, if (idx (ix2 n (0 : Fin 1))).toInt = (b.val : ℤ) then upd (ix2 n d) else 0 := by
  show x (ix2 b d) + ∑ j ∈ Finset.univ.filter (fun j => dS.resultIdx? j idx = some (ix2 b d)), upd j = _
  refine congrArg (x (ix2 b d) + ·) ?_
  rw [Finset.sum_filter, sum_idx2]
  refine Finset.sum_congr rfl fun n _ => ?_
  have : ∀ q : Fin D, (if dS.resultIdx? (ix2 n q) idx = some (ix2 b d) then upd (ix2 n q) else 0)
      = if q = d then (if (idx (ix2 n (0 : Fin 1))).toInt = (b.val : ℤ) then upd (ix2 n d) else 0) else 0 := fun q => by
    by_cases hqd : q = d
    · subst hqd
      rw [if_pos rfl]
      exact if_congr ((lands_iff dS hU hI hS hV idx n q b q).trans (and_iff_left rfl)) rfl rfl
    · rw [if_neg hqd, if_neg (fun e => hqd ((lands_iff dS hU hI hS hV idx n q b d).mp e).2)]
  rw [Finset.sum_congr rfl fun q _ => this q, Finset.sum_ite_eq' Finset.univ d]
  simp

end Cert.LibScatterRows

end
-- ==== Proof.LibGatherRows.lean ====
/-
  A gather of whole rows of a matrix, read at one entry.

  The operand is an N×M matrix, the start indices an R×1 integer matrix: one row number per result row. Result entry
  (t, a) is the operand's entry (row t's start index, a), the start index read as a signed integer and clamped into
  [0, N − 1]. These are the dimension numbers of `x[idx]` for a matrix x and a vector idx of row numbers: the
  result's axis 1 is the one offset axis, operand axis 0 is collapsed, the index vector (axis 1 of the start
  indices, of length 1) names operand axis 0, and a slice is one whole row.
-/
import Idealize.ShloMosaic.PureOps
import Idealize.ShloMosaic.Lib.ValueIdx

namespace Cert.LibGatherRows

open Idealize.ShloMosaic Idealize.ShloMosaic.ValueIdx

variable {α : Type}

/-- Those dimension numbers for an operand N×M, start indices R×1 and result R×M. -/
abbrev rowDims (N M R : Nat) (wf : GatherDims.WF ⟨2, ![N, M]⟩ ⟨2, ![R, 1]⟩ ⟨2, ![R, M]⟩ [1] [0] [] [0] [] 1 ![1, M]) :
    GatherDims ⟨2, ![N, M]⟩ ⟨2, ![R, 1]⟩ ⟨2, ![R, M]⟩ where
  offsetDims := [1]
  collapsedSliceDims := [0]
  operandBatchingDims := []
  startIndicesBatchingDims := []
  startIndexMap := [0]
  indexVectorDim := 1
  sliceSizes := ![1, M]
  wf := wf

/-- THE GATHER READ AT (t, a): the operand at (row t's start index read signed and clamped into [0, N − 1], a). -/
theorem gather_rows_apply {N M R w : Nat} (hN : 0 < N)
    (wf : GatherDims.WF ⟨2, ![N, M]⟩ ⟨2, ![R, 1]⟩ ⟨2, ![R, M]⟩ [1] [0] [] [0] [] 1 ![1, M])
    (x : (⟨2, ![N, M]⟩ : Shape).Idx → α) (idx : IVec ⟨2, ![R, 1]⟩ w) (t : Fin R) (a : Fin M) :
    Host.gather (rowDims N M R wf) x idx (ix2 t a)
      = x (ix2 (⟨min (idx (ix2 t (0 : Fin 1))).toInt.toNat (N - 1), by omega⟩ : Fin N) a) := by
  unfold Host.gather
  refine congrArg x ?_
  funext b
  match b with
  | ⟨0, _⟩ =>
    refine Fin.ext ?_
    show (rowDims N M R wf).start (ix2 t a) idx (0 : Fin 2) + (rowDims N M R wf).batchCoord (ix2 t a) (0 : Fin 2)
      + (rowDims N M R wf).offCoord (ix2 t a) (0 : Fin 2) = min (idx (ix2 t (0 : Fin 1))).toInt.toNat (N - 1)
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowDims N M R wf).startIndexMap from List.mem_singleton.mpr rfl)]
    have hsi : (rowDims N M R wf).siIdx (ix2 t a) ⟨List.idxOf (0 : Fin 2) (rowDims N M R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    refine Fin.ext ?_
    show (rowDims N M R wf).start (ix2 t a) idx (1 : Fin 2) + (rowDims N M R wf).batchCoord (ix2 t a) (1 : Fin 2)
      + (rowDims N M R wf).offCoord (ix2 t a) (1 : Fin 2) = a.val
    have h10 : (1 : Fin 2) ≠ 0 := by decide
    have h1 : (1 : Fin 2) ∉ (rowDims N M R wf).startIndexMap := by
      intro hm; exact absurd (List.mem_singleton.mp hm) h10
    have hk : (1 : Fin 2) ∈ (rowDims N M R wf).sKept := by
      rw [GatherDims.mem_sKept]
      exact ⟨fun hm => absurd (List.mem_singleton.mp hm) h10, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows
-- ==== Proof.LibAggregate.lean ====
/-
  Aggregating along the edges of a graph before or after a matrix product (generic in the numbers of nodes, edges,
  input and output features and in the index width).

  Row `b` of an aggregate is the sum, over the edges `n` ending in `b`, of row `g n` of the input times the edge's
  coefficient `cv n`.  For an input `x` with `K` columns and a `K × M` matrix `W`,
      (aggregate of x) · W  =  aggregate of (x · W):
  entry (b, q) of either side is the double sum over edges `n` ending in `b` and columns `c` of
  `x (g n, c) · cv n · W (c, q)`.  Exchanging the two sums and moving the factors uses distributivity, which on the
  extended reals needs every term to be a real number: so `x`, `W` and the coefficients are assumed real.
-/
import proofs.«136637_j76338748720023_2_alg».proof.Proof.LibScatterRows
import proofs.«136637_j76338748720023_2_alg».proof.Proof.LibGatherRows
import proofs.«136637_j76338748720023_2_alg».proof.Proof.LibFinite
import proofs.«136637_j76338748720023_2_alg».proof.Proof.LibLayer

noncomputable section

namespace Cert.LibAggregate

open Finset Idealize.ShloMosaic Idealize.ShloMosaic.ValueIdx Cert.LibFinite Cert.LibLayer

/-- The coercion of a guarded real term. -/
theorem coe_ite_zero (p : Prop) [Decidable p] (a : ℝ) : (if p then (a : EReal) else 0) = ((if p then a else 0 : ℝ) : EReal) := by
  split_ifs <;> simp

/-- The law over the reals: the guarded double sum in either order. -/
theorem real_exchange {N K : ℕ} (P : Fin N → Prop) [DecidablePred P] (a : Fin N → Fin K → ℝ) (cv : Fin N → ℝ) (wq : Fin K → ℝ) :
    ∑ c : Fin K, (∑ n : Fin N, if P n then a n c * cv n else 0) * wq c
      = ∑ n : Fin N, if P n then (∑ c : Fin K, a n c * wq c) * cv n else 0 := by
  simp only [Finset.sum_mul]
  rw [Finset.sum_comm]
  refine Finset.sum_congr rfl fun n _ => ?_
  by_cases h : P n
  · simp only [if_pos h]
    refine Finset.sum_congr rfl fun c _ => ?_
    ring
  · simp only [if_neg h, zero_mul, Finset.sum_const_zero]

section
variable {B N K M w : ℕ}
variable (dS4 : ScatterDims ⟨2, ![B, K]⟩ ⟨2, ![N, 1]⟩ ⟨2, ![N, K]⟩)
  (h4U : dS4.updateWindowDims = [1]) (h4I : dS4.insertedWindowDims = [0]) (h4S : dS4.scatterDimsToOperandDims = [0]) (h4V : dS4.indexVectorDim = 1)
  (dS : ScatterDims ⟨2, ![B, M]⟩ ⟨2, ![N, 1]⟩ ⟨2, ![N, M]⟩)
  (hU : dS.updateWindowDims = [1]) (hI : dS.insertedWindowDims = [0]) (hS : dS.scatterDimsToOperandDims = [0]) (hV : dS.indexVectorDim = 1)
  (hB : 0 < B)
  (wf4 : GatherDims.WF ⟨2, ![B, K]⟩ ⟨2, ![N, 1]⟩ ⟨2, ![N, K]⟩ [1] [0] [] [0] [] 1 ![1, K])
  (wf : GatherDims.WF ⟨2, ![B, M]⟩ ⟨2, ![N, 1]⟩ ⟨2, ![N, M]⟩ [1] [0] [] [0] [] 1 ![1, M])
  {D : DotDims ⟨2, ![B, K]⟩ ⟨2, ![K, M]⟩ ⟨2, ![B, M]⟩} (hD : Plain D)

include h4U h4I h4S h4V hU hI hS hV hB hD in
/-- Aggregation commutes with a matrix product on real data. -/
theorem agg_mm (x : FVec Ideal ⟨2, ![B, K]⟩ .f32) (W : FVec Ideal ⟨2, ![K, M]⟩ .f32)
    (z4 : FVec Ideal ⟨2, ![B, K]⟩ .f32) (z : FVec Ideal ⟨2, ![B, M]⟩ .f32) (hz4 : ∀ i, z4 i = 0) (hz : ∀ i, z i = 0)
    (sidx didx : IVec ⟨2, ![N, 1]⟩ w)
    (C4 : FVec Ideal ⟨2, ![N, K]⟩ .f32) (C : FVec Ideal ⟨2, ![N, M]⟩ .f32) (cv : Fin N → ℝ)
    (hC4 : ∀ n k, C4 (ix2 n k) = (cv n : EReal)) (hC : ∀ n j, C (ix2 n j) = (cv n : EReal))
    (hx : ∀ i, IsReal (x i)) (hW : ∀ i, IsReal (W i)) :
    Host.dotGeneral D none (Host.scatterAdd (F := Ideal) dS4 z4 didx (mulf (Host.gather (Cert.LibGatherRows.rowDims B K N wf4) x sidx) C4)) W
      = Host.scatterAdd (F := Ideal) dS z didx (mulf (Host.gather (Cert.LibGatherRows.rowDims B M N wf) (Host.dotGeneral D none x W) sidx) C) := by
  choose xr hxr using hx
  choose Wr hWr using hW
  funext i
  obtain ⟨p, q, rfl⟩ : ∃ (p : Fin B) (q : Fin M), i = ix2 p q := ⟨i 0, i 1, eq_ix2 i⟩
  rw [dot_at hD, Cert.LibScatterRows.scatterAdd_apply dS hU hI hS hV, hz, zero_add]
  unfold prodAt
  -- the row an edge reads
  let g : Fin N → Fin B := fun n => ⟨min (sidx (ix2 n (0 : Fin 1))).toInt.toNat (B - 1), by omega⟩
  have hL : ∀ c : Fin K, Host.scatterAdd (F := Ideal) dS4 z4 didx (mulf (Host.gather (Cert.LibGatherRows.rowDims B K N wf4) x sidx) C4) (ix2 p c)
      = ((∑ n : Fin N, if (didx (ix2 n (0 : Fin 1))).toInt = (p.val : ℤ) then xr (ix2 (g n) c) * cv n else 0 : ℝ) : EReal) := fun c => by
    rw [Cert.LibScatterRows.scatterAdd_apply dS4 h4U h4I h4S h4V, hz4, zero_add, coe_sum]
    refine Finset.sum_congr rfl fun n _ => ?_
    rw [← coe_ite_zero, EReal.coe_mul, ← hxr, ← hC4 n c]
    refine if_congr Iff.rfl ?_ rfl
    show Host.gather (Cert.LibGatherRows.rowDims B K N wf4) x sidx (ix2 n c) * C4 (ix2 n c) = _
    rw [Cert.LibGatherRows.gather_rows_apply hB wf4 x sidx n c]
  have hR : ∀ n : Fin N, mulf (Host.gather (Cert.LibGatherRows.rowDims B M N wf) (Host.dotGeneral D none x W) sidx) C (ix2 n q)
      = (((∑ c : Fin K, xr (ix2 (g n) c) * Wr (ix2 c q)) * cv n : ℝ) : EReal) := fun n => by
    show Host.gather (Cert.LibGatherRows.rowDims B M N wf) (Host.dotGeneral D none x W) sidx (ix2 n q) * C (ix2 n q) = _
    rw [Cert.LibGatherRows.gather_rows_apply hB wf _ sidx n q, dot_at hD, hC, EReal.coe_mul, coe_sum]
    unfold prodAt
    refine congrArg (· * (cv n : EReal)) (Finset.sum_congr rfl fun c _ => ?_)
    rw [EReal.coe_mul, ← hxr, ← hWr]
  calc ∑ c : Fin K, Host.scatterAdd (F := Ideal) dS4 z4 didx (mulf (Host.gather (Cert.LibGatherRows.rowDims B K N wf4) x sidx) C4) (ix2 p c) * W (ix2 c q)
      = ((∑ c : Fin K, (∑ n : Fin N, if (didx (ix2 n (0 : Fin 1))).toInt = (p.val : ℤ) then xr (ix2 (g n) c) * cv n else 0) * Wr (ix2 c q) : ℝ) : EReal) := by
        rw [coe_sum]
        refine Finset.sum_congr rfl fun c _ => ?_
        rw [hL c, hWr, EReal.coe_mul]
    _ = ((∑ n : Fin N, if (didx (ix2 n (0 : Fin 1))).toInt = (p.val : ℤ) then (∑ c : Fin K, xr (ix2 (g n) c) * Wr (ix2 c q)) * cv n else 0 : ℝ) : EReal) :=
        congrArg _ (real_exchange (fun n => (didx (ix2 n (0 : Fin 1))).toInt = (p.val : ℤ)) (fun n c => xr (ix2 (g n) c)) cv (fun c => Wr (ix2 c q)))
    _ = ∑ n : Fin N, if (didx (ix2 n (0 : Fin 1))).toInt = (p.val : ℤ) then
          mulf (Host.gather (Cert.LibGatherRows.rowDims B M N wf) (Host.dotGeneral D none x W) sidx) C (ix2 n q) else 0 := by
        rw [coe_sum]
        refine Finset.sum_congr rfl fun n _ => ?_
        rw [← coe_ite_zero, hR n]

end

end Cert.LibAggregate

end
-- ==== Proof.LibRealOps.lean ====
/-
  Real numbers among the extended reals are closed under everything a host program does to them.

  An extended real that is a real number stays one under sums, differences, products, negation and maxima, under a
  finite sum, under a quotient by a real that is not zero, and under the reciprocal square root of a positive real.
  Read entry by entry at the exact instance, the host's array operations inherit this: a gather only reads operand
  entries (at a clamped index), an accumulating scatter adds to each operand entry the updates that land on it (those
  that land outside are dropped), a sum along axes is the initial value plus finitely many entries, and both matrix
  products are finite sums of products. So an array computed from real arrays by these operations has real entries,
  whatever the integer index arrays hold.
-/
import proofs.«136637_j76338748720023_2_alg».proof.Proof.LibFinite
import Idealize.ShloMosaic.PureOps.Ideal.Laws
import Idealize.ShloMosaic.PureOps.Contract
import Idealize.ShloMosaic.PureOps.ShapeOps

noncomputable section

namespace Cert.LibRealOps

open Idealize.ShloMosaic Cert.LibFinite

/-- A real number, coerced, is real. -/
theorem isReal_coe (r : ℝ) : IsReal (r : EReal) := ⟨r, rfl⟩
theorem isReal_zero : IsReal (0 : EReal) := ⟨0, rfl⟩
theorem isReal_one : IsReal (1 : EReal) := ⟨1, rfl⟩

/-- Sums, differences, products, negatives and maxima of real numbers are real. -/
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_sub {x y : EReal} (hx : IsReal x) (hy : IsReal y) : IsReal (x - y) := by
  obtain ⟨a, rfl⟩ := hx; obtain ⟨b, rfl⟩ := hy; exact ⟨a - b, (EReal.coe_sub a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_neg {x : EReal} (hx : IsReal x) : IsReal (-x) := by
  obtain ⟨a, rfl⟩ := hx; exact ⟨-a, (EReal.coe_neg a).symm⟩
theorem isReal_max {x y : EReal} (hx : IsReal x) (hy : IsReal y) : IsReal (max x y) := by
  obtain ⟨a, rfl⟩ := hx; obtain ⟨b, rfl⟩ := hy; exact ⟨max a b, (coe_max a b).symm⟩

/-- A finite sum of real numbers is real. -/
theorem isReal_sum {ι : Type} (t : Finset ι) (f : ι → EReal) (h : ∀ i ∈ t, IsReal (f i)) : IsReal (∑ i ∈ t, f i) := by
  classical
  induction t using Finset.induction_on with
  | empty => simpa using isReal_zero
  | insert a t ha ih =>
    rw [Finset.sum_insert ha]
    exact isReal_add (h a (Finset.mem_insert_self a t)) (ih fun i hi => h i (Finset.mem_insert_of_mem hi))

/-- A quotient of a real by a nonzero real, on the extended reals, is the coercion of the real quotient. -/
theorem div_coe_coe (a n : ℝ) (h0 : n ≠ 0) : Ideal.div (a : EReal) (n : EReal) = ((a / n : ℝ) : EReal) := by
  rw [Ideal.div_coe h0, ← EReal.coe_mul]
  congr 1
  ring

/-- A quotient of a real by a real that is not zero is real. -/
theorem isReal_div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  exact ⟨a / b, div_coe_coe a b hb⟩

/-- The reciprocal square root of a positive real is real. -/
theorem isReal_rsqrt_of_pos {r : ℝ} (h : 0 < r) : IsReal (Ideal.rsqrt (r : EReal)) := by
  rw [Ideal.rsqrt_coe, if_neg (not_lt.mpr h.le), if_neg h.ne']
  exact ⟨_, rfl⟩

/-! ## The host's operations, entry by entry -/

/-- A gather reads the operand at a clamped index: every gathered entry is an operand entry. -/
theorem isReal_gather {s si t : Shape} {w : Nat} (d : GatherDims s si t) (x : s.Idx → EReal) (idx : IVec si w)
    (hx : ∀ i, IsReal (x i)) (j : t.Idx) : IsReal (Host.gather d x idx j) := hx _

/-- An accumulating scatter leaves at each entry the operand's entry plus the updates that land on it. -/
theorem isReal_scatterAdd {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact isReal_add (hx i) (isReal_sum _ _ fun j _ => hu j)

/-- The host's sum along axes: the initial value plus the entries that reduce to each index. -/
theorem isReal_reduceAdd {s t u : Shape} {axes : List (Fin s.rank)} {φ : FTy} (x : FVec Ideal s φ) (init : u.Idx → Ideal φ)
    (h : s.ReducesTo axes t) (hu : 0 < u.numel) (hx : ∀ i, IsReal (x i)) (hi : ∀ k, IsReal (init k)) (j : t.Idx) :
    IsReal (Host.reduceAdd x init h hu j) := by
  show IsReal (init (Shape.Idx.first hu) + ∑ i ∈ Finset.univ.filter (fun i => h.drop i = j), x i)
  exact isReal_add (hi _) (isReal_sum _ _ fun i _ => hx i)

/-- The host's matrix product of real operands is real, entry by entry. -/
theorem isReal_dotGeneral {sl sr so : Shape} {φ₁ φ₂ : FTy} (d : DotDims sl sr so) (prec : Option ContractPrecision)
    (sched : HostSchedule) (lhs : FVec Ideal sl φ₁) (rhs : FVec Ideal sr φ₂) (hl : ∀ i, IsReal (lhs i)) (hr : ∀ i, IsReal (rhs i))
    (j : so.Idx) : IsReal (FloatOps.dotGeneral d prec sched lhs rhs j) := by
  rw [Ideal.dotGeneral_apply]
  exact isReal_sum _ _ fun k _ => isReal_mul (hl _) (hr _)

/-- A kernel's matrix product of real operands into a real accumulator is real, entry by entry. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i)) (hr : ∀ i, IsReal (rhs i))
    (ha : ∀ i, IsReal (acc i)) (j : so.Idx) : IsReal (FloatOps.matmul d prec lhs rhs acc j) := by
  rw [Ideal.matmul_apply]
  exact isReal_add (ha j) (isReal_sum _ _ fun k _ => isReal_mul (hl _) (hr _))

end Cert.LibRealOps

end
-- ==== Proof.LibAggProj.lean ====
/-
  Mean aggregation along the edges of a bipartite graph, before or after a matrix product (generic in the numbers
  of source rows, destination rows, edges, input and output features and in the index width).

  Edge n reads row g n of a source table x (Bs rows, K columns) and ends in row t n of a destination array
  (Bd rows); the aggregate's row p is the sum of the rows g n over the edges n with t n = p. For a K × M matrix
  W and a nonzero real divisor d p for each destination row,
      (aggregate of (x · W)) (p, q) · (1 / d p)  =  ∑ c, ((aggregate of x) (p, c) / d p) · W (c, q):
  either side is the double sum over the edges n ending in p and the columns c of x (g n, c) · W (c, q), divided
  by d p. Exchanging the two sums and moving the division uses distributivity, which on the extended reals needs
  every term to be a real number: so x, W and the divisors are assumed real.
-/
import proofs.«136637_j76338748720023_2_alg».proof.Proof.LibAggregate
import proofs.«136637_j76338748720023_2_alg».proof.Proof.LibScatterRows
import proofs.«136637_j76338748720023_2_alg».proof.Proof.LibGatherRows
import proofs.«136637_j76338748720023_2_alg».proof.Proof.LibFinite
import proofs.«136637_j76338748720023_2_alg».proof.Proof.LibLayer
import proofs.«136637_j76338748720023_2_alg».proof.Proof.LibRealOps
import proofs.«136637_j76338748720023_2_alg».proof.Proof.LibRecip

noncomputable section

namespace Cert.LibAggProj

open Finset Idealize.ShloMosaic Idealize.ShloMosaic.ValueIdx Cert.LibFinite Cert.LibLayer

/-- The law over the reals: the guarded double sum divided by r, against the guarded sums divided by r one
    column at a time. (No condition on r: over the reals a quotient by zero is zero on both sides.) -/
theorem real_exchange_div {N K : ℕ} (P : Fin N → Prop) [DecidablePred P] (a : Fin N → Fin K → ℝ) (wq : Fin K → ℝ) (r : ℝ) :
    (∑ n : Fin N, if P n then ∑ c : Fin K, a n c * wq c else 0) / r
      = ∑ c : Fin K, (∑ n : Fin N, if P n then a n c else 0) / r * wq c := by
  have h := Cert.LibAggregate.real_exchange P a (fun _ => 1) wq
  simp only [mul_one] at h
  rw [← h, Finset.sum_div]
  refine Finset.sum_congr rfl fun c _ => ?_
  ring

section
variable {Bs Bd N K M w : ℕ}
variable (dS4 : ScatterDims ⟨2, ![Bd, K]⟩ ⟨2, ![N, 1]⟩ ⟨2, ![N, K]⟩)
  (h4U : dS4.updateWindowDims = [1]) (h4I : dS4.insertedWindowDims = [0]) (h4S : dS4.scatterDimsToOperandDims = [0]) (h4V : dS4.indexVectorDim = 1)
  (dS : ScatterDims ⟨2, ![Bd, M]⟩ ⟨2, ![N, 1]⟩ ⟨2, ![N, M]⟩)
  (hU : dS.updateWindowDims = [1]) (hI : dS.insertedWindowDims = [0]) (hS : dS.scatterDimsToOperandDims = [0]) (hV : dS.indexVectorDim = 1)
  (hB : 0 < Bs)
  (wf4 : GatherDims.WF ⟨2, ![Bs, K]⟩ ⟨2, ![N, 1]⟩ ⟨2, ![N, K]⟩ [1] [0] [] [0] [] 1 ![1, K])
  (wf : GatherDims.WF ⟨2, ![Bs, M]⟩ ⟨2, ![N, 1]⟩ ⟨2, ![N, M]⟩ [1] [0] [] [0] [] 1 ![1, M])
  {D : DotDims ⟨2, ![Bs, K]⟩ ⟨2, ![K, M]⟩ ⟨2, ![Bs, M]⟩} (hD : Plain D)

/-- The aggregate of a real table is real, entry by entry, whatever the index columns hold. -/
theorem agg_isReal (x : FVec Ideal ⟨2, ![Bs, K]⟩ .f32) (z4 : FVec Ideal ⟨2, ![Bd, K]⟩ .f32) (hz4 : ∀ i, z4 i = 0)
    (sidx didx : IVec ⟨2, ![N, 1]⟩ w) (hx : ∀ i, IsReal (x i)) (i : (⟨2, ![Bd, K]⟩ : Shape).Idx) :
    IsReal (Host.scatterAdd (F := Ideal) dS4 z4 didx (Host.gather (Cert.LibGatherRows.rowDims Bs K N wf4) x sidx) i) :=
  Cert.LibRealOps.isReal_scatterAdd dS4 z4 didx _ (fun i => by rw [hz4 i]; exact Cert.LibRealOps.isReal_zero)
    (fun j => Cert.LibRealOps.isReal_gather _ x sidx hx j) i

include h4U h4I h4S h4V hU hI hS hV hB hD in
/-- Projecting, aggregating and scaling by the reciprocal of the row's divisor is dividing the aggregate by the
    divisor and projecting, on real data, entry by entry. -/
theorem agg_proj (x : FVec Ideal ⟨2, ![Bs, K]⟩ .f32) (W : FVec Ideal ⟨2, ![K, M]⟩ .f32)
    (z4 : FVec Ideal ⟨2, ![Bd, K]⟩ .f32) (z : FVec Ideal ⟨2, ![Bd, M]⟩ .f32) (hz4 : ∀ i, z4 i = 0) (hz : ∀ i, z i = 0)
    (sidx didx : IVec ⟨2, ![N, 1]⟩ w)
    (dv : Fin Bd → EReal) (hd : ∀ p, ∃ r : ℝ, r ≠ 0 ∧ dv p = (r : EReal))
    (hx : ∀ i, IsReal (x i)) (hW : ∀ i, IsReal (W i)) (p : Fin Bd) (q : Fin M) :
    Host.scatterAdd (F := Ideal) dS z didx (Host.gather (Cert.LibGatherRows.rowDims Bs M N wf) (Host.dotGeneral D none x W) sidx) (ix2 p q)
        * Ideal.div 1 (dv p)
      = ∑ c : Fin K, Ideal.div (Host.scatterAdd (F := Ideal) dS4 z4 didx (Host.gather (Cert.LibGatherRows.rowDims Bs K N wf4) x sidx) (ix2 p c)) (dv p)
          * W (ix2 c q) := by
  choose xr hxr using hx
  choose Wr hWr using hW
  obtain ⟨r, hr0, hr⟩ := hd p
  rw [hr]
  -- the row an edge reads
  let g : Fin N → Fin Bs := fun n => ⟨min (sidx (ix2 n (0 : Fin 1))).toInt.toNat (Bs - 1), by omega⟩
  -- the K-wide aggregate at (p, c)
  have hA : ∀ c : Fin K, Host.scatterAdd (F := Ideal) dS4 z4 didx (Host.gather (Cert.LibGatherRows.rowDims Bs K N wf4) x sidx) (ix2 p c)
      = ((∑ n : Fin N, if (didx (ix2 n (0 : Fin 1))).toInt = (p.val : ℤ) then xr (ix2 (g n) c) else 0 : ℝ) : EReal) := fun c => by
    rw [Cert.LibScatterRows.scatterAdd_apply dS4 h4U h4I h4S h4V, hz4, zero_add, coe_sum]
    refine Finset.sum_congr rfl fun n _ => ?_
    rw [← Cert.LibAggregate.coe_ite_zero, ← hxr]
    refine if_congr Iff.rfl ?_ rfl
    exact Cert.LibGatherRows.gather_rows_apply hB wf4 x sidx n c
  -- the M-wide aggregate of the projected table at (p, q)
  have hL : Host.scatterAdd (F := Ideal) dS z didx (Host.gather (Cert.LibGatherRows.rowDims Bs M N wf) (Host.dotGeneral D none x W) sidx) (ix2 p q)
      = ((∑ n : Fin N, if (didx (ix2 n (0 : Fin 1))).toInt = (p.val : ℤ) then ∑ c : Fin K, xr (ix2 (g n) c) * Wr (ix2 c q) else 0 : ℝ) : EReal) := by
    rw [Cert.LibScatterRows.scatterAdd_apply dS hU hI hS hV, hz, zero_add, coe_sum]
    refine Finset.sum_congr rfl fun n _ => ?_
    rw [← Cert.LibAggregate.coe_ite_zero]
    refine if_congr Iff.rfl ?_ rfl
    rw [Cert.LibGatherRows.gather_rows_apply hB wf _ sidx n q, dot_at hD, coe_sum]
    unfold prodAt
    refine Finset.sum_congr rfl fun c _ => ?_
    rw [EReal.coe_mul, ← hxr, ← hWr]
  rw [hL, Cert.LibRecip.mul_recip _ _ (EReal.coe_ne_zero.mpr hr0), Cert.LibRealOps.div_coe_coe _ _ hr0,
    real_exchange_div, coe_sum]
  refine Finset.sum_congr rfl fun c _ => ?_
  rw [hA c, Cert.LibRealOps.div_coe_coe _ _ hr0, hWr, EReal.coe_mul]

end

end Cert.LibAggProj

end
-- ==== Proof.BridgeRev.lean ====
/-
  Layer 1 at the users: projecting the products' features before or after the aggregation.

  The plain program sums the 128-wide rows of the products' features along the edges, divides by the users' clamped
  counts and multiplies by the 128 × 64 weight matrix. The kernel multiplies the features by the weight matrix first,
  sums the 64-wide rows along the same edges and scales by the reciprocal counts. Entry by entry both are the double
  sum, over the edges ending in the user and the 128 columns, of feature × weight, over the count: exchanging the
  two sums and moving the division uses distributivity, which holds because every feature and every weight is a real
  number (the inputs are finite) and the count is a real number that is not zero.
-/
import proofs.«136637_j76338748720023_2_alg».proof.Proof.Gen.ReferenceIdeal.Read
import proofs.«136637_j76338748720023_2_alg».proof.Proof.KTerms
import proofs.«136637_j76338748720023_2_alg».proof.Proof.SageHost
import Idealize.ShloMosaic.Lib.IdealHost
import proofs.«136637_j76338748720023_2_alg».proof.Proof.LibFinite
import proofs.«136637_j76338748720023_2_alg».proof.Proof.BridgeCount
import proofs.«136637_j76338748720023_2_alg».proof.Proof.LibAggProj

set_option maxRecDepth 16384

noncomputable section

namespace Cert.Bridge

open Idealize.ShloMosaic Idealize.ShloMosaic.ValueIdx Cert.LibLayer Cert.Sage Cert.LibFinite
open Cert.KernelIdeal.KT

theorem zero_apply {s : Shape} (g : (⟨0, ![]⟩ : Shape).BroadcastsInDim s ![]) (i : s.Idx) :
    broadcastInDim s ![] g (constant (F := Ideal) ⟨0, ![]⟩ .f32 0x00000000#32) i = 0 := by
  rw [broadcastInDim_scalar_apply]; exact Ideal.ofBits_zero_f32

/-- The exchange at one entry. -/
theorem proj_exchange (x1 : FVec Ideal Cert.KernelIdeal.S50000x128 .f32) (x5 : FVec Ideal Cert.KernelIdeal.S128x64 .f32) (x14 x15 : IVec Cert.KernelIdeal.S2000000 32)
    (hx1 : ∀ i, IsReal (x1 i)) (hx5 : ∀ i, IsReal (x5 i)) (p : Fin 100000) (q : Fin 64) :
    aggU (proj x1 x5) x14 x15 (ix2 p q) * Ideal.div 1 (dU x14 (ix1 p))
      = prodAt (M := 100000) (K := 128) (N := 64) (meaned (Cert.ReferenceIdeal.Read.val_main_v35 (F := Ideal) x1 x14 x15) (dU x14)) x5 p q :=
  Cert.LibAggProj.agg_proj (Bs := 50000) (Bd := 100000) (N := 2000000) (K := 128) (M := 64)
    Cert.ReferenceIdeal.scatter_S100000x128_S2000000x1_S2000000x128_1_0_0_1 rfl rfl rfl rfl
    Cert.KernelIdeal.scatter_S100000x64_S2000000x1_S2000000x64_1_0_0_1 rfl rfl rfl rfl (by norm_num)
    Cert.ReferenceIdeal.gather_S50000x128_S2000000x1_S2000000x128_1_0_n_n_0_1_1128.wf
    Cert.KernelIdeal.gather_S50000x64_S2000000x1_S2000000x64_1_0_n_n_0_1_164.wf
    (⟨rfl, rfl, rfl, rfl, rfl, rfl⟩ : Plain Cert.KernelIdeal.dot_S50000x128_S128x64_S50000x64_1_0_0_1_n_n)
    x1 x5 _ _ (zero_apply _) (zero_apply _) (wrap 50000#32 x15) (col x14) (fun p => dU x14 (ix1 p))
    (fun p => by obtain ⟨r, hr, e⟩ := dU_real x14 p; exact ⟨r, by linarith, e⟩) hx1 hx5 p q

/-- Layer 1 at the users: the plain program's array is the kernel's, the projected operands being real. -/
theorem hu_eq (x0 : FVec Ideal Cert.KernelIdeal.S100000x64 .f32) (x1 : FVec Ideal Cert.KernelIdeal.S50000x128 .f32) (x5 : FVec Ideal Cert.KernelIdeal.S128x64 .f32) (x6 : FVec Ideal Cert.KernelIdeal.S64 .f32)
    (x7 : FVec Ideal Cert.KernelIdeal.S64x64 .f32) (x14 x15 : IVec Cert.KernelIdeal.S2000000 32) (hx1 : ∀ i, IsReal (x1 i)) (hx5 : ∀ i, IsReal (x5 i)) :
    Cert.ReferenceIdeal.Read.val_main_v51 (F := Ideal) x0 x1 x5 x6 x7 x14 x15 = hu x0 x1 x5 x6 x7 x14 x15 := by
  have hR : Cert.ReferenceIdeal.Read.val_main_v51 (F := Ideal) x0 x1 x5 x6 x7 x14 x15 = fun i => max (hostAt (M := 100000) (K1 := 128) (K2 := 64) (N := 64) (Cert.ReferenceIdeal.Read.val_main_v35 (F := Ideal) x1 x14 x15) (Cert.ReferenceIdeal.Read.val_main_v41 (F := Ideal) x14) x0 x5 x6 x7 (i 0) (i 1)) (Ideal.ofBits .f32 0x00000000#32) := by
    unfold Cert.ReferenceIdeal.Read.val_main_v51 Cert.ReferenceIdeal.Read.val_main_v50 Cert.ReferenceIdeal.Read.val_main_v48 Cert.ReferenceIdeal.Read.val_main_v45 Cert.ReferenceIdeal.Read.val_main_v44 Cert.ReferenceIdeal.Read.val_main_v43 Cert.ReferenceIdeal.Read.val_main_v42 Cert.ReferenceIdeal.Read.val_main_v47 Cert.ReferenceIdeal.Read.val_main_v46 Cert.ReferenceIdeal.Read.val_main_v49 Cert.ReferenceIdeal.Read.val_main_call1_v0 Cert.ReferenceIdeal.Read.val_main_call1_cst
    rw [relu_host, host_layer (M := 100000) (K1 := 128) (K2 := 64) (N := 64) (⟨rfl, rfl, rfl, rfl, rfl, rfl⟩ : Plain Cert.ReferenceIdeal.dot_S100000x128_S128x64_S100000x64_1_0_0_1_n_n) (⟨rfl, rfl, rfl, rfl, rfl, rfl⟩ : Plain Cert.ReferenceIdeal.dot_S100000x64_S64x64_S100000x64_1_0_0_1_n_n)]
    rfl
  rw [hR]
  funext i
  obtain ⟨p, q, rfl⟩ : ∃ (p : Fin 100000) (q : Fin 64), i = ix2 p q := ⟨i 0, i 1, eq_ix2 i⟩
  have hK : unitAt' (M := 100000) (K2 := 64) (N := 64) (aggU (proj x1 x5) x14 x15) (invU x14) x0 (bias x6) x7 p q
      = hostAt (M := 100000) (K1 := 128) (K2 := 64) (N := 64) (Cert.ReferenceIdeal.Read.val_main_v35 (F := Ideal) x1 x14 x15) (dU x14) x0 x5 x6 x7 p q :=
    unit'_layer_eq (K1 := 128) _ _ _ oneU _ _ _ _ _ _ p q (oneU_apply p) (proj_exchange x1 x5 x14 x15 hx1 hx5 p q)
  show max (hostAt (Cert.ReferenceIdeal.Read.val_main_v35 (F := Ideal) x1 x14 x15) (Cert.ReferenceIdeal.Read.val_main_v41 (F := Ideal) x14) x0 x5 x6 x7 p q) _
    = max (unitAt' (M := 100000) (K2 := 64) (N := 64) (aggU (proj x1 x5) x14 x15) (invU x14) x0 (bias x6) x7 p q) _
  rw [hK, dU_eq]

end Cert.Bridge

end
-- ==== Proof.BridgeOut.lean ====
/-
  The plain program's result is the kernel's.

  Both end with the same gathers at the label pairs, the same products and the same row sums of the two layer-2
  tables; the tables agree layer by layer.
-/
import proofs.«136637_j76338748720023_2_alg».proof.Proof.Gen.ReferenceIdeal.Read
import proofs.«136637_j76338748720023_2_alg».proof.Proof.KTerms
import proofs.«136637_j76338748720023_2_alg».proof.Proof.SageHost
import Idealize.ShloMosaic.Lib.IdealHost
import proofs.«136637_j76338748720023_2_alg».proof.Proof.LibFinite
import proofs.«136637_j76338748720023_2_alg».proof.Proof.BridgeLayers
import proofs.«136637_j76338748720023_2_alg».proof.Proof.BridgeRev

set_option maxRecDepth 16384

noncomputable section

namespace Cert.Bridge

open Idealize.ShloMosaic Idealize.ShloMosaic.ValueIdx Cert.LibLayer Cert.Sage Cert.LibFinite
open Cert.KernelIdeal.KT

theorem out_eq (x0 : FVec Ideal Cert.KernelIdeal.S100000x64 .f32) (x1 : FVec Ideal Cert.KernelIdeal.S50000x128 .f32) (x2 : FVec Ideal Cert.KernelIdeal.S64x64 .f32) (x3 : FVec Ideal Cert.KernelIdeal.S64 .f32)
    (x4 x5 : FVec Ideal Cert.KernelIdeal.S128x64 .f32) (x6 : FVec Ideal Cert.KernelIdeal.S64 .f32) (x7 x8 : FVec Ideal Cert.KernelIdeal.S64x64 .f32) (x9 : FVec Ideal Cert.KernelIdeal.S64 .f32) (x10 x11 : FVec Ideal Cert.KernelIdeal.S64x64 .f32) (x12 : FVec Ideal Cert.KernelIdeal.S64 .f32) (x13 : FVec Ideal Cert.KernelIdeal.S64x64 .f32)
    (x14 x15 : IVec Cert.KernelIdeal.S2000000 32) (x16 x17 : IVec Cert.KernelIdeal.S500000 32) (hx1 : ∀ i, IsReal (x1 i)) (hx5 : ∀ i, IsReal (x5 i)) :
    Cert.ReferenceIdeal.Read.val_main_v117 (F := Ideal) x0 x1 x2 x3 x4 x5 x6 x7 x8 x9 x10 x11 x12 x13 x14 x15 x16 x17
      = tail (hu2 (hu x0 x1 x5 x6 x7 x14 x15) (hp x0 x1 x2 x3 x4 x14 x15) x11 x12 x13 x14 x15)
          (hp2 (hu x0 x1 x5 x6 x7 x14 x15) (hp x0 x1 x2 x3 x4 x14 x15) x8 x9 x10 x14 x15) x16 x17 := by
  have e : Cert.ReferenceIdeal.Read.val_main_v117 (F := Ideal) x0 x1 x2 x3 x4 x5 x6 x7 x8 x9 x10 x11 x12 x13 x14 x15 x16 x17
      = tail (Cert.ReferenceIdeal.Read.val_main_v101 (F := Ideal) x0 x1 x2 x3 x4 x5 x6 x7 x11 x12 x13 x14 x15) (Cert.ReferenceIdeal.Read.val_main_v76 (F := Ideal) x0 x1 x2 x3 x4 x5 x6 x7 x8 x9 x10 x14 x15) x16 x17 := rfl
  rw [e, hu2_eq, hp2_eq, hu_eq x0 x1 x5 x6 x7 x14 x15 hx1 hx5, hp_eq]

end Cert.Bridge

end
-- ==== Proof.Finite.lean ====
/-
  From "every float input is finite" to "every entry of the products' features and of the layer-1 aggregate weights
  is a real number".

  The precondition is one truth value: the conjunction, over the fourteen float arguments, of "every entry's absolute
  value is below +∞". It is all ones, so each conjunct is one, and an extended real whose absolute value is below +∞
  is a real number. Only two of the fourteen are needed: the two operands of the product that the kernel moves in
  front of the aggregation.
-/
import proofs.«136637_j76338748720023_2_alg».proof.Pre_finite_inputs
import proofs.«136637_j76338748720023_2_alg».proof.Proof.Gen.Pre_finite_inputs
import proofs.«136637_j76338748720023_2_alg».proof.Proof.LibFinite
import Idealize.ShloMosaic.Lib.Affine

set_option maxRecDepth 16384

noncomputable section

namespace Cert.Finite

open Idealize.ShloMosaic Idealize.ShloMosaic.ValueIdx Cert.LibFinite Cert.Pre_finite_inputs
open Cert.Pre_finite_inputs.Facts

theorem real_inputs (a0 : FVec Ideal S100000x64 .f32) (a1 : FVec Ideal S50000x128 .f32) (a2 : FVec Ideal S64x64 .f32) (a3 : FVec Ideal S64 .f32)
    (a4 a5 : FVec Ideal S128x64 .f32) (a6 : FVec Ideal S64 .f32) (a7 a8 : FVec Ideal S64x64 .f32) (a9 : FVec Ideal S64 .f32)
    (a10 a11 : FVec Ideal S64x64 .f32) (a12 : FVec Ideal S64 .f32) (a13 : FVec Ideal S64x64 .f32) (a14 a15 : IVec S2000000 32)
    (a16 a17 : IVec S500000 32)
    (h : fn (F := Ideal) a0 a1 a2 a3 a4 a5 a6 a7 a8 a9 a10 a11 a12 a13 a14 a15 a16 a17 = fun _ => 1#1) :
    (∀ i, IsReal (a1 i)) ∧ (∀ i, IsReal (a5 i)) := by
  have h0 := congrFun h ix0
  dsimp only [fn, fn_part1, fn_part2, fn_part3, fn_part4] at h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨h0, c5⟩ := IntOp.andi_eq_one.mp h0
  obtain ⟨h0, -⟩ := IntOp.andi_eq_one.mp h0
  obtain ⟨h0, -⟩ := IntOp.andi_eq_one.mp h0
  obtain ⟨h0, -⟩ := IntOp.andi_eq_one.mp h0
  obtain ⟨-, c1⟩ := IntOp.andi_eq_one.mp h0
  exact ⟨isReal_of_check a1 _ _ _ _ c1, isReal_of_check a5 _ _ _ _ c5⟩

end Cert.Finite

end
-- ==== Proof.Claims.lean ====
/-
  The five claims.

  The three programs run, terminate without a fault and leave their arguments alone: the two kernels by the
  generated frame of their nine segments, the plain program by its generated run. Nothing was rewritten when the
  kernel was idealized, so there is nothing to preserve. On the extended reals the idealized kernel ends with the
  label pairs' dot products of its two layer-2 tables (the run read whole, boundary by boundary), the plain program
  with the same of its own tables, and the tables agree layer by layer: three layers by commutativity, associativity
  and "times 1/d is over d" alone, and layer 1 at the users — where the kernel projects the products' features before
  it aggregates them — by distributivity over real numbers, the inputs being finite.
-/
import proofs.«136637_j76338748720023_2_alg».proof.Defs
import proofs.«136637_j76338748720023_2_alg».proof.Proof.Gen.Kernel.Frame
import proofs.«136637_j76338748720023_2_alg».proof.Proof.Gen.KernelIdeal.Frame
import proofs.«136637_j76338748720023_2_alg».proof.Proof.Gen.ReferenceIdeal.Run
import proofs.«136637_j76338748720023_2_alg».proof.Proof.Gen.ReferenceIdeal.Read
import proofs.«136637_j76338748720023_2_alg».proof.Proof.Gen.Pre_finite_inputs
import proofs.«136637_j76338748720023_2_alg».proof.Proof.KOut
import proofs.«136637_j76338748720023_2_alg».proof.Proof.BridgeOut
import proofs.«136637_j76338748720023_2_alg».proof.Proof.Finite

set_option maxRecDepth 16384

noncomputable section

namespace Cert.Proof.Claims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.KOut.res m c, Cert.KernelIdeal.KOut.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  obtain ⟨hx1, hx5⟩ := Cert.Finite.real_inputs _ _ _ _ _ _ _ _ _ _ _ _ _ _ _ _ _ _ (hpre c)
  rw [Cert.ReferenceIdeal.Read.val_main_v117_eq, e0, e1, e2, e3, e4, e5, e6, e7, e8, e9, e10, e11, e12, e13, e14, e15, e16, e17]
  exact Cert.Bridge.out_eq _ _ _ _ _ _ _ _ _ _ _ _ _ _ _ _ _ _ hx1 hx5

end Cert.Proof.Claims

end
-- ==== Proof.lean ====
/- The proof of `Cert.Claim`: the witnesses of the programs' stated side conditions (the generated instances), then the
   five claims of Proof/Claims.lean — the three frames, the (empty) preservation, and the equality of the idealized
   kernel's and the plain program's results on the extended reals. The kernel's value is read off its nine-segment
   run (Proof/KRun.lean, Proof/Carry.lean, Proof/Layer0–3.lean, Proof/KVals.lean, Proof/KOut.lean); the plain program's
   off its generated run; Proof/Sage.lean and Proof/SageHost.lean state one graph-convolution layer entry by entry, and
   Proof/BridgeCount.lean, BridgeLayers.lean, BridgeRev.lean, BridgeOut.lean join the two sides. -/
import proofs.«136637_j76338748720023_2_alg».proof.Defs
import proofs.«136637_j76338748720023_2_alg».proof.Proof.Gen.Kernel
import proofs.«136637_j76338748720023_2_alg».proof.Proof.Gen.Kernel.Skeleton
import proofs.«136637_j76338748720023_2_alg».proof.Proof.Gen.Kernel.Launch
import proofs.«136637_j76338748720023_2_alg».proof.Proof.Gen.Kernel.Points
import proofs.«136637_j76338748720023_2_alg».proof.Proof.Gen.Kernel.Frame
import proofs.«136637_j76338748720023_2_alg».proof.Proof.Gen.KernelIdeal
import proofs.«136637_j76338748720023_2_alg».proof.Proof.Gen.KernelIdeal.Skeleton
import proofs.«136637_j76338748720023_2_alg».proof.Proof.Gen.KernelIdeal.Launch
import proofs.«136637_j76338748720023_2_alg».proof.Proof.Gen.KernelIdeal.Points
import proofs.«136637_j76338748720023_2_alg».proof.Proof.Gen.KernelIdeal.Frame
import proofs.«136637_j76338748720023_2_alg».proof.Proof.Gen.ReferenceIdeal
import proofs.«136637_j76338748720023_2_alg».proof.Proof.Gen.Pre_finite_inputs
import proofs.«136637_j76338748720023_2_alg».proof.Proof.Gen.ReferenceIdeal.Run
import proofs.«136637_j76338748720023_2_alg».proof.Proof.Gen.ReferenceIdeal.Read
import proofs.«136637_j76338748720023_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
